-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)
  ∧ IdealRules.named_const.Statement Cert.KernelIdeal.κ "inv_1000000000000000000000000000000" .f32 0x0DA24260#32 ((1 / 1000000000000000000000000000000 : ℝ) : EReal)
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S4096x512 : Shape := ⟨2, ![4096, 512]⟩
abbrev S4096x1 : Shape := ⟨2, ![4096, 1]⟩
abbrev S1024x512 : Shape := ⟨2, ![1024, 512]⟩
abbrev S1024x1 : Shape := ⟨2, ![1024, 1]⟩
abbrev S512x512 : Shape := ⟨2, ![512, 512]⟩
abbrev S1024 : Shape := ⟨1, ![1024]⟩
abbrev S4096 : Shape := ⟨1, ![4096]⟩

abbrev nBuf : Space → Nat
  | .hbm => 33
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S4096x512, .bf16⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4096x512, .bf16⟩
  | .local _ .vmem, ⟨5, _⟩ => ⟨S4096x512, .bf16⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_4 : Index := 0#32
  ![v9.toNat, 0]
def k0_cond2 (i : grid0.Coords) : BitVec 1 :=
  let arg1 : BitVec 32 := BitVec.ofNat 32 (i 1).val
  let c7_i32 : BitVec 32 := 7#32
  let v81 : BitVec 1 := Scalar.cmpi .eq arg1 c7_i32
  let v82 : BitVec 32 := Scalar.extui v81
  let c0_i32_38 : BitVec 32 := 0#32
  let v83 : BitVec 1 := Scalar.cmpi .ne v82 c0_i32_38
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  slices_S8192x512_S4096x512_0_0 : S8192x512.Slices ![0, 0] S4096x512
  slices_S8192x512_S4096x512_4096_0 : S8192x512.Slices ![4096, 0] S4096x512
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S512x512 : 0 < S512x512.numel
  shapeCasts_S512x512_S512x512 : S512x512.ShapeCasts S512x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  shapeCasts_S4096x1_S4096 : S4096x1.ShapeCasts S4096
  reducesTo_S4096_S_d0 : S4096.ReducesTo [0] S_
  dot_S1024x512_S512x512_S1024x512_1_1_0_0_n_n_wf : DotDims.WF S1024x512 S512x512 S1024x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S4096x512 : Shape := ⟨2, ![4096, 512]⟩
abbrev S4096x4096 : Shape := ⟨2, ![4096, 4096]⟩
abbrev S512x4096 : Shape := ⟨2, ![512, 4096]⟩
abbrev S4096 : Shape := ⟨1, ![4096]⟩
abbrev S4096x8192 : Shape := ⟨2, ![4096, 8192]⟩
abbrev S4096x1 : Shape := ⟨2, ![4096, 1]⟩
abbrev S4096x2 : Shape := ⟨2, ![4096, 2]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S4096x512, .f32⟩
  | .hbm, ⟨12, _⟩ => ⟨S4096x512, .f32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S512x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S512x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S512x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S512x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096, .i32⟩
  | .hbm, ⟨48, _⟩ => ⟨S4096x8192, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x8192, .f32⟩
  | .hbm, ⟨56, _⟩ => ⟨S4096x8192, .f32⟩
  | .hbm, ⟨57, _⟩ => ⟨S4096x8192, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1, .f32⟩
  | .hbm, ⟨62, _⟩ => ⟨S4096x8192, .f32⟩
  | .hbm, ⟨63, _⟩ => ⟨S4096x8192, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .i32⟩
  | .hbm, ⟨78, _⟩ => ⟨S4096x1, .i32⟩
  | .hbm, ⟨79, _⟩ => ⟨S4096x1, .i32⟩
  | .hbm, ⟨80, _⟩ => ⟨S4096x2, .i32⟩
  | .hbm, ⟨81, _⟩ => ⟨S4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4096x8192, .f32⟩
  | .hbm, ⟨88, _⟩ => ⟨S_, .f32⟩
  | .hbm, ⟨89, _⟩ => ⟨S4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S4096x1, .f32⟩
  | .hbm, ⟨94, _⟩ => ⟨S4096x8192, .f32⟩
  | .hbm, ⟨95, _⟩ => ⟨S4096x8192, .f32⟩
  | .hbm, ⟨96, _⟩ => ⟨S4096x8192, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1, .f32⟩
  | .hbm, ⟨101, _⟩ => ⟨S4096x8192, .f32⟩
  | .hbm, ⟨102, _⟩ => ⟨S4096x8192, .f32⟩
  | .hbm, ⟨103, _⟩ => ⟨S_, .i32⟩
  | .hbm, ⟨104, _⟩ => ⟨S4096, .i32⟩
  | .hbm, ⟨105, _⟩ => ⟨S4096, .i1⟩
  | .hbm, ⟨106, _⟩ => ⟨S_, .i32⟩
  | .hbm, ⟨107, _⟩ => ⟨S4096, .i32⟩
  | .hbm, ⟨108, _⟩ => ⟨S4096, .i32⟩
  | .hbm, ⟨109, _⟩ => ⟨S4096, .i32⟩
  | .hbm, ⟨110, _⟩ => ⟨S_, .i32⟩
  | .hbm, ⟨111, _⟩ => ⟨S4096, .i32⟩
  | .hbm, ⟨112, _⟩ => ⟨S4096, .i1⟩
  | .hbm, ⟨113, _⟩ => ⟨S_, .i32⟩
  | .hbm, ⟨114, _⟩ => ⟨S4096, .i32⟩
  | .hbm, ⟨115, _⟩ => ⟨S4096, .i32⟩
  | .hbm, ⟨116, _⟩ => ⟨S4096, .i32⟩
  | .hbm, ⟨117, _⟩ => ⟨S4096x1, .i32⟩
  | .hbm, ⟨118, _⟩ => ⟨S4096x1, .i32⟩
  | .hbm, ⟨119, _⟩ => ⟨S4096x2, .i32⟩
  | .hbm, ⟨120, _⟩ => ⟨S4096, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call3_cst : Ref sig .tc := ⟨.hbm, 49, rfl⟩
abbrev main_call3_v0 : Ref sig .tc := ⟨.hbm, 50, rfl⟩
abbrev main_call3_cst_0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_v6 : Ref sig .tc := ⟨.hbm, 57, rfl⟩
abbrev main_call3_cst_1 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_v32 : Ref sig .tc := ⟨.hbm, 63, rfl⟩
abbrev main_c_6 : Ref sig .tc := ⟨.hbm, 64, rfl⟩
abbrev main_v33 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_8 : Ref sig .tc := ⟨.hbm, 71, rfl⟩
abbrev main_v38 : Ref sig .tc := ⟨.hbm, 72, rfl⟩
abbrev main_v39 : Ref sig .tc := ⟨.hbm, 73, rfl⟩
abbrev main_c_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_cst_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call4_cst : Ref sig .tc := ⟨.hbm, 88, rfl⟩
abbrev main_call4_v0 : Ref sig .tc := ⟨.hbm, 89, rfl⟩
abbrev main_call4_cst_0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_cst_1 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_v51 : Ref sig .tc := ⟨.hbm, 102, rfl⟩
abbrev main_c_12 : Ref sig .tc := ⟨.hbm, 103, rfl⟩
abbrev main_v52 : Ref sig .tc := ⟨.hbm, 104, rfl⟩
abbrev main_v53 : Ref sig .tc := ⟨.hbm, 105, rfl⟩
abbrev main_c_13 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c_14 : Ref sig .tc := ⟨.hbm, 110, rfl⟩
abbrev main_v57 : Ref sig .tc := ⟨.hbm, 111, rfl⟩
abbrev main_v58 : Ref sig .tc := ⟨.hbm, 112, rfl⟩
abbrev main_c_15 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_16 : Ref sig .tc := ⟨.hbm, 121, rfl⟩
abbrev main_v66 : Ref sig .tc := ⟨.hbm, 122, rfl⟩
abbrev main_cst_17 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  slices_S8192x512_S4096x512_0_0 : S8192x512.Slices ![0, 0] S4096x512
  slices_S8192x512_S4096x512_4096_0 : S8192x512.Slices ![4096, 0] S4096x512
  bcast_S_S4096x4096 : S_.BroadcastsInDim S4096x4096 (![] : Fin 0 → Fin S4096x4096.rank)
  transposes_S4096x512_S512x4096_1_0 : S4096x512.Transposes [1, 0] S512x4096
  concatenates_S4096x4096_S4096x4096_S4096x8192_d1 : Shape.Concatenates [S4096x4096, S4096x4096] S4096x8192 1
  reducesTo_S4096x8192_S4096_d1 : S4096x8192.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  concatenates_S4096x1_S4096x1_S4096x2_d1 : Shape.Concatenates [S4096x1, S4096x1] S4096x2 1
  reducesTo_S4096_S_d0 : S4096.ReducesTo [0] S_
  dot_S4096x512_S512x4096_S4096x4096_1_0_0_1_n_n_wf : DotDims.WF S4096x512 S512x4096 S4096x4096 [1] [0] [0] [1] [] []
  gather_S4096x8192_S4096x2_S4096_n_01_n_n_01_1_11_wf : GatherDims.WF S4096x8192 S4096x2 S4096 [] [0, 1] [] [0, 1] [] 1 ![1, 1]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x8192_S4096x2_S4096_n_01_n_n_01_1_11 : GatherDims S4096x8192 S4096x2 S4096 where
  offsetDims := []
  collapsedSliceDims := [0, 1]
  operandBatchingDims := []
  startIndicesBatchingDims := []
  startIndexMap := [0, 1]
  indexVectorDim := 1
  sliceSizes := ![1, 1]
  wf := gather_S4096x8192_S4096x2_S4096_n_01_n_n_01_1_11_wf

class Facts : Prop extends Facts₀ where

variable [Facts]
-- ==== Proof.RegionEntry.lean ====
/-
  The program around its one kernel region. @main first normalises the rows of the argument array
  (the row norms by an outlined function, the clamp below at 1e-12, the quotient), takes the two halves of
  the rows and narrows them; the region follows; fifteen host operations after it take the mean of
  (log-sum-exp − positive logit) over the rows, twice, and add the two means.
  Here: what every buffer of a core holds when the region is entered (the contents after the two stretches of
  host operations before it), and that @main is those stretches, the region, and the stretch after it.
-/
import proofs.«117558_j62045097558541_2_alg».proof.Proof.Gen.KernelIdeal.Launch
import proofs.«117558_j62045097558541_2_alg».proof.Proof.Gen.KernelIdeal.Points
import Idealize.ShloMosaic.Lib.Pipeline.FrameBody
import Idealize.ShloMosaic.Lib.Pipeline.FrameSuffix

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

variable (m : (ℓ : Loc nD τ sig) → Buf (Elt F) ℓ)

/-- A core's buffer contents when the region is entered: the launch contents after the host operations
    that precede the region (the row norms, then the normalisation, the two halves and their narrowing). -/
abbrev V0 (c : Dev nD) : Valuation τ sig (Elt F) :=
  StableHlo.after (List.flatten [hostOps0, hostOps0_1]) (fun b => m (c, b))

/-- The same read at a TensorCore reference. -/
abbrev V (c : Dev nD) (b : Ref sig .tc) : Buf (Elt F) ((c : Thread nD τ).loc b) := V0 m c (Proc.devRef .tc b)

theorem before_fresh :
    ([hostOps0, hostOps0_1] : List (List (HloOp τ sig (Elt F)))).Forall fun ops => ops.Forall fun op => op.fresh = ∅ := by
  simp only [List.Forall]; repeat' constructor

theorem after_fresh : (hostOps1 : List (HloOp τ sig (Elt F))).Forall fun op => op.fresh = ∅ := by
  simp only [List.Forall]; repeat' constructor

/-- @main is the host operations before the region, the region, and the host operations after it: holding the
    launch contents it reduces to the region, entered at `V`, continued by the later operations. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    before_fresh main_chain

end Cert.KernelIdeal.Launch

end
-- ==== Proof.SharedArrays.lean ====
/-
  One array read through two windows. The region's first and third windows stage the same array (the first half
  of the normalised rows, narrowed): one a block of 1024 rows at a time, the other the whole array once; the second
  and fourth windows do the same with the second half. The launch holds each of those arrays once, whole, at the
  full share; the pipeline wants one points-to per window. A full share is the composite of its left and right
  halves and a points-to splits along its share, so each shared array is dealt to its two windows as the two
  halves, at the same contents; the three result arrays go to their windows whole.
-/
import proofs.«117558_j62045097558541_2_alg».proof.Proof.RegionEntry

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F] [Named F]

local notation "𝕄" => MT nD τ sig Unit (Elt F) ℕ (UR sig nD τ) ℕ

/-- The distinct buffers behind the seven windows' arrays are five: the two shared inputs and the three results. -/
theorem arr_image :
    (Finset.univ.image (Pipeline.arrRef spec0) : Finset (Ref sig .tc))
      = [main_v7, main_v8, main_v9_0, main_v9_1, main_v9_2].toFinset := by decide

/-- The five buffers one by one. -/
theorem arrBufs_chain (c : Dev nD) (Vv : (b : Ref sig .tc) → Buf (Elt F) ((c.tc : Thread nD τ).loc b)) :
    (Pipeline.arrBufs spec0 c Vv : sProp 𝕄)
      = iprop((((c.tc : Thread nD τ).loc main_v7) ↦{fullShare} Vv main_v7)
          ∗ (((c.tc : Thread nD τ).loc main_v8) ↦{fullShare} Vv main_v8)
          ∗ (((c.tc : Thread nD τ).loc main_v9_0) ↦{fullShare} Vv main_v9_0)
          ∗ (((c.tc : Thread nD τ).loc main_v9_1) ↦{fullShare} Vv main_v9_1)
          ∗ (((c.tc : Thread nD τ).loc main_v9_2) ↦{fullShare} Vv main_v9_2)) := by
  unfold Pipeline.arrBufs
  exact bigSep_eq_bigSepL_of_eq _ arr_image (by decide) _

/-- A whole buffer's view covers every element, so the buffer's points-to, split along its share, is the view's
    points-to at the two parts. -/
theorem whole_share (c : Dev nD) {sp : Space} {s : Shape} {e : EltTy} (mr : Memref sig .tc sp s e) (hm : mr.IsWhole)
    (q : PosShare TreeShare) (f : Buf (Elt F) (mr.view.loc (c.tc : Thread nD τ))) :
    (mr.view.loc (c.tc : Thread nD τ) ↦{q} f : sProp 𝕄)
      ⊢ iprop((mr.view.loc (c.tc : Thread nD τ) ↦[mr.view.set]{q.left} f) ∗ (mr.view.loc (c.tc : Thread nD τ) ↦[mr.view.set]{q.right} f)) := by
  rw [hm.set_eq_univ]
  exact (pointsTo_share (PosShare.mem_left_op_right q)).1

/-- And unsplit it is the view's points-to at the same share. -/
theorem whole_same (c : Dev nD) {sp : Space} {s : Shape} {e : EltTy} (mr : Memref sig .tc sp s e) (hm : mr.IsWhole)
    (q : PosShare TreeShare) (f : Buf (Elt F) (mr.view.loc (c.tc : Thread nD τ))) :
    (mr.view.loc (c.tc : Thread nD τ) ↦{q} f : sProp 𝕄) ⊢ (mr.view.loc (c.tc : Thread nD τ) ↦[mr.view.set]{q} f) := by
  rw [hm.set_eq_univ]

/-- Dealing five resources to seven holders: the first two each split in two, the other three pass on. -/
theorem deal7 {M : Type} [URA M] {P0 P1 P4 P5 P6 L0 R0 L1 R1 Q4 Q5 Q6 : sProp M}
    (h0 : P0 ⊢ iprop(L0 ∗ R0)) (h1 : P1 ⊢ iprop(L1 ∗ R1)) (h4 : P4 ⊢ Q4) (h5 : P5 ⊢ Q5) (h6 : P6 ⊢ Q6) :
    iprop(P0 ∗ P1 ∗ P4 ∗ P5 ∗ P6) ⊢ iprop(L0 ∗ L1 ∗ R0 ∗ R1 ∗ Q4 ∗ Q5 ∗ Q6) := by
  iintro ⟨H0, H1, H4, H5, H6⟩
  ihave Hs0 := h0 $$ H0
  ihave Hs1 := h1 $$ H1
  icases Hs0 with ⟨H0l, H0r⟩
  icases Hs1 with ⟨H1l, H1r⟩
  isplitl [H0l]; · iexact H0l
  isplitl [H1l]; · iexact H1l
  isplitl [H0r]; · iexact H0r
  isplitl [H1r]; · iexact H1r
  isplitl [H4]; · iapply h4; iexact H4
  isplitl [H5]; · iapply h5; iexact H5
  iapply h6; iexact H6

set_option maxHeartbeats 800000 in
/-- The launch's five buffers make the pipeline's seven arrays: each shared input split into its halves. -/
theorem hsplit {c : Dev nD} (dat : Dat τ (Elt F) Unit ℕ (UR sig nD τ) ℕ cfg0 c)
    (Vv : (b : Ref sig .tc) → Buf (Elt F) ((c.tc : Thread nD τ).loc b))
    (hA : ∀ w, dat.A w = Vv (Pipeline.arrRef spec0 w))
    (h0 : dat.q 0 = fullShare.left) (h1 : dat.q 1 = fullShare.left)
    (h2 : dat.q 2 = fullShare.right) (h3 : dat.q 3 = fullShare.right) :
    (Pipeline.arrBufs spec0 c Vv : sProp 𝕄) ⊢ dat.arrays (fun w => dat.arrAt w 0) := by
  classical
  -- the entry contents of each window's array, at the buffer's own name
  have a0 : dat.arrAt 0 0 = Vv main_v7 := hA 0
  have a1 : dat.arrAt 1 0 = Vv main_v8 := hA 1
  have a2 : dat.arrAt 2 0 = Vv main_v7 := hA 2
  have a3 : dat.arrAt 3 0 = Vv main_v8 := hA 3
  have a4 : dat.arrAt 4 0 = Vv main_v9_0 := hA 4
  have a5 : dat.arrAt 5 0 = Vv main_v9_1 := hA 5
  have a6 : dat.arrAt 6 0 = Vv main_v9_2 := hA 6
  have s0 : dat.share 0 = fullShare.left := by unfold Dat.share; rw [if_neg (by decide), h0]
  have s1 : dat.share 1 = fullShare.left := by unfold Dat.share; rw [if_neg (by decide), h1]
  have s2 : dat.share 2 = fullShare.right := by unfold Dat.share; rw [if_neg (by decide), h2]
  have s3 : dat.share 3 = fullShare.right := by unfold Dat.share; rw [if_neg (by decide), h3]
  have s4 : dat.share 4 = fullShare := by unfold Dat.share; rw [if_pos (by decide)]
  have s5 : dat.share 5 = fullShare := by unfold Dat.share; rw [if_pos (by decide)]
  have s6 : dat.share 6 = fullShare := by unfold Dat.share; rw [if_pos (by decide)]
  unfold Dat.arrays
  rw [bigSep_W0, arrBufs_chain]
  simp only [s0, s1, s2, s3, s4, s5, s6]
  simp only [a0, a1, a2, a3, a4, a5, a6]
  refine deal7 ?_ ?_ ?_ ?_ ?_
  · exact whole_share c (Memref.whole main_v7) (Memref.isWhole_whole _) fullShare (Vv main_v7)
  · exact whole_share c (Memref.whole main_v8) (Memref.isWhole_whole _) fullShare (Vv main_v8)
  · exact whole_same c (Memref.whole main_v9_0) (Memref.isWhole_whole _) fullShare (Vv main_v9_0)
  · exact whole_same c (Memref.whole main_v9_1) (Memref.isWhole_whole _) fullShare (Vv main_v9_1)
  · exact whole_same c (Memref.whole main_v9_2) (Memref.isWhole_whole _) fullShare (Vv main_v9_2)

end Cert.KernelIdeal.Launch

end
-- ==== Proof.HostTail.lean ====
/-
  The host operations after the region. They read the three result arrays (each row's log-sum-exp for the two
  cross-entropies, and each row's positive logit), and write buffers that no window stages. They touch neither
  shared input array. So they run holding only the three result arrays, each whole at the full share (each is
  staged by exactly one window), and the buffers that bypass the region; the four input windows' points-tos are
  set aside untouched. What each buffer holds afterwards is the operations' composite applied to the contents at
  the region's exit: the result arrays as the pipeline left them, every other buffer as the region found it.
-/
import proofs.«117558_j62045097558541_2_alg».proof.Proof.RegionEntry

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The buffers the later operations run within -/

/-- The references of the three result arrays. -/
def outRefs : Finset (Ref sig .tc) :=
  [Pipeline.arrRef spec0 4, Pipeline.arrRef spec0 5, Pipeline.arrRef spec0 6].toFinset

theorem outRefs_sub : outRefs ⊆ Finset.univ.image (Pipeline.arrRef spec0) := by decide

/-- Each result array is staged by one window only. -/
theorem uniq4 : ∀ w' : Fin 7, Pipeline.arrRef spec0 w' = Pipeline.arrRef spec0 4 → w' = 4 := by decide
theorem uniq5 : ∀ w' : Fin 7, Pipeline.arrRef spec0 w' = Pipeline.arrRef spec0 5 → w' = 5 := by decide
theorem uniq6 : ∀ w' : Fin 7, Pipeline.arrRef spec0 w' = Pipeline.arrRef spec0 6 → w' = 6 := by decide

/-- The result arrays and the buffers that bypass the region, as device buffers. -/
def tailSet : Finset (DevRef τ sig) :=
  (outRefs ∪ Pipeline.restRefsP sig Pipeline.Prefetch.none spec0).map ⟨Proc.devRef (sig := sig) .tc, Proc.devRef_injective _⟩

theorem out_disjoint : Disjoint outRefs (Pipeline.restRefsP sig Pipeline.Prefetch.none spec0) :=
  Finset.disjoint_left.mpr fun b hb hr => (Finset.mem_sdiff.mp (Finset.mem_sdiff.mp hr).1).2 (outRefs_sub hb)

/-- That set held at a valuation: the three result arrays, then the bypassing buffers. -/
theorem held_tailSet (c : Dev nD) (Wv : Valuation τ sig (Elt F)) :
    (StableHlo.held (c.tc : Thread nD τ) tailSet Wv : sProp 𝕄)
      = iprop(((((c.tc : Thread nD τ).loc (Pipeline.arrRef spec0 4)) ↦{fullShare} Wv (Proc.devRef .tc (Pipeline.arrRef spec0 4)))
            ∗ (((c.tc : Thread nD τ).loc (Pipeline.arrRef spec0 5)) ↦{fullShare} Wv (Proc.devRef .tc (Pipeline.arrRef spec0 5)))
            ∗ (((c.tc : Thread nD τ).loc (Pipeline.arrRef spec0 6)) ↦{fullShare} Wv (Proc.devRef .tc (Pipeline.arrRef spec0 6))))
          ∗ Pipeline.unscopedRestP Pipeline.Prefetch.none spec0 c (fun b => Wv (Proc.devRef .tc b))) := by
  classical
  unfold StableHlo.held tailSet
  rw [bigSep_map, bigSep_union out_disjoint]
  congr 1
  unfold outRefs
  exact bigSep_eq_bigSepL _ (by decide) _

/-- A reference that is unscoped and no window's array bypasses the region. -/
theorem mem_tailSet_rest (r : Ref sig .tc) (hs : r.isScoped = false) (ha : ∀ w, (spec0 w).arr.view.ref ≠ r) :
    Proc.devRef (τ := τ) .tc r ∈ tailSet :=
  Finset.mem_map_of_mem _ (Finset.mem_union_right _
    (Finset.mem_sdiff.mpr ⟨Pipeline.mem_restRefs_of r hs ha, fun h => by
      obtain ⟨k, -, -⟩ := Finset.mem_image.mp h; exact k.elim0⟩))

theorem mem_tailSet_out (r : Ref sig .tc) (h : r ∈ outRefs) : Proc.devRef (τ := τ) .tc r ∈ tailSet :=
  Finset.mem_map_of_mem _ (Finset.mem_union_left _ h)

/-! ## The contents at the region's exit -/

/-- Where one window only stages an array, the exit contents at that array are the window's. -/
theorem withArrays_out (c : Dev nD) (V₁ : Valuation τ sig (Elt F))
    (A : (w : Fin 7) → Buf (Elt F) ((spec0 w).arr.view.loc (c.tc : Thread nD τ))) (w : Fin 7)
    (hw : ∀ w' : Fin 7, Pipeline.arrRef spec0 w' = Pipeline.arrRef spec0 w → w' = w) :
    Pipeline.withArrays spec0 c V₁ A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := hw w' (Proc.devRef_injective _ e)
  rfl

/-- A core's buffer contents at the region's exit: each array as the pipeline's write-backs left it, every other
    buffer as the region found it. -/
abbrev Vexit {c : Dev nD} (dat : Dat τ (Elt F) Unit ℕ (UR sig nD τ) ℕ cfg0 c) : Valuation τ sig (Elt F) :=
  Pipeline.withArrays spec0 c (V0 m c) (fun w => dat.arrAt w cfg0.N)

/-- And after the later host operations. -/
abbrev Vend {c : Dev nD} (dat : Dat τ (Elt F) Unit ℕ (UR sig nD τ) ℕ cfg0 c) (b : Ref sig .tc) :
    Buf (Elt F) ((c.tc : Thread nD τ).loc b) :=
  StableHlo.after (List.flatten [hostOps1]) (Vexit m dat) (Proc.devRef .tc b)

/-- A result array as the pipeline holds it after the last point: the whole buffer at the full share. -/
theorem out_pt {c : Dev nD} (dat : Dat τ (Elt F) Unit ℕ (UR sig nD τ) ℕ cfg0 c) (w : Fin 7) (hs : dat.share w = fullShare) :
    ((cfg0.win w).arr.view.loc (c.tc : Thread nD τ) ↦[(cfg0.win w).arr.view.set]{dat.share w} dat.arrAt w cfg0.N : sProp 𝕄)
      = (((c.tc : Thread nD τ).loc (Pipeline.arrRef spec0 w)) ↦{fullShare} dat.arrAt w cfg0.N) := by
  rw [(arr_whole0 w).set_eq_univ, hs]

/-! ## The later operations stay inside the set and write no array -/

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_fresh) op hop

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl | rfl | rfl
  all_goals
    intro b hb
    simp only [StableHlo.reshape_bufs, StableHlo.binary_bufs, StableHlo.nullary_bufs, Finset.mem_insert,
      Finset.mem_singleton] at hb
    rcases hb with rfl | rfl | rfl <;>
      first
        | exact mem_tailSet_out _ (by decide)
        | exact mem_tailSet_rest _ (by decide) (by decide)

theorem tail_keeps : ∀ op ∈ (List.flatten [hostOps1] : List (HloOp τ sig (Elt F))), ∀ w : Fin 7,
    Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals
    intro w
    fin_cases w <;>
      simp only [StableHlo.nullary_writes, StableHlo.binary_writes, StableHlo.reshape_writes, Finset.mem_singleton] <;>
      exact StableHlo.devRef_ne_of_ne (by decide)

/-! ## The run of the later operations -/

set_option maxHeartbeats 6400000 in
set_option backward.isDefEq.respectTransparency.types false in
/-- From the region's exit — the seven windows' arrays as the pipeline left them, the bypassing buffers as the region
    found them — the later operations run and hand back the same arrays and the bypassing buffers at the operations'
    composite of the exit contents. -/
theorem htail {c : Dev nD} (dat : Dat τ (Elt F) Unit ℕ (UR sig nD τ) ℕ cfg0 c) (𝒱₀ : Variants)
    (s4 : dat.share 4 = fullShare) (s5 : dat.share 5 = fullShare) (s6 : dat.share 6 = fullShare)
    (Q' : PUnit → sProp 𝕄) :
    iprop((iprop(dat.arrays (fun w => dat.arrAt w cfg0.N)
              ∗ Pipeline.unscopedRestP Pipeline.Prefetch.none spec0 c (Vend m dat)) -∗ Q' ⟨⟩)
        ∗ boundary (c.tc : Thread nD τ) ∗ dat.arrays (fun w => dat.arrAt w cfg0.N)
        ∗ Pipeline.unscopedRestP Pipeline.Prefetch.none spec0 c (fun b => V0 m c (Proc.devRef .tc b)))
      ⊢ wp frame (wpE (Pipeline.defs (fun q => (cfgs q).toPCfg (Val := Elt F)) defs₀) (Variants.lift 𝒱₀) (c.tc : Thread nD τ) none)
          Set.univ (Pipeline.chain ([hostOps1].map StableHlo.seq)) Q' := by
  classical
  have hW : (StableHlo.held (c.tc : Thread nD τ) tailSet (Vexit m dat) : sProp 𝕄)
      = iprop(((((c.tc : Thread nD τ).loc (Pipeline.arrRef spec0 4)) ↦{fullShare} dat.arrAt 4 cfg0.N)
            ∗ (((c.tc : Thread nD τ).loc (Pipeline.arrRef spec0 5)) ↦{fullShare} dat.arrAt 5 cfg0.N)
            ∗ (((c.tc : Thread nD τ).loc (Pipeline.arrRef spec0 6)) ↦{fullShare} dat.arrAt 6 cfg0.N))
          ∗ Pipeline.unscopedRestP Pipeline.Prefetch.none spec0 c (fun b => V0 m c (Proc.devRef .tc b))) := by
    rw [held_tailSet]
    dsimp only [Vexit]
    rw [withArrays_out c _ _ 4 uniq4, withArrays_out c _ _ 5 uniq5, withArrays_out c _ _ 6 uniq6]
    congr 1
  have hW' : (StableHlo.held (c.tc : Thread nD τ) tailSet (StableHlo.after (List.flatten [hostOps1]) (Vexit m dat)) : sProp 𝕄)
      = iprop(((((c.tc : Thread nD τ).loc (Pipeline.arrRef spec0 4)) ↦{fullShare} dat.arrAt 4 cfg0.N)
            ∗ (((c.tc : Thread nD τ).loc (Pipeline.arrRef spec0 5)) ↦{fullShare} dat.arrAt 5 cfg0.N)
            ∗ (((c.tc : Thread nD τ).loc (Pipeline.arrRef spec0 6)) ↦{fullShare} dat.arrAt 6 cfg0.N))
          ∗ Pipeline.unscopedRestP Pipeline.Prefetch.none spec0 c (Vend m dat)) := by
    rw [held_tailSet]
    dsimp only [Vexit, Vend]
    rw [
      StableHlo.after_of_forall_not_mem _ _ (fun op hop => tail_keeps op hop 4), withArrays_out c _ _ 4 uniq4,
      StableHlo.after_of_forall_not_mem _ _ (fun op hop => tail_keeps op hop 5), withArrays_out c _ _ 5 uniq5,
      StableHlo.after_of_forall_not_mem _ _ (fun op hop => tail_keeps op hop 6), withArrays_out c _ _ 6 uniq6]
  unfold Dat.arrays
  rw [bigSep_W0]
  simp only [out_pt dat 4 s4, out_pt dat 5 s5, out_pt dat 6 s6]
  rw [← List.append_nil ([hostOps1].map StableHlo.seq)]
  iintro ⟨Hk, Hb, ⟨A0, A1, A2, A3, A4, A5, A6⟩, HZ⟩
  ihave Hrun := (Pipeline.wp_seqs_then (fun q => (cfgs q).toPCfg (Val := Elt F)) defs₀ 𝒱₀ c tailSet [] [hostOps1]
    tail_sub tail_fresh (Vexit m dat)) $$ [Hb A4 A5 A6 HZ]
  · rw [hW]
    isplitl [Hb]; · iexact Hb
    isplitr [HZ]
    · isplitl [A4]; · iexact A4
      isplitl [A5]; · iexact A5
      iexact A6
    · iexact HZ
  iapply Hrun
  iintro Hb'
  rw [Pipeline.chain_nil, wp_pure, hW']
  imodintro
  iapply Hk
  icases Hb' with ⟨-, ⟨⟨B4, B5, B6⟩, HZ'⟩⟩
  isplitr [HZ']
  · isplitl [A0]; · iexact A0
    isplitl [A1]; · iexact A1
    isplitl [A2]; · iexact A2
    isplitl [A3]; · iexact A3
    isplitl [B4]; · iexact B4
    isplitl [B5]; · iexact B5
    iexact B6
  · iexact HZ'

end Cert.KernelIdeal.Launch

end
-- ==== Proof.Body.Setup.lean ====
/- What the three runs of the contrastive-loss kernel's body share. The grid is 4 x 8: the outer coordinate picks a block of
   1024 rows of each half of the normalised features, the inner coordinate j walks the eight tiles of 512 columns of the
   similarity matrices. Three accumulators (one column of 1024 entries each: the two running sums of exponentials and the
   running diagonal term) are zeroed at j = 0, increased at every j, and turned into the three outputs' blocks at j = 7.
   Here: the arrays as the region finds them, the windows' blocks, the two conditions of the body in closed form over the
   grid, where the outputs' buffers are left untouched, the memrefs the body is called with, and the region's invariant
   with the three accumulators spelt out. -/
import proofs.«117558_j62045097558541_2_alg».proof.Proof.Gen.KernelIdeal.Launch
import proofs.«117558_j62045097558541_2_alg».proof.Proof.Gen.KernelIdeal.Skeleton
import proofs.«117558_j62045097558541_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The arrays as the region finds them -/

/-- Core `c`'s buffers when the region is entered: after the host operations that normalise the rows, split the two
    halves and round them to bf16. -/
abbrev V0 (c : Dev nD) : Valuation τ sig (Elt F) := StableHlo.after (hostOps0 ++ hostOps0_1) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place: the row blocks of the first half, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the row blocks of the second half, -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the first half staged whole, -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the second half staged whole. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body zeroes the accumulators when the column tile is the first (j = 0): the condition as the body computes it from
    the inner grid coordinate. -/
abbrev firstTile (i : grid0.Coords) : Prop := (Scalar.cmpi .ne (Scalar.extui (Scalar.cmpi .eq (BitVec.ofNat 32 (i 1).val) 0#32)) 0#32) = 1#1
/-- It holds at the points ≡ 0 (mod 8): decided over the 32 points. -/
theorem firstTile_iff : ∀ t : Fin cfg0.N, firstTile (grid0.coords t) ↔ t.val % 8 = 0 :=
  (by decide +kernel : ∀ t : Fin grid0.N, firstTile (grid0.coords t) ↔ t.val % 8 = 0)

/-- The body writes the three outputs when the column tile is the last (j = 7). -/
abbrev lastTile (i : grid0.Coords) : Prop := k0_cond2 i = 1#1
/-- It holds at the points ≡ 7 (mod 8). -/
theorem lastTile_iff : ∀ t : Fin cfg0.N, lastTile (grid0.coords t) ↔ t.val % 8 = 7 :=
  (by decide +kernel : ∀ t : Fin grid0.N, lastTile (grid0.coords t) ↔ t.val % 8 = 7)

/-! ## Where the windows are idle -/

/-- The four inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last column tile the body stores nothing into the three outputs' buffers, and the pipeline does not
    write them back there. -/
theorem idle0_4 : ∀ t : Fin cfg0.N, ¬lastTile (grid0.coords t) → cfg0.idle 4 (grid0.coords t) = true := by decide +kernel
theorem idle0_5 : ∀ t : Fin cfg0.N, ¬lastTile (grid0.coords t) → cfg0.idle 5 (grid0.coords t) = true := by decide +kernel
theorem idle0_6 : ∀ t : Fin cfg0.N, ¬lastTile (grid0.coords t) → cfg0.idle 6 (grid0.coords t) = true := by decide +kernel
theorem noFlush0_4 : ∀ t : Fin cfg0.N, ¬lastTile (grid0.coords t) → (cfg0.win 4).flush t = false := by decide +kernel
theorem noFlush0_5 : ∀ t : Fin cfg0.N, ¬lastTile (grid0.coords t) → (cfg0.win 5).flush t = false := by decide +kernel
theorem noFlush0_6 : ∀ t : Fin cfg0.N, ¬lastTile (grid0.coords t) → (cfg0.win 6).flush t = false := by decide +kernel
/-- At the last column tile it stores into all three. -/
theorem live0_4 : ∀ t : Fin cfg0.N, lastTile (grid0.coords t) → cfg0.idle 4 (grid0.coords t) = false := by decide +kernel
theorem live0_5 : ∀ t : Fin cfg0.N, lastTile (grid0.coords t) → cfg0.idle 5 (grid0.coords t) = false := by decide +kernel
theorem live0_6 : ∀ t : Fin cfg0.N, lastTile (grid0.coords t) → cfg0.idle 6 (grid0.coords t) = false := by decide +kernel

/-! ## The memrefs the body is called with -/

/-- One staging buffer of each output, through which its contents are stated (the choice does not matter once the stores
    cover the block). -/
abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view
abbrev VO6 : View sig .tc .vmem S1024x1 .f32 := (Memref.whole cc0_stg6_0 : Memref sig .tc .vmem S1024x1 .f32).view
/-- Each window's current staging memref at point `t`, spelt as the pipeline passes it, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The three accumulators: whole scoped buffers of the kernel's own, passed beside the windows. -/
abbrev accM0 : Memref sig .tc .vmem S1024x1 .f32 := Memref.whole cc0_scratch0
abbrev accM1 : Memref sig .tc .vmem S1024x1 .f32 := Memref.whole cc0_scratch1
abbrev accM2 : Memref sig .tc .vmem S1024x1 .f32 := Memref.whole cc0_scratch2
/-- and as views, through which what they hold is stated. -/
abbrev VA0 : View sig .tc .vmem S1024x1 .f32 := accM0.view
abbrev VA1 : View sig .tc .vmem S1024x1 .f32 := accM1.view
abbrev VA2 : View sig .tc .vmem S1024x1 .f32 := accM2.view

/-- What the launch hands the region, with the three accumulators as memrefs owned at some contents each. -/
theorem PhiA_eq (c : Dev nD) :
    (Pipeline.ΦA spec0 c : sProp 𝕄)
      = iprop(iprop((∃ d, owns (c : Thread nD τ) accM0 fullShare d) ∗ (∃ d, owns (c : Thread nD τ) accM1 fullShare d) ∗ (∃ d, owns (c : Thread nD τ) accM2 fullShare d)) ∗ (∃ r, prngReg c r)) := by
  unfold Pipeline.ΦA; rw [scopedRest0_eq]; simp only [accM0, accM1, accM2, owns_whole]; try rfl

end Cert.KernelIdeal.Body

end
-- ==== Proof.Body.RunFirst.lean ====
/- The body's run at the first column tile (j = 0): the accumulators, whatever they held, are zeroed and then increased by
   this tile's contributions; the three outputs' buffers are not touched. The lists of pieces each accumulator ends with
   are found by the run. -/
import proofs.«117558_j62045097558541_2_alg».proof.Proof.Body.Setup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- At a point with j = 0 and on whole memrefs — the four inputs' at their contents, the outputs' at contents handed back
    untouched, the accumulators' at anything — the body runs to the continuation holding the inputs and outputs as they
    were and each accumulator with its pieces written (last first): the witness the run finds. -/
noncomputable def runFirst (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) :
    Σ' (LA0 : List (View.Piece (Elt F) S1024x1 .f32)) (LA1 : List (View.Piece (Elt F) S1024x1 .f32)), { LA2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LA0) ∗ (∃ f, arg10.view.loc (c : Thread nD τ) ↦[arg10.view.set]{fullShare} arg10.view.writes (Elt F) f LA1) ∗ (∃ f, arg11.view.loc (c : Thread nD τ) ↦[arg11.view.set]{fullShare} arg11.view.writes (Elt F) f LA2)) -∗ K ⟨⟩))
          ⊢ wp frame (wpE (defs₀ (F := F)) Variants.none c none) E (cc0__nt_xent_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Body

end
-- ==== Proof.Body.RunMiddle.lean ====
/- The body's run at a column tile that is neither the first nor the last (0 < j < 7): each accumulator, holding what the
   tile before left, is increased by this tile's contribution; the three outputs' buffers are not touched. -/
import proofs.«117558_j62045097558541_2_alg».proof.Proof.Body.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- At a point with 0 < j < 7 and on whole memrefs — the four inputs' at their contents, the outputs' at contents handed
    back untouched, the accumulators' at the contents `xs·` the point before left — the body runs to the continuation
    holding the inputs and outputs as they were and each accumulator with its pieces written: the witness the run finds. -/
noncomputable def runMiddle (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) :
    Σ' (LA0 : List (View.Piece (Elt F) S1024x1 .f32)) (LA1 : List (View.Piece (Elt F) S1024x1 .f32)), { LA2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LA0) ∗ (∃ f, arg10.view.loc (c : Thread nD τ) ↦[arg10.view.set]{fullShare} arg10.view.writes (Elt F) f LA1) ∗ (∃ f, arg11.view.loc (c : Thread nD τ) ↦[arg11.view.set]{fullShare} arg11.view.writes (Elt F) f LA2)) -∗ K ⟨⟩))
          ⊢ wp frame (wpE (defs₀ (F := F)) Variants.none c none) E (cc0__nt_xent_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Body

end
-- ==== Proof.Body.RunLast.lean ====
/- The body's run at the last column tile (j = 7): each accumulator, holding what the tile before left, is increased by this
   tile's contribution, and then each output's buffer is stored whole from the accumulators' final contents. -/
import proofs.«117558_j62045097558541_2_alg».proof.Proof.Body.RunMiddle

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- At a point with j = 7 and on whole memrefs — the four inputs' at their contents, the outputs' at anything, the
    accumulators' at the contents `xs·` the point before left — the body runs to the continuation holding the inputs as
    they were and each output's buffer and each accumulator with its pieces written: the witness the run finds. -/
noncomputable def runLast (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    Σ' (L4 : List (View.Piece (Elt F) S1024x1 .f32)) (L5 : List (View.Piece (Elt F) S1024x1 .f32)) (L6 : List (View.Piece (Elt F) S1024x1 .f32)) (LA0 : List (View.Piece (Elt F) S1024x1 .f32)) (LA1 : List (View.Piece (Elt F) S1024x1 .f32)), { LA2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LA0) ∗ (∃ f, arg10.view.loc (c : Thread nD τ) ↦[arg10.view.set]{fullShare} arg10.view.writes (Elt F) f LA1) ∗ (∃ f, arg11.view.loc (c : Thread nD τ) ↦[arg11.view.set]{fullShare} arg11.view.writes (Elt F) f LA2)) -∗ K ⟨⟩))
          ⊢ wp frame (wpE (defs₀ (F := F)) Variants.none c none) E (cc0__nt_xent_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Body

end
-- ==== Proof.Body.Accum.lean ====
/- What the body leaves, case by case and then point by point. In each case the pieces the run found for a buffer tile
   it (whole-block stores), so what the buffer holds afterwards is those pieces read back, whatever it held before. The
   recursion on the point then says what the three accumulators hold after each point — zeroed and increased at j = 0,
   increased over what the point before left elsewhere — and what the three outputs' buffers hold after a point with
   j = 7. -/
import proofs.«117558_j62045097558541_2_alg».proof.Proof.Body.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- What the six buffers the body writes hold after a point: the three outputs' staging buffers (meaningful after a point
    with j = 7 only: elsewhere the body does not touch them and these components are placeholders nothing reads) and the
    three accumulators. -/
structure Held (F : FTy → Type) where
  out4 : Vec F S1024x1 .f32
  out5 : Vec F S1024x1 .f32
  out6 : Vec F S1024x1 .f32
  acc0 : Vec F S1024x1 .f32
  acc1 : Vec F S1024x1 .f32
  acc2 : Vec F S1024x1 .f32

/-! ## The first column tile -/

/-- At j = 0 each accumulator's pieces (the zeroing store and the increasing store) tile it. -/
theorem coverFirst0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) (y : S1024x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).1 S1024x1.size (by sl_kernel_rfl) y

theorem coverFirst1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) (y : S1024x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.1 S1024x1.size (by sl_kernel_rfl) y

theorem coverFirst2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) (y : S1024x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.1 S1024x1.size (by sl_kernel_rfl) y

/-- What a point with j = 0 leaves: the accumulators' pieces read back; the outputs' components are placeholders. -/
def heldFirst (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) : Held F where
  out4 := VO4.read (Elt F) VO4.junk
  out5 := VO5.read (Elt F) VO5.junk
  out6 := VO6.read (Elt F) VO6.junk
  acc0 := VA0.read (Elt F) (VA0.writes (Elt F) VA0.junk (runFirst c i arg2 harg2 arg3 harg3 arg4 harg4 arg5 harg5 arg6 harg6 arg7 harg7 arg8 harg8 arg9 harg9 arg10 harg10 arg11 harg11 hc0 hc1 x0 x1 x2 x3).1)
  acc1 := VA1.read (Elt F) (VA1.writes (Elt F) VA1.junk (runFirst c i arg2 harg2 arg3 harg3 arg4 harg4 arg5 harg5 arg6 harg6 arg7 harg7 arg8 harg8 arg9 harg9 arg10 harg10 arg11 harg11 hc0 hc1 x0 x1 x2 x3).2.1)
  acc2 := VA2.read (Elt F) (VA2.writes (Elt F) VA2.junk (runFirst c i arg2 harg2 arg3 harg3 arg4 harg4 arg5 harg5 arg6 harg6 arg7 harg7 arg8 harg8 arg9 harg9 arg10 harg10 arg11 harg11 hc0 hc1 x0 x1 x2 x3).2.2.1)

/-! ## A column tile in the middle -/

/-- At 0 < j < 7 each accumulator's one piece (the increasing store) tiles it. -/
theorem coverMiddle0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) (y : S1024x1.Idx) :
    ∃ pc ∈ (runMiddle c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (runMiddle c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

theorem coverMiddle1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) (y : S1024x1.Idx) :
    ∃ pc ∈ (runMiddle c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (runMiddle c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

theorem coverMiddle2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) (y : S1024x1.Idx) :
    ∃ pc ∈ (runMiddle c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (runMiddle c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What a point with 0 < j < 7 leaves, over what the point before left in the accumulators. -/
def heldMiddle (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) : Held F where
  out4 := VO4.read (Elt F) VO4.junk
  out5 := VO5.read (Elt F) VO5.junk
  out6 := VO6.read (Elt F) VO6.junk
  acc0 := VA0.read (Elt F) (VA0.writes (Elt F) VA0.junk (runMiddle c i arg2 harg2 arg3 harg3 arg4 harg4 arg5 harg5 arg6 harg6 arg7 harg7 arg8 harg8 arg9 harg9 arg10 harg10 arg11 harg11 hc0 hc1 x0 x1 x2 x3 xs0 xs1 xs2).1)
  acc1 := VA1.read (Elt F) (VA1.writes (Elt F) VA1.junk (runMiddle c i arg2 harg2 arg3 harg3 arg4 harg4 arg5 harg5 arg6 harg6 arg7 harg7 arg8 harg8 arg9 harg9 arg10 harg10 arg11 harg11 hc0 hc1 x0 x1 x2 x3 xs0 xs1 xs2).2.1)
  acc2 := VA2.read (Elt F) (VA2.writes (Elt F) VA2.junk (runMiddle c i arg2 harg2 arg3 harg3 arg4 harg4 arg5 harg5 arg6 harg6 arg7 harg7 arg8 harg8 arg9 harg9 arg10 harg10 arg11 harg11 hc0 hc1 x0 x1 x2 x3 xs0 xs1 xs2).2.2.1)

/-! ## The last column tile -/

/-- At j = 7 each output's one piece (its whole block) tiles it, -/
theorem coverLast4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

theorem coverLast5 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

theorem coverLast6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- and each accumulator's one piece tiles it. -/
theorem coverLastAcc0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

theorem coverLastAcc1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

theorem coverLastAcc2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What a point with j = 7 leaves, over what the point before left in the accumulators: the outputs' blocks and the
    accumulators' final contents. -/
def heldLast (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) : Held F where
  out4 := VO4.read (Elt F) (VO4.writes (Elt F) VO4.junk (runLast c i arg2 harg2 arg3 harg3 arg4 harg4 arg5 harg5 arg6 harg6 arg7 harg7 arg8 harg8 arg9 harg9 arg10 harg10 arg11 harg11 hc0 hc1 x0 x1 x2 x3 xs0 xs1 xs2).1)
  out5 := VO5.read (Elt F) (VO5.writes (Elt F) VO5.junk (runLast c i arg2 harg2 arg3 harg3 arg4 harg4 arg5 harg5 arg6 harg6 arg7 harg7 arg8 harg8 arg9 harg9 arg10 harg10 arg11 harg11 hc0 hc1 x0 x1 x2 x3 xs0 xs1 xs2).2.1)
  out6 := VO6.read (Elt F) (VO6.writes (Elt F) VO6.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.1)
  acc0 := VA0.read (Elt F) (VA0.writes (Elt F) VA0.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.2.1)
  acc1 := VA1.read (Elt F) (VA1.writes (Elt F) VA1.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1)
  acc2 := VA2.read (Elt F) (VA2.writes (Elt F) VA2.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## Point by point -/

/-- THE ACCUMULATION. What the six buffers hold after the body at position `n`: the case the closed forms select there,
    run at the point's memrefs and input blocks, the accumulators starting from what position `n - 1` left unless the
    point zeroes them. -/
def heldAt (c : Dev nD) : (n : ℕ) → n < cfg0.N → Held F
  | 0, hn => heldFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM0 (Memref.isWhole_whole _) accM1 (Memref.isWhole_whole _) accM2 (Memref.isWhole_whole _) ((firstTile_iff ⟨0, hn⟩).mpr (Nat.zero_mod _)) (fun h => (fun h => by (try dsimp only at h); omega) ((lastTile_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      heldFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM0 (Memref.isWhole_whole _) accM1 (Memref.isWhole_whole _) accM2 (Memref.isWhole_whole _) ((firstTile_iff ⟨n + 1, hn⟩).mpr h0) (fun h => (fun h => by (try dsimp only at h); omega) ((lastTile_iff ⟨n + 1, hn⟩).mp h)) (iblk m c 0 ⟨n + 1, hn⟩) (iblk m c 1 ⟨n + 1, hn⟩) (iblk m c 2 ⟨n + 1, hn⟩) (iblk m c 3 ⟨n + 1, hn⟩)
    else if h7 : (n + 1) % 8 = 7 then
      heldLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM0 (Memref.isWhole_whole _) accM1 (Memref.isWhole_whole _) accM2 (Memref.isWhole_whole _) (fun h => h0 ((firstTile_iff ⟨n + 1, hn⟩).mp h)) ((lastTile_iff ⟨n + 1, hn⟩).mpr h7) (iblk m c 0 ⟨n + 1, hn⟩) (iblk m c 1 ⟨n + 1, hn⟩) (iblk m c 2 ⟨n + 1, hn⟩) (iblk m c 3 ⟨n + 1, hn⟩) (heldAt c n (Nat.lt_of_succ_lt hn)).acc0 (heldAt c n (Nat.lt_of_succ_lt hn)).acc1 (heldAt c n (Nat.lt_of_succ_lt hn)).acc2
    else
      heldMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM0 (Memref.isWhole_whole _) accM1 (Memref.isWhole_whole _) accM2 (Memref.isWhole_whole _) (fun h => h0 ((firstTile_iff ⟨n + 1, hn⟩).mp h)) (fun h => h7 ((lastTile_iff ⟨n + 1, hn⟩).mp h)) (iblk m c 0 ⟨n + 1, hn⟩) (iblk m c 1 ⟨n + 1, hn⟩) (iblk m c 2 ⟨n + 1, hn⟩) (iblk m c 3 ⟨n + 1, hn⟩) (heldAt c n (Nat.lt_of_succ_lt hn)).acc0 (heldAt c n (Nat.lt_of_succ_lt hn)).acc1 (heldAt c n (Nat.lt_of_succ_lt hn)).acc2

/-- The point before `t`, as a position. -/
abbrev prevLt (t : Fin cfg0.N) : t.val - 1 < cfg0.N := Nat.lt_of_le_of_lt (Nat.sub_le _ _) t.isLt

/-- `heldAt` at a point with j = 0. -/
theorem heldAt_first (c : Dev nD) (t : Fin cfg0.N) (h0 : t.val % 8 = 0) (h7 : ¬t.val % 8 = 7) :
    heldAt m c t.val t.isLt = heldFirst c (grid0.coords t) (ms0 t) (hs0 t) (ms1 t) (hs1 t) (ms2 t) (hs2 t) (ms3 t) (hs3 t) (ms4 t) (hs4 t) (ms5 t) (hs5 t) (ms6 t) (hs6 t) accM0 (Memref.isWhole_whole _) accM1 (Memref.isWhole_whole _) accM2 (Memref.isWhole_whole _) ((firstTile_iff t).mpr h0) (fun h => h7 ((lastTile_iff t).mp h)) (iblk m c 0 t) (iblk m c 1 t) (iblk m c 2 t) (iblk m c 3 t) := by
  obtain ⟨n, hn⟩ := t
  cases n with
  | zero => exact rfl
  | succ n => exact (dif_pos h0).trans rfl

/-- `heldAt` at a point with 0 < j < 7: over what the point before left. -/
theorem heldAt_middle (c : Dev nD) (t : Fin cfg0.N) (h0 : ¬t.val % 8 = 0) (h7 : ¬t.val % 8 = 7) :
    heldAt m c t.val t.isLt = heldMiddle c (grid0.coords t) (ms0 t) (hs0 t) (ms1 t) (hs1 t) (ms2 t) (hs2 t) (ms3 t) (hs3 t) (ms4 t) (hs4 t) (ms5 t) (hs5 t) (ms6 t) (hs6 t) accM0 (Memref.isWhole_whole _) accM1 (Memref.isWhole_whole _) accM2 (Memref.isWhole_whole _) (fun h => h0 ((firstTile_iff t).mp h)) (fun h => h7 ((lastTile_iff t).mp h)) (iblk m c 0 t) (iblk m c 1 t) (iblk m c 2 t) (iblk m c 3 t) (heldAt m c (t.val - 1) (prevLt t)).acc0 (heldAt m c (t.val - 1) (prevLt t)).acc1 (heldAt m c (t.val - 1) (prevLt t)).acc2 := by
  obtain ⟨n, hn⟩ := t
  cases n with
  | zero => exact (by exfalso; (try dsimp only at h0); exact absurd (Nat.zero_mod _) h0)
  | succ n => exact (dif_neg h0).trans ((dif_neg h7).trans rfl)

/-- `heldAt` at a point with j = 7: over what the point before left. -/
theorem heldAt_last (c : Dev nD) (t : Fin cfg0.N) (h0 : ¬t.val % 8 = 0) (h7 : t.val % 8 = 7) :
    heldAt m c t.val t.isLt = heldLast c (grid0.coords t) (ms0 t) (hs0 t) (ms1 t) (hs1 t) (ms2 t) (hs2 t) (ms3 t) (hs3 t) (ms4 t) (hs4 t) (ms5 t) (hs5 t) (ms6 t) (hs6 t) accM0 (Memref.isWhole_whole _) accM1 (Memref.isWhole_whole _) accM2 (Memref.isWhole_whole _) (fun h => h0 ((firstTile_iff t).mp h)) ((lastTile_iff t).mpr h7) (iblk m c 0 t) (iblk m c 1 t) (iblk m c 2 t) (iblk m c 3 t) (heldAt m c (t.val - 1) (prevLt t)).acc0 (heldAt m c (t.val - 1) (prevLt t)).acc1 (heldAt m c (t.val - 1) (prevLt t)).acc2 := by
  obtain ⟨n, hn⟩ := t
  cases n with
  | zero => exact (by exfalso; (try dsimp only at h0); exact absurd (Nat.zero_mod _) h0)
  | succ n => exact (dif_neg h0).trans ((dif_pos h7).trans rfl)

/-! ## The region's invariant -/

/-- The invariant before position `n`: before the first point what the launch hands the region (every accumulator at
    anything); afterwards each accumulator at what the point before left in it, and the generator register at some
    state. -/
def PhiS (c : Dev nD) : (n : ℕ) → n ≤ cfg0.N → sProp 𝕄
  | 0, _ => Pipeline.ΦA spec0 c
  | n + 1, hn => iprop(iprop(owns (c : Thread nD τ) accM0 fullShare (heldAt m c n hn).acc0 ∗ owns (c : Thread nD τ) accM1 fullShare (heldAt m c n hn).acc1 ∗ owns (c : Thread nD τ) accM2 fullShare (heldAt m c n hn).acc2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) accM0 fullShare (heldAt m c n hn).acc0 ∗ owns (c : Thread nD τ) accM1 fullShare (heldAt m c n hn).acc1 ∗ owns (c : Thread nD τ) accM2 fullShare (heldAt m c n hn).acc2) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) accM0 fullShare (heldAt m c (n - 1) (by omega)).acc0 ∗ owns (c : Thread nD τ) accM1 fullShare (heldAt m c (n - 1) (by omega)).acc1 ∗ owns (c : Thread nD τ) accM2 fullShare (heldAt m c (n - 1) (by omega)).acc2) ∗ (∃ r, prngReg c r)) := by
  cases n with
  | zero => exact absurd rfl hz
  | succ n => rfl

end Cert.KernelIdeal.Body

end
-- ==== Proof.Body.Data.lean ====
/- The proof data of the one pipeline: the arrays as the region finds them; after the body at a point each input's buffer at
   its block, each output's at the accumulation's component; the invariant with the three accumulators at the accumulation's
   components; nothing owed. The first half of the features is staged twice (by row blocks and whole) and so is the second:
   each of the two windows on one array holds one half of its full share. -/
import proofs.«117558_j62045097558541_2_alg».proof.Proof.Body.Accum

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (heldAt m c t.val t.isLt).out4
    | ⟨5, _⟩ => (heldAt m c t.val t.isLt).out5
    | ⟨6, _⟩ => (heldAt m c t.val t.isLt).out6
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- The shares: the two windows on the first half's array hold the two halves of its full share, likewise the two on the
    second half's array; each output is held outright. -/
theorem q_eq0 (c : Dev nD) : (dats m 0 c).q 0 = fullShare.left := by dsimp only [dats]
theorem q_eq1 (c : Dev nD) : (dats m 0 c).q 1 = fullShare.left := by dsimp only [dats]
theorem q_eq2 (c : Dev nD) : (dats m 0 c).q 2 = fullShare.right := by dsimp only [dats]
theorem q_eq3 (c : Dev nD) : (dats m 0 c).q 3 = fullShare.right := by dsimp only [dats]
theorem q_eq4 (c : Dev nD) : (dats m 0 c).q 4 = fullShare := by dsimp only [dats]
theorem q_eq5 (c : Dev nD) : (dats m 0 c).q 5 = fullShare := by dsimp only [dats]
theorem q_eq6 (c : Dev nD) : (dats m 0 c).q 6 = fullShare := by dsimp only [dats]
/-- Nothing is owed at any point. -/
theorem owed_eq (c : Dev nD) (t : Fin (cfg0.N + 1)) : (dats m 0 c).owed t = 0 := by dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (heldAt m c t.val t.isLt).out4 := by dsimp only [dats]
theorem after0_5 (c : Dev nD) (t : Fin cfg0.N) : (dats m 0 c).after 5 t = (heldAt m c t.val t.isLt).out5 := by dsimp only [dats]
theorem after0_6 (c : Dev nD) (t : Fin cfg0.N) : (dats m 0 c).after 6 t = (heldAt m c t.val t.isLt).out6 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators' named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Body

end
-- ==== Proof.Body.Obligation.lean ====
/- The body obligation: at every point, from the invariant and each window's current buffer at what it then holds, the body
   runs to the invariant at the next point and each buffer at what the proof data says it leaves. The closed forms of the
   two conditions say which of the three runs applies at the point. -/
import proofs.«117558_j62045097558541_2_alg».proof.Proof.Body.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- What the body is called with at point `t` (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the invariant hands the body the accumulators at what
    the point before left (at anything before the first point); the case's run applies; each accumulator is taken back at
    this point's contents (its pieces cover it), the inputs as they were, and the outputs' buffers untouched away from
    j = 7, at their blocks (their pieces cover them) at j = 7. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from (by
    unfold Dat.leavesExact; rw [live0_0 t]), after0_0]
  rw [show (dats m 0 c).leavesExact 1 t = owns (c : Thread nD τ) (ms1 t) fullShare ((dats m 0 c).after 1 t) from (by
    unfold Dat.leavesExact; rw [live0_1 t]), after0_1]
  rw [show (dats m 0 c).leavesExact 2 t = owns (c : Thread nD τ) (ms2 t) fullShare ((dats m 0 c).after 2 t) from (by
    unfold Dat.leavesExact; rw [live0_2 t]), after0_2]
  rw [show (dats m 0 c).leavesExact 3 t = owns (c : Thread nD τ) (ms3 t) fullShare ((dats m 0 c).after 3 t) from (by
    unfold Dat.leavesExact; rw [live0_3 t]), after0_3]
  by_cases h0 : t.val % 8 = 0
  · have h7 : ¬t.val % 8 = 7 := by omega
    have hl : ¬lastTile (grid0.coords t) := fun h => h7 ((lastTile_iff t).mp h)
    rw [Dat.leavesExact_idle (dats m 0 c) 4 t (idle0_4 t hl) (noFlush0_4 t hl), Dat.leavesExact_idle (dats m 0 c) 5 t (idle0_5 t hl) (noFlush0_5 t hl), Dat.leavesExact_idle (dats m 0 c) 6 t (idle0_6 t hl) (noFlush0_6 t hl)]
    rw [heldAt_first m c t h0 h7]
    unfold heldFirst; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ _ _ ((firstTile_iff t).mpr h0) hl (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _ _ _)
          unfold owns; iexists _; isplitr
          swap; · iexact HS2
          ipureintro; exact View.read_writes_of_cover _ _ _ _ _ (coverFirst2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ _ _ ((firstTile_iff t).mpr h0) hl (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _ _ _)
          unfold owns; iexists _; isplitr
          swap; · iexact HS2
          ipureintro; exact View.read_writes_of_cover _ _ _ _ _ (coverFirst2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hf : ¬firstTile (grid0.coords t) := fun h => h0 ((firstTile_iff t).mp h)
    have hz : t.val ≠ 0 := fun e => h0 (by rw [e])
    by_cases h7 : t.val % 8 = 7
    · have hl : lastTile (grid0.coords t) := (lastTile_iff t).mpr h7
      rw [show (dats m 0 c).leavesExact 4 t = owns (c : Thread nD τ) (ms4 t) fullShare ((dats m 0 c).after 4 t) from (by
        unfold Dat.leavesExact; rw [live0_4 t hl]), after0_4]
      rw [show (dats m 0 c).leavesExact 5 t = owns (c : Thread nD τ) (ms5 t) fullShare ((dats m 0 c).after 5 t) from (by
        unfold Dat.leavesExact; rw [live0_5 t hl]), after0_5]
      rw [show (dats m 0 c).leavesExact 6 t = owns (c : Thread nD τ) (ms6 t) fullShare ((dats m 0 c).after 6 t) from (by
        unfold Dat.leavesExact; rw [live0_6 t hl]), after0_6]
      rw [heldAt_last m c t h0 h7]
      unfold heldLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ _ _ _ _ hf hl (iblk m c 0 t) (iblk m c 1 t) (iblk m c 2 t) (iblk m c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLastAcc0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLastAcc1 c _ _ _ _ _ _ _ _ _ _ _ _ _ _ _ _ _ _ _ _ _ _ _ _ _ _ _ _ _ _)
          unfold owns; iexists _; isplitr
          swap; · iexact HS2
          ipureintro; exact View.read_writes_of_cover _ _ _ _ _ (coverLastAcc2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverLast4 c _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (coverLast5 c _ _ _ _ _ _ _ _ _ _ _ _ _ _ _ _ _ _ _ _ _ _ _ _ _ _ _ _ _ _)
      unfold owns; iexists _; isplitr
      swap; · iexact H6
      ipureintro; exact View.read_writes_of_cover _ _ _ _ _ (coverLast6 c _ _ _ _ _ _ _ _ _ _ _ _ _ _ _ _ _ _ _ _ _ _ _ _ _ _ _ _ _ _)
    · have hl : ¬lastTile (grid0.coords t) := fun h => h7 ((lastTile_iff t).mp h)
      rw [Dat.leavesExact_idle (dats m 0 c) 4 t (idle0_4 t hl) (noFlush0_4 t hl), Dat.leavesExact_idle (dats m 0 c) 5 t (idle0_5 t hl) (noFlush0_5 t hl), Dat.leavesExact_idle (dats m 0 c) 6 t (idle0_6 t hl) (noFlush0_6 t hl)]
      rw [heldAt_middle m c t h0 h7]
      unfold heldMiddle; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ _ _ _ _ hf hl (iblk m c 0 t) (iblk m c 1 t) (iblk m c 2 t) (iblk m c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMiddle0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMiddle1 c _ _ _ _ _ _ _ _ _ _ _ _ _ _ _ _ _ _ _ _ _ _ _ _ _ _ _ _ _ _)
          unfold owns; iexists _; isplitr
          swap; · iexact HS2
          ipureintro; exact View.read_writes_of_cover _ _ _ _ _ (coverMiddle2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.FrameRun.lean ====
/-
  The whole run. From any launch memory: the host operations before the region leave every buffer at the region-entry
  contents; the region is entered holding the two shared input arrays as half shares per window and the three result
  arrays whole; point by point the body keeps its invariant (the three accumulators at the running sums); after the
  last point the later host operations run over the result arrays and the bypassing buffers. Every weakly fair
  execution terminates, nothing faults, each windowed array ends as the pipeline's write-backs left it and every other
  unscoped buffer at the later operations' composite of the exit contents. In particular the argument array, which no
  window stages and no host operation writes, ends as it began.
-/
import proofs.«117558_j62045097558541_2_alg».proof.Proof.SharedArrays
import proofs.«117558_j62045097558541_2_alg».proof.Proof.HostTail
import proofs.«117558_j62045097558541_2_alg».proof.Proof.Body.Obligation

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two spellings of the region-entry contents agree. -/
theorem V_eq (c : Dev nD) (b : Ref sig .tc) : Body.V m c b = V m c b := rfl

theorem share4 (c : Dev nD) : (Body.dats m 0 c).share 4 = fullShare := by unfold Dat.share; rw [if_pos (by decide)]
theorem share5 (c : Dev nD) : (Body.dats m 0 c).share 5 = fullShare := by unfold Dat.share; rw [if_pos (by decide)]
theorem share6 (c : Dev nD) : (Body.dats m 0 c).share 6 = fullShare := by unfold Dat.share; rw [if_pos (by decide)]

set_option maxHeartbeats 3200000 in
set_option backward.isDefEq.respectTransparency.types false in
/-- THE RUN: every weakly fair execution of @main terminates without a fault; each windowed array ends at what the
    pipeline's write-backs left, every buffer that bypasses the region at the later operations' composite. -/
theorem run_main :
    θ_run defs (onTc (τ := τ) (main (F := F))) (s₀ m ρ)
      (fun r => ∀ c : Dev nD,
        (∀ w, r.2.mem ((spec0 w).arr.view.loc (c.tc : Thread nD τ)) = (Body.dats m 0 c).arrAt w cfg0.N)
        ∧ ∀ b ∈ restRefsP sig Prefetch.none spec0, r.2.mem ((c.tc : Thread nD τ).loc b) = Vend m (Body.dats m 0 c) b) := by
  classical
  exact θ_run_region_pf_tail (fun q => (cfgs q).toPCfg (Val := Elt F)) (fun q => (cfgs q).toPCfg_adm) (Body.dats m) ()
    cellOf_inj 0 winFacts₀0 (OwnSemFacts.none spec0) (PreFacts.none _) emb₁ defs₀ Variants.none m ρ main
    (fun _ => chain ([hostOps1].map StableHlo.seq)) (fun c => (Body.body_obligation m c).loose)
    block_pos0 arr_whole0 stage_whole0 (fun c t => Body.owed_eq m c t)
    (G := fun _ => iprop(emp))
    (u₀ := initOf (cells (pin (fun q => (cfgs q).toPCfg (Val := Elt F)) (fun q => (cfgs q).toPCfg_adm)) cellOf_inj)
      (launchToks (pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (cells (pin (fun q => (cfgs q).toPCfg (Val := Elt F)) (fun q => (cfgs q).toPCfg_adm)) cellOf_inj)
          (launchToks (pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit (Body.dats m 0 c) (V m c) (fun w => (Body.A_eq m c w).trans (V_eq m c _))
      (Body.q_eq0 m c) (Body.q_eq1 m c) (Body.q_eq2 m c) (Body.q_eq3 m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c
      (fun b => V0 m c (Proc.devRef .tc b)))
    (Z' := fun c => unscopedRestP (Ix := Unit) (Name := ℕ) (U := UR sig nD τ) (Lvl := ℕ) Prefetch.none spec0 c
      (Vend m (Body.dats m 0 c)))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (Body.hin m c))
    (hout := fun c => (Body.hout m c).trans (by
      rw [ownSems0_none]; unfold ΦA
      iintro ⟨Hr, Hp⟩
      isplitl [Hp]; · iexact Hp
      isplitr; · iempintro
      iexact Hr))
    (htail := fun c Q' => htail m (Body.dats m 0 c) Variants.none (share4 m c) (share5 m c) (share6 m c) Q')
    (QY := fun c s => ∀ b ∈ restRefsP sig Prefetch.none spec0, s.mem ((c.tc : Thread nD τ).loc b) = Vend m (Body.dats m 0 c) b)
    (hY := fun c s' => by
      iintro ⟨-, HU, HSI⟩
      unfold unscopedRestP
      imodintro
      iapply (pointsTo_read_all (restRefsP sig Prefetch.none spec0) (fun b => (c.tc : Thread nD τ).loc b) (Vend m (Body.dats m 0 c)) s')
      isplitl [HU] <;> iassumption)
    (hQ := fun s h c => ⟨(h c).1, (h c).2.2⟩)

end Cert.KernelIdeal.Launch

end
-- ==== Proof.FrameClaim.lean ====
/-
  The frame claim from the run: the argument array is staged by no window and written by no host operation, before
  or after the region, so it ends at the launch contents.
-/
import proofs.«117558_j62045097558541_2_alg».proof.Proof.FrameRun
import Idealize.ShloMosaic.Lib.StableHlo.Run

noncomputable section

namespace Cert.KernelIdeal.Launch

open Idealize.ShloMosaic Idealize.ShloMosaic.TcCoe Idealize.ShloMosaic.Tactic Idealize.ShloMosaic.StableHlo
open Idealize.SL Idealize.SL.Sem
open Idealize.ShloMosaic.Pipeline
open Cert.KernelIdeal Cert.KernelIdeal.Gen

variable {F : FTy → Type} [FloatOps F] [Named F]

variable (m : (ℓ : Loc nD τ sig) → Buf (Elt F) ℓ) (ρ : Dev nD → PrngReg)

/-- The argument array bypasses the region. -/
theorem arg_bypasses : main_arg0 ∈ restRefsP sig Prefetch.none spec0 :=
  Finset.mem_sdiff.mpr ⟨mem_restRefs_of main_arg0 (by decide) (by decide), fun h => by
    obtain ⟨k, -, -⟩ := Finset.mem_image.mp h; exact k.elim0⟩

/-- So does the buffer of the final result, which the last host operation writes. -/
theorem result_bypasses : main_v20 ∈ restRefsP sig Prefetch.none spec0 :=
  Finset.mem_sdiff.mpr ⟨mem_restRefs_of main_v20 (by decide) (by decide), fun h => by
    obtain ⟨k, -, -⟩ := Finset.mem_image.mp h; exact k.elim0⟩

/-- No host operation before the region writes the argument array. -/
theorem entry_arg (c : Dev nD) : V0 m c (Proc.devRef .tc main_arg0) = m ((c.tc : Thread nD τ).loc main_arg0) := by
  dsimp only [V0]
  simp only [hostOps0, hostOps0_1, List.flatten_cons, List.flatten_nil, List.append_nil, List.cons_append, List.nil_append]
  after_results

/-- Nor does any after it, and no window stages it. -/
theorem end_arg {c : Dev nD} (dat : Dat τ (Elt F) Unit ℕ (UR sig nD τ) ℕ cfg0 c) :
    Vend m dat main_arg0 = m ((c.tc : Thread nD τ).loc main_arg0) := by
  dsimp only [Vend, Vexit]
  simp only [hostOps1, List.flatten_cons, List.flatten_nil, List.append_nil, List.cons_append, List.nil_append]
  after_results
  rw [withArrays_of_ne spec0 c _ _ main_arg0 (by decide)]
  exact entry_arg m c

/-- THE FRAME: every weakly fair execution of @main terminates, nothing faults, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg_bypasses).trans (end_arg m _)) (run_main m ρ)

end Cert.KernelIdeal.Launch

end
-- ==== Proof.LaunchWord.RegionEntry.lean ====
/-
  The program around its one kernel region. @main first normalises the rows of the argument array
  (the row norms by an outlined function, the clamp below at 1e-12, the quotient), takes the two halves of
  the rows and narrows them; the region follows; fifteen host operations after it take the mean of
  (log-sum-exp − positive logit) over the rows, twice, and add the two means.
  Here: what every buffer of a core holds when the region is entered (the contents after the two stretches of
  host operations before it), and that @main is those stretches, the region, and the stretch after it.
-/
import proofs.«117558_j62045097558541_2_alg».proof.Proof.Gen.Kernel.Launch
import proofs.«117558_j62045097558541_2_alg».proof.Proof.Gen.Kernel.Points
import Idealize.ShloMosaic.Lib.Pipeline.FrameBody
import Idealize.ShloMosaic.Lib.Pipeline.FrameSuffix

noncomputable section

namespace Cert.Kernel.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

variable (m : (ℓ : Loc nD τ sig) → Buf (Elt F) ℓ)

/-- A core's buffer contents when the region is entered: the launch contents after the host operations
    that precede the region (the row norms, then the normalisation, the two halves and their narrowing). -/
abbrev V0 (c : Dev nD) : Valuation τ sig (Elt F) :=
  StableHlo.after (List.flatten [hostOps0, hostOps0_1]) (fun b => m (c, b))

/-- The same read at a TensorCore reference. -/
abbrev V (c : Dev nD) (b : Ref sig .tc) : Buf (Elt F) ((c : Thread nD τ).loc b) := V0 m c (Proc.devRef .tc b)

theorem before_fresh :
    ([hostOps0, hostOps0_1] : List (List (HloOp τ sig (Elt F)))).Forall fun ops => ops.Forall fun op => op.fresh = ∅ := by
  simp only [List.Forall]; repeat' constructor

theorem after_fresh : (hostOps1 : List (HloOp τ sig (Elt F))).Forall fun op => op.fresh = ∅ := by
  simp only [List.Forall]; repeat' constructor

/-- @main is the host operations before the region, the region, and the host operations after it: holding the
    launch contents it reduces to the region, entered at `V`, continued by the later operations. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    before_fresh main_chain

end Cert.Kernel.Launch

end
-- ==== Proof.LaunchWord.SharedArrays.lean ====
/-
  One array read through two windows. The region's first and third windows stage the same array (the first half
  of the normalised rows, narrowed): one a block of 1024 rows at a time, the other the whole array once; the second
  and fourth windows do the same with the second half. The launch holds each of those arrays once, whole, at the
  full share; the pipeline wants one points-to per window. A full share is the composite of its left and right
  halves and a points-to splits along its share, so each shared array is dealt to its two windows as the two
  halves, at the same contents; the three result arrays go to their windows whole.
-/
import proofs.«117558_j62045097558541_2_alg».proof.Proof.LaunchWord.RegionEntry

noncomputable section

namespace Cert.Kernel.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

/-- The distinct buffers behind the seven windows' arrays are five: the two shared inputs and the three results. -/
theorem arr_image :
    (Finset.univ.image (Pipeline.arrRef spec0) : Finset (Ref sig .tc))
      = [main_v7, main_v8, main_v9_0, main_v9_1, main_v9_2].toFinset := by decide

/-- The five buffers one by one. -/
theorem arrBufs_chain (c : Dev nD) (Vv : (b : Ref sig .tc) → Buf (Elt F) ((c.tc : Thread nD τ).loc b)) :
    (Pipeline.arrBufs spec0 c Vv : sProp 𝕄)
      = iprop((((c.tc : Thread nD τ).loc main_v7) ↦{fullShare} Vv main_v7)
          ∗ (((c.tc : Thread nD τ).loc main_v8) ↦{fullShare} Vv main_v8)
          ∗ (((c.tc : Thread nD τ).loc main_v9_0) ↦{fullShare} Vv main_v9_0)
          ∗ (((c.tc : Thread nD τ).loc main_v9_1) ↦{fullShare} Vv main_v9_1)
          ∗ (((c.tc : Thread nD τ).loc main_v9_2) ↦{fullShare} Vv main_v9_2)) := by
  unfold Pipeline.arrBufs
  exact bigSep_eq_bigSepL_of_eq _ arr_image (by decide) _

/-- A whole buffer's view covers every element, so the buffer's points-to, split along its share, is the view's
    points-to at the two parts. -/
theorem whole_share (c : Dev nD) {sp : Space} {s : Shape} {e : EltTy} (mr : Memref sig .tc sp s e) (hm : mr.IsWhole)
    (q : PosShare TreeShare) (f : Buf (Elt F) (mr.view.loc (c.tc : Thread nD τ))) :
    (mr.view.loc (c.tc : Thread nD τ) ↦{q} f : sProp 𝕄)
      ⊢ iprop((mr.view.loc (c.tc : Thread nD τ) ↦[mr.view.set]{q.left} f) ∗ (mr.view.loc (c.tc : Thread nD τ) ↦[mr.view.set]{q.right} f)) := by
  rw [hm.set_eq_univ]
  exact (pointsTo_share (PosShare.mem_left_op_right q)).1

/-- And unsplit it is the view's points-to at the same share. -/
theorem whole_same (c : Dev nD) {sp : Space} {s : Shape} {e : EltTy} (mr : Memref sig .tc sp s e) (hm : mr.IsWhole)
    (q : PosShare TreeShare) (f : Buf (Elt F) (mr.view.loc (c.tc : Thread nD τ))) :
    (mr.view.loc (c.tc : Thread nD τ) ↦{q} f : sProp 𝕄) ⊢ (mr.view.loc (c.tc : Thread nD τ) ↦[mr.view.set]{q} f) := by
  rw [hm.set_eq_univ]

/-- Dealing five resources to seven holders: the first two each split in two, the other three pass on. -/
theorem deal7 {M : Type} [URA M] {P0 P1 P4 P5 P6 L0 R0 L1 R1 Q4 Q5 Q6 : sProp M}
    (h0 : P0 ⊢ iprop(L0 ∗ R0)) (h1 : P1 ⊢ iprop(L1 ∗ R1)) (h4 : P4 ⊢ Q4) (h5 : P5 ⊢ Q5) (h6 : P6 ⊢ Q6) :
    iprop(P0 ∗ P1 ∗ P4 ∗ P5 ∗ P6) ⊢ iprop(L0 ∗ L1 ∗ R0 ∗ R1 ∗ Q4 ∗ Q5 ∗ Q6) := by
  iintro ⟨H0, H1, H4, H5, H6⟩
  ihave Hs0 := h0 $$ H0
  ihave Hs1 := h1 $$ H1
  icases Hs0 with ⟨H0l, H0r⟩
  icases Hs1 with ⟨H1l, H1r⟩
  isplitl [H0l]; · iexact H0l
  isplitl [H1l]; · iexact H1l
  isplitl [H0r]; · iexact H0r
  isplitl [H1r]; · iexact H1r
  isplitl [H4]; · iapply h4; iexact H4
  isplitl [H5]; · iapply h5; iexact H5
  iapply h6; iexact H6

set_option maxHeartbeats 800000 in
/-- The launch's five buffers make the pipeline's seven arrays: each shared input split into its halves. -/
theorem hsplit {c : Dev nD} (dat : Dat τ (Elt F) Unit ℕ (UR sig nD τ) ℕ cfg0 c)
    (Vv : (b : Ref sig .tc) → Buf (Elt F) ((c.tc : Thread nD τ).loc b))
    (hA : ∀ w, dat.A w = Vv (Pipeline.arrRef spec0 w))
    (h0 : dat.q 0 = fullShare.left) (h1 : dat.q 1 = fullShare.left)
    (h2 : dat.q 2 = fullShare.right) (h3 : dat.q 3 = fullShare.right) :
    (Pipeline.arrBufs spec0 c Vv : sProp 𝕄) ⊢ dat.arrays (fun w => dat.arrAt w 0) := by
  classical
  -- the entry contents of each window's array, at the buffer's own name
  have a0 : dat.arrAt 0 0 = Vv main_v7 := hA 0
  have a1 : dat.arrAt 1 0 = Vv main_v8 := hA 1
  have a2 : dat.arrAt 2 0 = Vv main_v7 := hA 2
  have a3 : dat.arrAt 3 0 = Vv main_v8 := hA 3
  have a4 : dat.arrAt 4 0 = Vv main_v9_0 := hA 4
  have a5 : dat.arrAt 5 0 = Vv main_v9_1 := hA 5
  have a6 : dat.arrAt 6 0 = Vv main_v9_2 := hA 6
  have s0 : dat.share 0 = fullShare.left := by unfold Dat.share; rw [if_neg (by decide), h0]
  have s1 : dat.share 1 = fullShare.left := by unfold Dat.share; rw [if_neg (by decide), h1]
  have s2 : dat.share 2 = fullShare.right := by unfold Dat.share; rw [if_neg (by decide), h2]
  have s3 : dat.share 3 = fullShare.right := by unfold Dat.share; rw [if_neg (by decide), h3]
  have s4 : dat.share 4 = fullShare := by unfold Dat.share; rw [if_pos (by decide)]
  have s5 : dat.share 5 = fullShare := by unfold Dat.share; rw [if_pos (by decide)]
  have s6 : dat.share 6 = fullShare := by unfold Dat.share; rw [if_pos (by decide)]
  unfold Dat.arrays
  rw [bigSep_W0, arrBufs_chain]
  simp only [s0, s1, s2, s3, s4, s5, s6]
  simp only [a0, a1, a2, a3, a4, a5, a6]
  refine deal7 ?_ ?_ ?_ ?_ ?_
  · exact whole_share c (Memref.whole main_v7) (Memref.isWhole_whole _) fullShare (Vv main_v7)
  · exact whole_share c (Memref.whole main_v8) (Memref.isWhole_whole _) fullShare (Vv main_v8)
  · exact whole_same c (Memref.whole main_v9_0) (Memref.isWhole_whole _) fullShare (Vv main_v9_0)
  · exact whole_same c (Memref.whole main_v9_1) (Memref.isWhole_whole _) fullShare (Vv main_v9_1)
  · exact whole_same c (Memref.whole main_v9_2) (Memref.isWhole_whole _) fullShare (Vv main_v9_2)

end Cert.Kernel.Launch

end
-- ==== Proof.LaunchWord.HostTail.lean ====
/-
  The host operations after the region. They read the three result arrays (each row's log-sum-exp for the two
  cross-entropies, and each row's positive logit), and write buffers that no window stages. They touch neither
  shared input array. So they run holding only the three result arrays, each whole at the full share (each is
  staged by exactly one window), and the buffers that bypass the region; the four input windows' points-tos are
  set aside untouched. What each buffer holds afterwards is the operations' composite applied to the contents at
  the region's exit: the result arrays as the pipeline left them, every other buffer as the region found it.
-/
import proofs.«117558_j62045097558541_2_alg».proof.Proof.LaunchWord.RegionEntry

noncomputable section

namespace Cert.Kernel.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers the later operations run within -/

/-- The references of the three result arrays. -/
def outRefs : Finset (Ref sig .tc) :=
  [Pipeline.arrRef spec0 4, Pipeline.arrRef spec0 5, Pipeline.arrRef spec0 6].toFinset

theorem outRefs_sub : outRefs ⊆ Finset.univ.image (Pipeline.arrRef spec0) := by decide

/-- Each result array is staged by one window only. -/
theorem uniq4 : ∀ w' : Fin 7, Pipeline.arrRef spec0 w' = Pipeline.arrRef spec0 4 → w' = 4 := by decide
theorem uniq5 : ∀ w' : Fin 7, Pipeline.arrRef spec0 w' = Pipeline.arrRef spec0 5 → w' = 5 := by decide
theorem uniq6 : ∀ w' : Fin 7, Pipeline.arrRef spec0 w' = Pipeline.arrRef spec0 6 → w' = 6 := by decide

/-- The result arrays and the buffers that bypass the region, as device buffers. -/
def tailSet : Finset (DevRef τ sig) :=
  (outRefs ∪ Pipeline.restRefsP sig Pipeline.Prefetch.none spec0).map ⟨Proc.devRef (sig := sig) .tc, Proc.devRef_injective _⟩

theorem out_disjoint : Disjoint outRefs (Pipeline.restRefsP sig Pipeline.Prefetch.none spec0) :=
  Finset.disjoint_left.mpr fun b hb hr => (Finset.mem_sdiff.mp (Finset.mem_sdiff.mp hr).1).2 (outRefs_sub hb)

/-- That set held at a valuation: the three result arrays, then the bypassing buffers. -/
theorem held_tailSet (c : Dev nD) (Wv : Valuation τ sig (Elt F)) :
    (StableHlo.held (c.tc : Thread nD τ) tailSet Wv : sProp 𝕄)
      = iprop(((((c.tc : Thread nD τ).loc (Pipeline.arrRef spec0 4)) ↦{fullShare} Wv (Proc.devRef .tc (Pipeline.arrRef spec0 4)))
            ∗ (((c.tc : Thread nD τ).loc (Pipeline.arrRef spec0 5)) ↦{fullShare} Wv (Proc.devRef .tc (Pipeline.arrRef spec0 5)))
            ∗ (((c.tc : Thread nD τ).loc (Pipeline.arrRef spec0 6)) ↦{fullShare} Wv (Proc.devRef .tc (Pipeline.arrRef spec0 6))))
          ∗ Pipeline.unscopedRestP Pipeline.Prefetch.none spec0 c (fun b => Wv (Proc.devRef .tc b))) := by
  classical
  unfold StableHlo.held tailSet
  rw [bigSep_map, bigSep_union out_disjoint]
  congr 1
  unfold outRefs
  exact bigSep_eq_bigSepL _ (by decide) _

/-- A reference that is unscoped and no window's array bypasses the region. -/
theorem mem_tailSet_rest (r : Ref sig .tc) (hs : r.isScoped = false) (ha : ∀ w, (spec0 w).arr.view.ref ≠ r) :
    Proc.devRef (τ := τ) .tc r ∈ tailSet :=
  Finset.mem_map_of_mem _ (Finset.mem_union_right _
    (Finset.mem_sdiff.mpr ⟨Pipeline.mem_restRefs_of r hs ha, fun h => by
      obtain ⟨k, -, -⟩ := Finset.mem_image.mp h; exact k.elim0⟩))

theorem mem_tailSet_out (r : Ref sig .tc) (h : r ∈ outRefs) : Proc.devRef (τ := τ) .tc r ∈ tailSet :=
  Finset.mem_map_of_mem _ (Finset.mem_union_left _ h)

/-! ## The contents at the region's exit -/

/-- Where one window only stages an array, the exit contents at that array are the window's. -/
theorem withArrays_out (c : Dev nD) (V₁ : Valuation τ sig (Elt F))
    (A : (w : Fin 7) → Buf (Elt F) ((spec0 w).arr.view.loc (c.tc : Thread nD τ))) (w : Fin 7)
    (hw : ∀ w' : Fin 7, Pipeline.arrRef spec0 w' = Pipeline.arrRef spec0 w → w' = w) :
    Pipeline.withArrays spec0 c V₁ A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := hw w' (Proc.devRef_injective _ e)
  rfl

/-- A core's buffer contents at the region's exit: each array as the pipeline's write-backs left it, every other
    buffer as the region found it. -/
abbrev Vexit {c : Dev nD} (dat : Dat τ (Elt F) Unit ℕ (UR sig nD τ) ℕ cfg0 c) : Valuation τ sig (Elt F) :=
  Pipeline.withArrays spec0 c (V0 m c) (fun w => dat.arrAt w cfg0.N)

/-- And after the later host operations. -/
abbrev Vend {c : Dev nD} (dat : Dat τ (Elt F) Unit ℕ (UR sig nD τ) ℕ cfg0 c) (b : Ref sig .tc) :
    Buf (Elt F) ((c.tc : Thread nD τ).loc b) :=
  StableHlo.after (List.flatten [hostOps1]) (Vexit m dat) (Proc.devRef .tc b)

/-- A result array as the pipeline holds it after the last point: the whole buffer at the full share. -/
theorem out_pt {c : Dev nD} (dat : Dat τ (Elt F) Unit ℕ (UR sig nD τ) ℕ cfg0 c) (w : Fin 7) (hs : dat.share w = fullShare) :
    ((cfg0.win w).arr.view.loc (c.tc : Thread nD τ) ↦[(cfg0.win w).arr.view.set]{dat.share w} dat.arrAt w cfg0.N : sProp 𝕄)
      = (((c.tc : Thread nD τ).loc (Pipeline.arrRef spec0 w)) ↦{fullShare} dat.arrAt w cfg0.N) := by
  rw [(arr_whole0 w).set_eq_univ, hs]

/-! ## The later operations stay inside the set and write no array -/

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_fresh) op hop

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl | rfl | rfl
  all_goals
    intro b hb
    simp only [StableHlo.reshape_bufs, StableHlo.binary_bufs, StableHlo.nullary_bufs, Finset.mem_insert,
      Finset.mem_singleton] at hb
    rcases hb with rfl | rfl | rfl <;>
      first
        | exact mem_tailSet_out _ (by decide)
        | exact mem_tailSet_rest _ (by decide) (by decide)

theorem tail_keeps : ∀ op ∈ (List.flatten [hostOps1] : List (HloOp τ sig (Elt F))), ∀ w : Fin 7,
    Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl | rfl | rfl | rfl | rfl | rfl | rfl | rfl | rfl
  all_goals
    intro w
    fin_cases w <;>
      simp only [StableHlo.nullary_writes, StableHlo.binary_writes, StableHlo.reshape_writes, Finset.mem_singleton] <;>
      exact StableHlo.devRef_ne_of_ne (by decide)

/-! ## The run of the later operations -/

set_option maxHeartbeats 6400000 in
set_option backward.isDefEq.respectTransparency.types false in
/-- From the region's exit — the seven windows' arrays as the pipeline left them, the bypassing buffers as the region
    found them — the later operations run and hand back the same arrays and the bypassing buffers at the operations'
    composite of the exit contents. -/
theorem htail {c : Dev nD} (dat : Dat τ (Elt F) Unit ℕ (UR sig nD τ) ℕ cfg0 c) (𝒱₀ : Variants)
    (s4 : dat.share 4 = fullShare) (s5 : dat.share 5 = fullShare) (s6 : dat.share 6 = fullShare)
    (Q' : PUnit → sProp 𝕄) :
    iprop((iprop(dat.arrays (fun w => dat.arrAt w cfg0.N)
              ∗ Pipeline.unscopedRestP Pipeline.Prefetch.none spec0 c (Vend m dat)) -∗ Q' ⟨⟩)
        ∗ boundary (c.tc : Thread nD τ) ∗ dat.arrays (fun w => dat.arrAt w cfg0.N)
        ∗ Pipeline.unscopedRestP Pipeline.Prefetch.none spec0 c (fun b => V0 m c (Proc.devRef .tc b)))
      ⊢ wp frame (wpE (Pipeline.defs (fun q => (cfgs q).toPCfg (Val := Elt F)) defs₀) (Variants.lift 𝒱₀) (c.tc : Thread nD τ) none)
          Set.univ (Pipeline.chain ([hostOps1].map StableHlo.seq)) Q' := by
  classical
  have hW : (StableHlo.held (c.tc : Thread nD τ) tailSet (Vexit m dat) : sProp 𝕄)
      = iprop(((((c.tc : Thread nD τ).loc (Pipeline.arrRef spec0 4)) ↦{fullShare} dat.arrAt 4 cfg0.N)
            ∗ (((c.tc : Thread nD τ).loc (Pipeline.arrRef spec0 5)) ↦{fullShare} dat.arrAt 5 cfg0.N)
            ∗ (((c.tc : Thread nD τ).loc (Pipeline.arrRef spec0 6)) ↦{fullShare} dat.arrAt 6 cfg0.N))
          ∗ Pipeline.unscopedRestP Pipeline.Prefetch.none spec0 c (fun b => V0 m c (Proc.devRef .tc b))) := by
    rw [held_tailSet]
    dsimp only [Vexit]
    rw [withArrays_out c _ _ 4 uniq4, withArrays_out c _ _ 5 uniq5, withArrays_out c _ _ 6 uniq6]
    congr 1
  have hW' : (StableHlo.held (c.tc : Thread nD τ) tailSet (StableHlo.after (List.flatten [hostOps1]) (Vexit m dat)) : sProp 𝕄)
      = iprop(((((c.tc : Thread nD τ).loc (Pipeline.arrRef spec0 4)) ↦{fullShare} dat.arrAt 4 cfg0.N)
            ∗ (((c.tc : Thread nD τ).loc (Pipeline.arrRef spec0 5)) ↦{fullShare} dat.arrAt 5 cfg0.N)
            ∗ (((c.tc : Thread nD τ).loc (Pipeline.arrRef spec0 6)) ↦{fullShare} dat.arrAt 6 cfg0.N))
          ∗ Pipeline.unscopedRestP Pipeline.Prefetch.none spec0 c (Vend m dat)) := by
    rw [held_tailSet]
    dsimp only [Vexit, Vend]
    rw [
      StableHlo.after_of_forall_not_mem _ _ (fun op hop => tail_keeps op hop 4), withArrays_out c _ _ 4 uniq4,
      StableHlo.after_of_forall_not_mem _ _ (fun op hop => tail_keeps op hop 5), withArrays_out c _ _ 5 uniq5,
      StableHlo.after_of_forall_not_mem _ _ (fun op hop => tail_keeps op hop 6), withArrays_out c _ _ 6 uniq6]
  unfold Dat.arrays
  rw [bigSep_W0]
  simp only [out_pt dat 4 s4, out_pt dat 5 s5, out_pt dat 6 s6]
  rw [← List.append_nil ([hostOps1].map StableHlo.seq)]
  iintro ⟨Hk, Hb, ⟨A0, A1, A2, A3, A4, A5, A6⟩, HZ⟩
  ihave Hrun := (Pipeline.wp_seqs_then (fun q => (cfgs q).toPCfg (Val := Elt F)) defs₀ 𝒱₀ c tailSet [] [hostOps1]
    tail_sub tail_fresh (Vexit m dat)) $$ [Hb A4 A5 A6 HZ]
  · rw [hW]
    isplitl [Hb]; · iexact Hb
    isplitr [HZ]
    · isplitl [A4]; · iexact A4
      isplitl [A5]; · iexact A5
      iexact A6
    · iexact HZ
  iapply Hrun
  iintro Hb'
  rw [Pipeline.chain_nil, wp_pure, hW']
  imodintro
  iapply Hk
  icases Hb' with ⟨-, ⟨⟨B4, B5, B6⟩, HZ'⟩⟩
  isplitr [HZ']
  · isplitl [A0]; · iexact A0
    isplitl [A1]; · iexact A1
    isplitl [A2]; · iexact A2
    isplitl [A3]; · iexact A3
    isplitl [B4]; · iexact B4
    isplitl [B5]; · iexact B5
    iexact B6
  · iexact HZ'

end Cert.Kernel.Launch

end
-- ==== Proof.BodyWord.Setup.lean ====
/- What the three runs of the contrastive-loss kernel's body share. The grid is 4 x 8: the outer coordinate picks a block of
   1024 rows of each half of the normalised features, the inner coordinate j walks the eight tiles of 512 columns of the
   similarity matrices. Three accumulators (one column of 1024 entries each: the two running sums of exponentials and the
   running diagonal term) are zeroed at j = 0, increased at every j, and turned into the three outputs' blocks at j = 7.
   Here: the arrays as the region finds them, the windows' blocks, the two conditions of the body in closed form over the
   grid, where the outputs' buffers are left untouched, the memrefs the body is called with, and the region's invariant
   with the three accumulators spelt out. -/
import proofs.«117558_j62045097558541_2_alg».proof.Proof.Gen.Kernel.Launch
import proofs.«117558_j62045097558541_2_alg».proof.Proof.Gen.Kernel.Skeleton
import proofs.«117558_j62045097558541_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: after the host operations that normalise the rows, split the two
    halves and round them to bf16. -/
abbrev V0 (c : Dev nD) : Valuation τ sig (Elt F) := StableHlo.after (hostOps0 ++ hostOps0_1) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place: the row blocks of the first half, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the row blocks of the second half, -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the first half staged whole, -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the second half staged whole. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body zeroes the accumulators when the column tile is the first (j = 0): the condition as the body computes it from
    the inner grid coordinate. -/
abbrev firstTile (i : grid0.Coords) : Prop := (Scalar.cmpi .ne (Scalar.extui (Scalar.cmpi .eq (BitVec.ofNat 32 (i 1).val) 0#32)) 0#32) = 1#1
/-- It holds at the points ≡ 0 (mod 8): decided over the 32 points. -/
theorem firstTile_iff : ∀ t : Fin cfg0.N, firstTile (grid0.coords t) ↔ t.val % 8 = 0 :=
  (by decide +kernel : ∀ t : Fin grid0.N, firstTile (grid0.coords t) ↔ t.val % 8 = 0)

/-- The body writes the three outputs when the column tile is the last (j = 7). -/
abbrev lastTile (i : grid0.Coords) : Prop := k0_cond2 i = 1#1
/-- It holds at the points ≡ 7 (mod 8). -/
theorem lastTile_iff : ∀ t : Fin cfg0.N, lastTile (grid0.coords t) ↔ t.val % 8 = 7 :=
  (by decide +kernel : ∀ t : Fin grid0.N, lastTile (grid0.coords t) ↔ t.val % 8 = 7)

/-! ## Where the windows are idle -/

/-- The four inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last column tile the body stores nothing into the three outputs' buffers, and the pipeline does not
    write them back there. -/
theorem idle0_4 : ∀ t : Fin cfg0.N, ¬lastTile (grid0.coords t) → cfg0.idle 4 (grid0.coords t) = true := by decide +kernel
theorem idle0_5 : ∀ t : Fin cfg0.N, ¬lastTile (grid0.coords t) → cfg0.idle 5 (grid0.coords t) = true := by decide +kernel
theorem idle0_6 : ∀ t : Fin cfg0.N, ¬lastTile (grid0.coords t) → cfg0.idle 6 (grid0.coords t) = true := by decide +kernel
theorem noFlush0_4 : ∀ t : Fin cfg0.N, ¬lastTile (grid0.coords t) → (cfg0.win 4).flush t = false := by decide +kernel
theorem noFlush0_5 : ∀ t : Fin cfg0.N, ¬lastTile (grid0.coords t) → (cfg0.win 5).flush t = false := by decide +kernel
theorem noFlush0_6 : ∀ t : Fin cfg0.N, ¬lastTile (grid0.coords t) → (cfg0.win 6).flush t = false := by decide +kernel
/-- At the last column tile it stores into all three. -/
theorem live0_4 : ∀ t : Fin cfg0.N, lastTile (grid0.coords t) → cfg0.idle 4 (grid0.coords t) = false := by decide +kernel
theorem live0_5 : ∀ t : Fin cfg0.N, lastTile (grid0.coords t) → cfg0.idle 5 (grid0.coords t) = false := by decide +kernel
theorem live0_6 : ∀ t : Fin cfg0.N, lastTile (grid0.coords t) → cfg0.idle 6 (grid0.coords t) = false := by decide +kernel

/-! ## The memrefs the body is called with -/

/-- One staging buffer of each output, through which its contents are stated (the choice does not matter once the stores
    cover the block). -/
abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view
abbrev VO6 : View sig .tc .vmem S1024x1 .f32 := (Memref.whole cc0_stg6_0 : Memref sig .tc .vmem S1024x1 .f32).view
/-- Each window's current staging memref at point `t`, spelt as the pipeline passes it, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The three accumulators: whole scoped buffers of the kernel's own, passed beside the windows. -/
abbrev accM0 : Memref sig .tc .vmem S1024x1 .f32 := Memref.whole cc0_scratch0
abbrev accM1 : Memref sig .tc .vmem S1024x1 .f32 := Memref.whole cc0_scratch1
abbrev accM2 : Memref sig .tc .vmem S1024x1 .f32 := Memref.whole cc0_scratch2
/-- and as views, through which what they hold is stated. -/
abbrev VA0 : View sig .tc .vmem S1024x1 .f32 := accM0.view
abbrev VA1 : View sig .tc .vmem S1024x1 .f32 := accM1.view
abbrev VA2 : View sig .tc .vmem S1024x1 .f32 := accM2.view

/-- What the launch hands the region, with the three accumulators as memrefs owned at some contents each. -/
theorem PhiA_eq (c : Dev nD) :
    (Pipeline.ΦA spec0 c : sProp 𝕄)
      = iprop(iprop((∃ d, owns (c : Thread nD τ) accM0 fullShare d) ∗ (∃ d, owns (c : Thread nD τ) accM1 fullShare d) ∗ (∃ d, owns (c : Thread nD τ) accM2 fullShare d)) ∗ (∃ r, prngReg c r)) := by
  unfold Pipeline.ΦA; rw [scopedRest0_eq]; simp only [accM0, accM1, accM2, owns_whole]; try rfl

end Cert.Kernel.Body

end
-- ==== Proof.BodyWord.RunFirst.lean ====
/- The body's run at the first column tile (j = 0): the accumulators, whatever they held, are zeroed and then increased by
   this tile's contributions; the three outputs' buffers are not touched. The lists of pieces each accumulator ends with
   are found by the run. -/
import proofs.«117558_j62045097558541_2_alg».proof.Proof.BodyWord.Setup

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- At a point with j = 0 and on whole memrefs — the four inputs' at their contents, the outputs' at contents handed back
    untouched, the accumulators' at anything — the body runs to the continuation holding the inputs and outputs as they
    were and each accumulator with its pieces written (last first): the witness the run finds. -/
noncomputable def runFirst (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) :
    Σ' (LA0 : List (View.Piece (Elt F) S1024x1 .f32)) (LA1 : List (View.Piece (Elt F) S1024x1 .f32)), { LA2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LA0) ∗ (∃ f, arg10.view.loc (c : Thread nD τ) ↦[arg10.view.set]{fullShare} arg10.view.writes (Elt F) f LA1) ∗ (∃ f, arg11.view.loc (c : Thread nD τ) ↦[arg11.view.set]{fullShare} arg11.view.writes (Elt F) f LA2)) -∗ K ⟨⟩))
          ⊢ wp frame (wpE (defs₀ (F := F)) Variants.none c none) E (cc0__nt_xent_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Body

end
-- ==== Proof.BodyWord.RunMiddle.lean ====
/- The body's run at a column tile that is neither the first nor the last (0 < j < 7): each accumulator, holding what the
   tile before left, is increased by this tile's contribution; the three outputs' buffers are not touched. -/
import proofs.«117558_j62045097558541_2_alg».proof.Proof.BodyWord.RunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- At a point with 0 < j < 7 and on whole memrefs — the four inputs' at their contents, the outputs' at contents handed
    back untouched, the accumulators' at the contents `xs·` the point before left — the body runs to the continuation
    holding the inputs and outputs as they were and each accumulator with its pieces written: the witness the run finds. -/
noncomputable def runMiddle (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) :
    Σ' (LA0 : List (View.Piece (Elt F) S1024x1 .f32)) (LA1 : List (View.Piece (Elt F) S1024x1 .f32)), { LA2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LA0) ∗ (∃ f, arg10.view.loc (c : Thread nD τ) ↦[arg10.view.set]{fullShare} arg10.view.writes (Elt F) f LA1) ∗ (∃ f, arg11.view.loc (c : Thread nD τ) ↦[arg11.view.set]{fullShare} arg11.view.writes (Elt F) f LA2)) -∗ K ⟨⟩))
          ⊢ wp frame (wpE (defs₀ (F := F)) Variants.none c none) E (cc0__nt_xent_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Body

end
-- ==== Proof.BodyWord.RunLast.lean ====
/- The body's run at the last column tile (j = 7): each accumulator, holding what the tile before left, is increased by this
   tile's contribution, and then each output's buffer is stored whole from the accumulators' final contents. -/
import proofs.«117558_j62045097558541_2_alg».proof.Proof.BodyWord.RunMiddle

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- At a point with j = 7 and on whole memrefs — the four inputs' at their contents, the outputs' at anything, the
    accumulators' at the contents `xs·` the point before left — the body runs to the continuation holding the inputs as
    they were and each output's buffer and each accumulator with its pieces written: the witness the run finds. -/
noncomputable def runLast (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    Σ' (L4 : List (View.Piece (Elt F) S1024x1 .f32)) (L5 : List (View.Piece (Elt F) S1024x1 .f32)) (L6 : List (View.Piece (Elt F) S1024x1 .f32)) (LA0 : List (View.Piece (Elt F) S1024x1 .f32)) (LA1 : List (View.Piece (Elt F) S1024x1 .f32)), { LA2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LA0) ∗ (∃ f, arg10.view.loc (c : Thread nD τ) ↦[arg10.view.set]{fullShare} arg10.view.writes (Elt F) f LA1) ∗ (∃ f, arg11.view.loc (c : Thread nD τ) ↦[arg11.view.set]{fullShare} arg11.view.writes (Elt F) f LA2)) -∗ K ⟨⟩))
          ⊢ wp frame (wpE (defs₀ (F := F)) Variants.none c none) E (cc0__nt_xent_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Body

end
-- ==== Proof.BodyWord.Accum.lean ====
/- What the body leaves, case by case and then point by point. In each case the pieces the run found for a buffer tile
   it (whole-block stores), so what the buffer holds afterwards is those pieces read back, whatever it held before. The
   recursion on the point then says what the three accumulators hold after each point — zeroed and increased at j = 0,
   increased over what the point before left elsewhere — and what the three outputs' buffers hold after a point with
   j = 7. -/
import proofs.«117558_j62045097558541_2_alg».proof.Proof.BodyWord.RunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- What the six buffers the body writes hold after a point: the three outputs' staging buffers (meaningful after a point
    with j = 7 only: elsewhere the body does not touch them and these components are placeholders nothing reads) and the
    three accumulators. -/
structure Held (F : FTy → Type) where
  out4 : Vec F S1024x1 .f32
  out5 : Vec F S1024x1 .f32
  out6 : Vec F S1024x1 .f32
  acc0 : Vec F S1024x1 .f32
  acc1 : Vec F S1024x1 .f32
  acc2 : Vec F S1024x1 .f32

/-! ## The first column tile -/

/-- At j = 0 each accumulator's pieces (the zeroing store and the increasing store) tile it. -/
theorem coverFirst0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) (y : S1024x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).1 S1024x1.size (by sl_kernel_rfl) y

theorem coverFirst1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) (y : S1024x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.1 S1024x1.size (by sl_kernel_rfl) y

theorem coverFirst2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) (y : S1024x1.Idx) :
    ∃ pc ∈ (runFirst c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3).2.2.1 S1024x1.size (by sl_kernel_rfl) y

/-- What a point with j = 0 leaves: the accumulators' pieces read back; the outputs' components are placeholders. -/
def heldFirst (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) : Held F where
  out4 := VO4.read (Elt F) VO4.junk
  out5 := VO5.read (Elt F) VO5.junk
  out6 := VO6.read (Elt F) VO6.junk
  acc0 := VA0.read (Elt F) (VA0.writes (Elt F) VA0.junk (runFirst c i arg2 harg2 arg3 harg3 arg4 harg4 arg5 harg5 arg6 harg6 arg7 harg7 arg8 harg8 arg9 harg9 arg10 harg10 arg11 harg11 hc0 hc1 x0 x1 x2 x3).1)
  acc1 := VA1.read (Elt F) (VA1.writes (Elt F) VA1.junk (runFirst c i arg2 harg2 arg3 harg3 arg4 harg4 arg5 harg5 arg6 harg6 arg7 harg7 arg8 harg8 arg9 harg9 arg10 harg10 arg11 harg11 hc0 hc1 x0 x1 x2 x3).2.1)
  acc2 := VA2.read (Elt F) (VA2.writes (Elt F) VA2.junk (runFirst c i arg2 harg2 arg3 harg3 arg4 harg4 arg5 harg5 arg6 harg6 arg7 harg7 arg8 harg8 arg9 harg9 arg10 harg10 arg11 harg11 hc0 hc1 x0 x1 x2 x3).2.2.1)

/-! ## A column tile in the middle -/

/-- At 0 < j < 7 each accumulator's one piece (the increasing store) tiles it. -/
theorem coverMiddle0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) (y : S1024x1.Idx) :
    ∃ pc ∈ (runMiddle c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (runMiddle c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

theorem coverMiddle1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) (y : S1024x1.Idx) :
    ∃ pc ∈ (runMiddle c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (runMiddle c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

theorem coverMiddle2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) (y : S1024x1.Idx) :
    ∃ pc ∈ (runMiddle c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (runMiddle c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What a point with 0 < j < 7 leaves, over what the point before left in the accumulators. -/
def heldMiddle (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) : Held F where
  out4 := VO4.read (Elt F) VO4.junk
  out5 := VO5.read (Elt F) VO5.junk
  out6 := VO6.read (Elt F) VO6.junk
  acc0 := VA0.read (Elt F) (VA0.writes (Elt F) VA0.junk (runMiddle c i arg2 harg2 arg3 harg3 arg4 harg4 arg5 harg5 arg6 harg6 arg7 harg7 arg8 harg8 arg9 harg9 arg10 harg10 arg11 harg11 hc0 hc1 x0 x1 x2 x3 xs0 xs1 xs2).1)
  acc1 := VA1.read (Elt F) (VA1.writes (Elt F) VA1.junk (runMiddle c i arg2 harg2 arg3 harg3 arg4 harg4 arg5 harg5 arg6 harg6 arg7 harg7 arg8 harg8 arg9 harg9 arg10 harg10 arg11 harg11 hc0 hc1 x0 x1 x2 x3 xs0 xs1 xs2).2.1)
  acc2 := VA2.read (Elt F) (VA2.writes (Elt F) VA2.junk (runMiddle c i arg2 harg2 arg3 harg3 arg4 harg4 arg5 harg5 arg6 harg6 arg7 harg7 arg8 harg8 arg9 harg9 arg10 harg10 arg11 harg11 hc0 hc1 x0 x1 x2 x3 xs0 xs1 xs2).2.2.1)

/-! ## The last column tile -/

/-- At j = 7 each output's one piece (its whole block) tiles it, -/
theorem coverLast4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

theorem coverLast5 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

theorem coverLast6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- and each accumulator's one piece tiles it. -/
theorem coverLastAcc0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

theorem coverLastAcc1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

theorem coverLastAcc2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) (y : S1024x1.Idx) :
    ∃ pc ∈ (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What a point with j = 7 leaves, over what the point before left in the accumulators: the outputs' blocks and the
    accumulators' final contents. -/
def heldLast (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) : Held F where
  out4 := VO4.read (Elt F) (VO4.writes (Elt F) VO4.junk (runLast c i arg2 harg2 arg3 harg3 arg4 harg4 arg5 harg5 arg6 harg6 arg7 harg7 arg8 harg8 arg9 harg9 arg10 harg10 arg11 harg11 hc0 hc1 x0 x1 x2 x3 xs0 xs1 xs2).1)
  out5 := VO5.read (Elt F) (VO5.writes (Elt F) VO5.junk (runLast c i arg2 harg2 arg3 harg3 arg4 harg4 arg5 harg5 arg6 harg6 arg7 harg7 arg8 harg8 arg9 harg9 arg10 harg10 arg11 harg11 hc0 hc1 x0 x1 x2 x3 xs0 xs1 xs2).2.1)
  out6 := VO6.read (Elt F) (VO6.writes (Elt F) VO6.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.1)
  acc0 := VA0.read (Elt F) (VA0.writes (Elt F) VA0.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.2.1)
  acc1 := VA1.read (Elt F) (VA1.writes (Elt F) VA1.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1)
  acc2 := VA2.read (Elt F) (VA2.writes (Elt F) VA2.junk (runLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## Point by point -/

/-- THE ACCUMULATION. What the six buffers hold after the body at position `n`: the case the closed forms select there,
    run at the point's memrefs and input blocks, the accumulators starting from what position `n - 1` left unless the
    point zeroes them. -/
def heldAt (c : Dev nD) : (n : ℕ) → n < cfg0.N → Held F
  | 0, hn => heldFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM0 (Memref.isWhole_whole _) accM1 (Memref.isWhole_whole _) accM2 (Memref.isWhole_whole _) ((firstTile_iff ⟨0, hn⟩).mpr (Nat.zero_mod _)) (fun h => (fun h => by (try dsimp only at h); omega) ((lastTile_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      heldFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM0 (Memref.isWhole_whole _) accM1 (Memref.isWhole_whole _) accM2 (Memref.isWhole_whole _) ((firstTile_iff ⟨n + 1, hn⟩).mpr h0) (fun h => (fun h => by (try dsimp only at h); omega) ((lastTile_iff ⟨n + 1, hn⟩).mp h)) (iblk m c 0 ⟨n + 1, hn⟩) (iblk m c 1 ⟨n + 1, hn⟩) (iblk m c 2 ⟨n + 1, hn⟩) (iblk m c 3 ⟨n + 1, hn⟩)
    else if h7 : (n + 1) % 8 = 7 then
      heldLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM0 (Memref.isWhole_whole _) accM1 (Memref.isWhole_whole _) accM2 (Memref.isWhole_whole _) (fun h => h0 ((firstTile_iff ⟨n + 1, hn⟩).mp h)) ((lastTile_iff ⟨n + 1, hn⟩).mpr h7) (iblk m c 0 ⟨n + 1, hn⟩) (iblk m c 1 ⟨n + 1, hn⟩) (iblk m c 2 ⟨n + 1, hn⟩) (iblk m c 3 ⟨n + 1, hn⟩) (heldAt c n (Nat.lt_of_succ_lt hn)).acc0 (heldAt c n (Nat.lt_of_succ_lt hn)).acc1 (heldAt c n (Nat.lt_of_succ_lt hn)).acc2
    else
      heldMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM0 (Memref.isWhole_whole _) accM1 (Memref.isWhole_whole _) accM2 (Memref.isWhole_whole _) (fun h => h0 ((firstTile_iff ⟨n + 1, hn⟩).mp h)) (fun h => h7 ((lastTile_iff ⟨n + 1, hn⟩).mp h)) (iblk m c 0 ⟨n + 1, hn⟩) (iblk m c 1 ⟨n + 1, hn⟩) (iblk m c 2 ⟨n + 1, hn⟩) (iblk m c 3 ⟨n + 1, hn⟩) (heldAt c n (Nat.lt_of_succ_lt hn)).acc0 (heldAt c n (Nat.lt_of_succ_lt hn)).acc1 (heldAt c n (Nat.lt_of_succ_lt hn)).acc2

/-- The point before `t`, as a position. -/
abbrev prevLt (t : Fin cfg0.N) : t.val - 1 < cfg0.N := Nat.lt_of_le_of_lt (Nat.sub_le _ _) t.isLt

/-- `heldAt` at a point with j = 0. -/
theorem heldAt_first (c : Dev nD) (t : Fin cfg0.N) (h0 : t.val % 8 = 0) (h7 : ¬t.val % 8 = 7) :
    heldAt m c t.val t.isLt = heldFirst c (grid0.coords t) (ms0 t) (hs0 t) (ms1 t) (hs1 t) (ms2 t) (hs2 t) (ms3 t) (hs3 t) (ms4 t) (hs4 t) (ms5 t) (hs5 t) (ms6 t) (hs6 t) accM0 (Memref.isWhole_whole _) accM1 (Memref.isWhole_whole _) accM2 (Memref.isWhole_whole _) ((firstTile_iff t).mpr h0) (fun h => h7 ((lastTile_iff t).mp h)) (iblk m c 0 t) (iblk m c 1 t) (iblk m c 2 t) (iblk m c 3 t) := by
  obtain ⟨n, hn⟩ := t
  cases n with
  | zero => exact rfl
  | succ n => exact (dif_pos h0).trans rfl

/-- `heldAt` at a point with 0 < j < 7: over what the point before left. -/
theorem heldAt_middle (c : Dev nD) (t : Fin cfg0.N) (h0 : ¬t.val % 8 = 0) (h7 : ¬t.val % 8 = 7) :
    heldAt m c t.val t.isLt = heldMiddle c (grid0.coords t) (ms0 t) (hs0 t) (ms1 t) (hs1 t) (ms2 t) (hs2 t) (ms3 t) (hs3 t) (ms4 t) (hs4 t) (ms5 t) (hs5 t) (ms6 t) (hs6 t) accM0 (Memref.isWhole_whole _) accM1 (Memref.isWhole_whole _) accM2 (Memref.isWhole_whole _) (fun h => h0 ((firstTile_iff t).mp h)) (fun h => h7 ((lastTile_iff t).mp h)) (iblk m c 0 t) (iblk m c 1 t) (iblk m c 2 t) (iblk m c 3 t) (heldAt m c (t.val - 1) (prevLt t)).acc0 (heldAt m c (t.val - 1) (prevLt t)).acc1 (heldAt m c (t.val - 1) (prevLt t)).acc2 := by
  obtain ⟨n, hn⟩ := t
  cases n with
  | zero => exact (by exfalso; (try dsimp only at h0); exact absurd (Nat.zero_mod _) h0)
  | succ n => exact (dif_neg h0).trans ((dif_neg h7).trans rfl)

/-- `heldAt` at a point with j = 7: over what the point before left. -/
theorem heldAt_last (c : Dev nD) (t : Fin cfg0.N) (h0 : ¬t.val % 8 = 0) (h7 : t.val % 8 = 7) :
    heldAt m c t.val t.isLt = heldLast c (grid0.coords t) (ms0 t) (hs0 t) (ms1 t) (hs1 t) (ms2 t) (hs2 t) (ms3 t) (hs3 t) (ms4 t) (hs4 t) (ms5 t) (hs5 t) (ms6 t) (hs6 t) accM0 (Memref.isWhole_whole _) accM1 (Memref.isWhole_whole _) accM2 (Memref.isWhole_whole _) (fun h => h0 ((firstTile_iff t).mp h)) ((lastTile_iff t).mpr h7) (iblk m c 0 t) (iblk m c 1 t) (iblk m c 2 t) (iblk m c 3 t) (heldAt m c (t.val - 1) (prevLt t)).acc0 (heldAt m c (t.val - 1) (prevLt t)).acc1 (heldAt m c (t.val - 1) (prevLt t)).acc2 := by
  obtain ⟨n, hn⟩ := t
  cases n with
  | zero => exact (by exfalso; (try dsimp only at h0); exact absurd (Nat.zero_mod _) h0)
  | succ n => exact (dif_neg h0).trans ((dif_pos h7).trans rfl)

/-! ## The region's invariant -/

/-- The invariant before position `n`: before the first point what the launch hands the region (every accumulator at
    anything); afterwards each accumulator at what the point before left in it, and the generator register at some
    state. -/
def PhiS (c : Dev nD) : (n : ℕ) → n ≤ cfg0.N → sProp 𝕄
  | 0, _ => Pipeline.ΦA spec0 c
  | n + 1, hn => iprop(iprop(owns (c : Thread nD τ) accM0 fullShare (heldAt m c n hn).acc0 ∗ owns (c : Thread nD τ) accM1 fullShare (heldAt m c n hn).acc1 ∗ owns (c : Thread nD τ) accM2 fullShare (heldAt m c n hn).acc2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) accM0 fullShare (heldAt m c n hn).acc0 ∗ owns (c : Thread nD τ) accM1 fullShare (heldAt m c n hn).acc1 ∗ owns (c : Thread nD τ) accM2 fullShare (heldAt m c n hn).acc2) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) accM0 fullShare (heldAt m c (n - 1) (by omega)).acc0 ∗ owns (c : Thread nD τ) accM1 fullShare (heldAt m c (n - 1) (by omega)).acc1 ∗ owns (c : Thread nD τ) accM2 fullShare (heldAt m c (n - 1) (by omega)).acc2) ∗ (∃ r, prngReg c r)) := by
  cases n with
  | zero => exact absurd rfl hz
  | succ n => rfl

end Cert.Kernel.Body

end
-- ==== Proof.BodyWord.Data.lean ====
/- The proof data of the one pipeline: the arrays as the region finds them; after the body at a point each input's buffer at
   its block, each output's at the accumulation's component; the invariant with the three accumulators at the accumulation's
   components; nothing owed. The first half of the features is staged twice (by row blocks and whole) and so is the second:
   each of the two windows on one array holds one half of its full share. -/
import proofs.«117558_j62045097558541_2_alg».proof.Proof.BodyWord.Accum

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (heldAt m c t.val t.isLt).out4
    | ⟨5, _⟩ => (heldAt m c t.val t.isLt).out5
    | ⟨6, _⟩ => (heldAt m c t.val t.isLt).out6
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- The shares: the two windows on the first half's array hold the two halves of its full share, likewise the two on the
    second half's array; each output is held outright. -/
theorem q_eq0 (c : Dev nD) : (dats m 0 c).q 0 = fullShare.left := by dsimp only [dats]
theorem q_eq1 (c : Dev nD) : (dats m 0 c).q 1 = fullShare.left := by dsimp only [dats]
theorem q_eq2 (c : Dev nD) : (dats m 0 c).q 2 = fullShare.right := by dsimp only [dats]
theorem q_eq3 (c : Dev nD) : (dats m 0 c).q 3 = fullShare.right := by dsimp only [dats]
theorem q_eq4 (c : Dev nD) : (dats m 0 c).q 4 = fullShare := by dsimp only [dats]
theorem q_eq5 (c : Dev nD) : (dats m 0 c).q 5 = fullShare := by dsimp only [dats]
theorem q_eq6 (c : Dev nD) : (dats m 0 c).q 6 = fullShare := by dsimp only [dats]
/-- Nothing is owed at any point. -/
theorem owed_eq (c : Dev nD) (t : Fin (cfg0.N + 1)) : (dats m 0 c).owed t = 0 := by dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (heldAt m c t.val t.isLt).out4 := by dsimp only [dats]
theorem after0_5 (c : Dev nD) (t : Fin cfg0.N) : (dats m 0 c).after 5 t = (heldAt m c t.val t.isLt).out5 := by dsimp only [dats]
theorem after0_6 (c : Dev nD) (t : Fin cfg0.N) : (dats m 0 c).after 6 t = (heldAt m c t.val t.isLt).out6 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators' named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Body

end
-- ==== Proof.BodyWord.Obligation.lean ====
/- The body obligation: at every point, from the invariant and each window's current buffer at what it then holds, the body
   runs to the invariant at the next point and each buffer at what the proof data says it leaves. The closed forms of the
   two conditions say which of the three runs applies at the point. -/
import proofs.«117558_j62045097558541_2_alg».proof.Proof.BodyWord.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t` (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the invariant hands the body the accumulators at what
    the point before left (at anything before the first point); the case's run applies; each accumulator is taken back at
    this point's contents (its pieces cover it), the inputs as they were, and the outputs' buffers untouched away from
    j = 7, at their blocks (their pieces cover them) at j = 7. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from (by
    unfold Dat.leavesExact; rw [live0_0 t]), after0_0]
  rw [show (dats m 0 c).leavesExact 1 t = owns (c : Thread nD τ) (ms1 t) fullShare ((dats m 0 c).after 1 t) from (by
    unfold Dat.leavesExact; rw [live0_1 t]), after0_1]
  rw [show (dats m 0 c).leavesExact 2 t = owns (c : Thread nD τ) (ms2 t) fullShare ((dats m 0 c).after 2 t) from (by
    unfold Dat.leavesExact; rw [live0_2 t]), after0_2]
  rw [show (dats m 0 c).leavesExact 3 t = owns (c : Thread nD τ) (ms3 t) fullShare ((dats m 0 c).after 3 t) from (by
    unfold Dat.leavesExact; rw [live0_3 t]), after0_3]
  by_cases h0 : t.val % 8 = 0
  · have h7 : ¬t.val % 8 = 7 := by omega
    have hl : ¬lastTile (grid0.coords t) := fun h => h7 ((lastTile_iff t).mp h)
    rw [Dat.leavesExact_idle (dats m 0 c) 4 t (idle0_4 t hl) (noFlush0_4 t hl), Dat.leavesExact_idle (dats m 0 c) 5 t (idle0_5 t hl) (noFlush0_5 t hl), Dat.leavesExact_idle (dats m 0 c) 6 t (idle0_6 t hl) (noFlush0_6 t hl)]
    rw [heldAt_first m c t h0 h7]
    unfold heldFirst; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ _ _ ((firstTile_iff t).mpr h0) hl (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _ _ _)
          unfold owns; iexists _; isplitr
          swap; · iexact HS2
          ipureintro; exact View.read_writes_of_cover _ _ _ _ _ (coverFirst2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ _ _ ((firstTile_iff t).mpr h0) hl (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirst1 c _ _ _ _ _ _ _ _ _ _ _ _ _ _ _ _ _ _ _ _ _ _ _ _ _ _ _)
          unfold owns; iexists _; isplitr
          swap; · iexact HS2
          ipureintro; exact View.read_writes_of_cover _ _ _ _ _ (coverFirst2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hf : ¬firstTile (grid0.coords t) := fun h => h0 ((firstTile_iff t).mp h)
    have hz : t.val ≠ 0 := fun e => h0 (by rw [e])
    by_cases h7 : t.val % 8 = 7
    · have hl : lastTile (grid0.coords t) := (lastTile_iff t).mpr h7
      rw [show (dats m 0 c).leavesExact 4 t = owns (c : Thread nD τ) (ms4 t) fullShare ((dats m 0 c).after 4 t) from (by
        unfold Dat.leavesExact; rw [live0_4 t hl]), after0_4]
      rw [show (dats m 0 c).leavesExact 5 t = owns (c : Thread nD τ) (ms5 t) fullShare ((dats m 0 c).after 5 t) from (by
        unfold Dat.leavesExact; rw [live0_5 t hl]), after0_5]
      rw [show (dats m 0 c).leavesExact 6 t = owns (c : Thread nD τ) (ms6 t) fullShare ((dats m 0 c).after 6 t) from (by
        unfold Dat.leavesExact; rw [live0_6 t hl]), after0_6]
      rw [heldAt_last m c t h0 h7]
      unfold heldLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ _ _ _ _ hf hl (iblk m c 0 t) (iblk m c 1 t) (iblk m c 2 t) (iblk m c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLastAcc0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLastAcc1 c _ _ _ _ _ _ _ _ _ _ _ _ _ _ _ _ _ _ _ _ _ _ _ _ _ _ _ _ _ _)
          unfold owns; iexists _; isplitr
          swap; · iexact HS2
          ipureintro; exact View.read_writes_of_cover _ _ _ _ _ (coverLastAcc2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverLast4 c _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (coverLast5 c _ _ _ _ _ _ _ _ _ _ _ _ _ _ _ _ _ _ _ _ _ _ _ _ _ _ _ _ _ _)
      unfold owns; iexists _; isplitr
      swap; · iexact H6
      ipureintro; exact View.read_writes_of_cover _ _ _ _ _ (coverLast6 c _ _ _ _ _ _ _ _ _ _ _ _ _ _ _ _ _ _ _ _ _ _ _ _ _ _ _ _ _ _)
    · have hl : ¬lastTile (grid0.coords t) := fun h => h7 ((lastTile_iff t).mp h)
      rw [Dat.leavesExact_idle (dats m 0 c) 4 t (idle0_4 t hl) (noFlush0_4 t hl), Dat.leavesExact_idle (dats m 0 c) 5 t (idle0_5 t hl) (noFlush0_5 t hl), Dat.leavesExact_idle (dats m 0 c) 6 t (idle0_6 t hl) (noFlush0_6 t hl)]
      rw [heldAt_middle m c t h0 h7]
      unfold heldMiddle; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ _ _ _ _ hf hl (iblk m c 0 t) (iblk m c 1 t) (iblk m c 2 t) (iblk m c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMiddle0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMiddle1 c _ _ _ _ _ _ _ _ _ _ _ _ _ _ _ _ _ _ _ _ _ _ _ _ _ _ _ _ _ _)
          unfold owns; iexists _; isplitr
          swap; · iexact HS2
          ipureintro; exact View.read_writes_of_cover _ _ _ _ _ (coverMiddle2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.LaunchWord.FrameRun.lean ====
/-
  The whole run. From any launch memory: the host operations before the region leave every buffer at the region-entry
  contents; the region is entered holding the two shared input arrays as half shares per window and the three result
  arrays whole; point by point the body keeps its invariant (the three accumulators at the running sums); after the
  last point the later host operations run over the result arrays and the bypassing buffers. Every weakly fair
  execution terminates, nothing faults, each windowed array ends as the pipeline's write-backs left it and every other
  unscoped buffer at the later operations' composite of the exit contents. In particular the argument array, which no
  window stages and no host operation writes, ends as it began.
-/
import proofs.«117558_j62045097558541_2_alg».proof.Proof.LaunchWord.SharedArrays
import proofs.«117558_j62045097558541_2_alg».proof.Proof.LaunchWord.HostTail
import proofs.«117558_j62045097558541_2_alg».proof.Proof.BodyWord.Obligation

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two spellings of the region-entry contents agree. -/
theorem V_eq (c : Dev nD) (b : Ref sig .tc) : Body.V m c b = V m c b := rfl

theorem share4 (c : Dev nD) : (Body.dats m 0 c).share 4 = fullShare := by unfold Dat.share; rw [if_pos (by decide)]
theorem share5 (c : Dev nD) : (Body.dats m 0 c).share 5 = fullShare := by unfold Dat.share; rw [if_pos (by decide)]
theorem share6 (c : Dev nD) : (Body.dats m 0 c).share 6 = fullShare := by unfold Dat.share; rw [if_pos (by decide)]

set_option maxHeartbeats 3200000 in
set_option backward.isDefEq.respectTransparency.types false in
/-- THE RUN: every weakly fair execution of @main terminates without a fault; each windowed array ends at what the
    pipeline's write-backs left, every buffer that bypasses the region at the later operations' composite. -/
theorem run_main :
    θ_run defs (onTc (τ := τ) (main (F := F))) (s₀ m ρ)
      (fun r => ∀ c : Dev nD,
        (∀ w, r.2.mem ((spec0 w).arr.view.loc (c.tc : Thread nD τ)) = (Body.dats m 0 c).arrAt w cfg0.N)
        ∧ ∀ b ∈ restRefsP sig Prefetch.none spec0, r.2.mem ((c.tc : Thread nD τ).loc b) = Vend m (Body.dats m 0 c) b) := by
  classical
  exact θ_run_region_pf_tail (fun q => (cfgs q).toPCfg (Val := Elt F)) (fun q => (cfgs q).toPCfg_adm) (Body.dats m) ()
    cellOf_inj 0 winFacts₀0 (OwnSemFacts.none spec0) (PreFacts.none _) emb₁ defs₀ Variants.none m ρ main
    (fun _ => chain ([hostOps1].map StableHlo.seq)) (fun c => (Body.body_obligation m c).loose)
    block_pos0 arr_whole0 stage_whole0 (fun c t => Body.owed_eq m c t)
    (G := fun _ => iprop(emp))
    (u₀ := initOf (cells (pin (fun q => (cfgs q).toPCfg (Val := Elt F)) (fun q => (cfgs q).toPCfg_adm)) cellOf_inj)
      (launchToks (pin (fun q => (cfgs q).toPCfg (Val := Elt F)) (fun q => (cfgs q).toPCfg_adm)) cellOf_inj))
    (hu₀ := by
      iintro Hu; imodintro
      isplitl [Hu]
      · iapply (show (ownU _ : sProp 𝕄) ⊢ BI.own (emb₁ (initOf (cells (pin (fun q => (cfgs q).toPCfg (Val := Elt F)) (fun q => (cfgs q).toPCfg_adm)) cellOf_inj)
          (launchToks (pin (fun q => (cfgs q).toPCfg (Val := Elt F)) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit (Body.dats m 0 c) (V m c) (fun w => (Body.A_eq m c w).trans (V_eq m c _))
      (Body.q_eq0 m c) (Body.q_eq1 m c) (Body.q_eq2 m c) (Body.q_eq3 m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c
      (fun b => V0 m c (Proc.devRef .tc b)))
    (Z' := fun c => unscopedRestP (Ix := Unit) (Name := ℕ) (U := UR sig nD τ) (Lvl := ℕ) Prefetch.none spec0 c
      (Vend m (Body.dats m 0 c)))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (Body.hin m c))
    (hout := fun c => (Body.hout m c).trans (by
      rw [ownSems0_none]; unfold ΦA
      iintro ⟨Hr, Hp⟩
      isplitl [Hp]; · iexact Hp
      isplitr; · iempintro
      iexact Hr))
    (htail := fun c Q' => htail m (Body.dats m 0 c) Variants.none (share4 m c) (share5 m c) (share6 m c) Q')
    (QY := fun c s => ∀ b ∈ restRefsP sig Prefetch.none spec0, s.mem ((c.tc : Thread nD τ).loc b) = Vend m (Body.dats m 0 c) b)
    (hY := fun c s' => by
      iintro ⟨-, HU, HSI⟩
      unfold unscopedRestP
      imodintro
      iapply (pointsTo_read_all (restRefsP sig Prefetch.none spec0) (fun b => (c.tc : Thread nD τ).loc b) (Vend m (Body.dats m 0 c)) s')
      isplitl [HU] <;> iassumption)
    (hQ := fun s h c => ⟨(h c).1, (h c).2.2⟩)

end Cert.Kernel.Launch

end
-- ==== Proof.LaunchWord.FrameClaim.lean ====
/-
  The frame claim from the run: the argument array is staged by no window and written by no host operation, before
  or after the region, so it ends at the launch contents.
-/
import proofs.«117558_j62045097558541_2_alg».proof.Proof.LaunchWord.FrameRun
import Idealize.ShloMosaic.Lib.StableHlo.Run

noncomputable section

namespace Cert.Kernel.Launch

open Idealize.ShloMosaic Idealize.ShloMosaic.TcCoe Idealize.ShloMosaic.Tactic Idealize.ShloMosaic.StableHlo
open Idealize.SL Idealize.SL.Sem
open Idealize.ShloMosaic.Pipeline
open Cert.Kernel Cert.Kernel.Gen

variable {F : FTy → Type} [FloatOps F]

variable (m : (ℓ : Loc nD τ sig) → Buf (Elt F) ℓ) (ρ : Dev nD → PrngReg)

/-- The argument array bypasses the region. -/
theorem arg_bypasses : main_arg0 ∈ restRefsP sig Prefetch.none spec0 :=
  Finset.mem_sdiff.mpr ⟨mem_restRefs_of main_arg0 (by decide) (by decide), fun h => by
    obtain ⟨k, -, -⟩ := Finset.mem_image.mp h; exact k.elim0⟩

/-- So does the buffer of the final result, which the last host operation writes. -/
theorem result_bypasses : main_v20 ∈ restRefsP sig Prefetch.none spec0 :=
  Finset.mem_sdiff.mpr ⟨mem_restRefs_of main_v20 (by decide) (by decide), fun h => by
    obtain ⟨k, -, -⟩ := Finset.mem_image.mp h; exact k.elim0⟩

/-- No host operation before the region writes the argument array. -/
theorem entry_arg (c : Dev nD) : V0 m c (Proc.devRef .tc main_arg0) = m ((c.tc : Thread nD τ).loc main_arg0) := by
  dsimp only [V0]
  simp only [hostOps0, hostOps0_1, List.flatten_cons, List.flatten_nil, List.append_nil, List.cons_append, List.nil_append]
  after_results

/-- Nor does any after it, and no window stages it. -/
theorem end_arg {c : Dev nD} (dat : Dat τ (Elt F) Unit ℕ (UR sig nD τ) ℕ cfg0 c) :
    Vend m dat main_arg0 = m ((c.tc : Thread nD τ).loc main_arg0) := by
  dsimp only [Vend, Vexit]
  simp only [hostOps1, List.flatten_cons, List.flatten_nil, List.append_nil, List.cons_append, List.nil_append]
  after_results
  rw [withArrays_of_ne spec0 c _ _ main_arg0 (by decide)]
  exact entry_arg m c

/-- THE FRAME: every weakly fair execution of @main terminates, nothing faults, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg_bypasses).trans (end_arg m _)) (run_main m ρ)

end Cert.Kernel.Launch

end
-- ==== Proof.Ref.Run.lean ====
/-
  The reference's run, window by window. The program is a straight line of 126 host operations; cut into 18
  windows, each window's results are read off its own few operations from the contents it finds at the buffers it
  reads — which are the earlier windows' results, named by the stages — and a window leaves every other buffer as it
  found it. Chained, the last window's result is the last stage at the argument's launch contents; the argument is
  written by no operation.
-/
import proofs.«117558_j62045097558541_2_alg».proof.Proof.RefRunOps
import proofs.«117558_j62045097558541_2_alg».proof.Proof.RefRead

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The typed references of the two row maxima carry their buffer's own type -/

theorem ofBuf_main_call3_cst (v : (TRef.of (T := ⟨S_, .f32⟩) main_call3_cst).ref.ty.Contents (Elt F)) :
    (TRef.of (T := ⟨S_, .f32⟩) main_call3_cst).ofBuf v = v := rfl
theorem toBuf_main_call3_cst (v : (⟨S_, .f32⟩ : BufTy).Contents (Elt F)) :
    (TRef.of (T := ⟨S_, .f32⟩) main_call3_cst).toBuf v = v := rfl

theorem ofBuf_main_v31 (v : (TRef.of (T := ⟨S4096x8192, .f32⟩) main_v31).ref.ty.Contents (Elt F)) :
    (TRef.of (T := ⟨S4096x8192, .f32⟩) main_v31).ofBuf v = v := rfl
theorem toBuf_main_v31 (v : (⟨S4096x8192, .f32⟩ : BufTy).Contents (Elt F)) :
    (TRef.of (T := ⟨S4096x8192, .f32⟩) main_v31).toBuf v = v := rfl

theorem ofBuf_main_call3_v0 (v : (TRef.of (T := ⟨S4096, .f32⟩) main_call3_v0).ref.ty.Contents (Elt F)) :
    (TRef.of (T := ⟨S4096, .f32⟩) main_call3_v0).ofBuf v = v := rfl
theorem toBuf_main_call3_v0 (v : (⟨S4096, .f32⟩ : BufTy).Contents (Elt F)) :
    (TRef.of (T := ⟨S4096, .f32⟩) main_call3_v0).toBuf v = v := rfl

theorem ofBuf_main_call4_cst (v : (TRef.of (T := ⟨S_, .f32⟩) main_call4_cst).ref.ty.Contents (Elt F)) :
    (TRef.of (T := ⟨S_, .f32⟩) main_call4_cst).ofBuf v = v := rfl
theorem toBuf_main_call4_cst (v : (⟨S_, .f32⟩ : BufTy).Contents (Elt F)) :
    (TRef.of (T := ⟨S_, .f32⟩) main_call4_cst).toBuf v = v := rfl

theorem ofBuf_main_v50 (v : (TRef.of (T := ⟨S4096x8192, .f32⟩) main_v50).ref.ty.Contents (Elt F)) :
    (TRef.of (T := ⟨S4096x8192, .f32⟩) main_v50).ofBuf v = v := rfl
theorem toBuf_main_v50 (v : (⟨S4096x8192, .f32⟩ : BufTy).Contents (Elt F)) :
    (TRef.of (T := ⟨S4096x8192, .f32⟩) main_v50).toBuf v = v := rfl

theorem ofBuf_main_call4_v0 (v : (TRef.of (T := ⟨S4096, .f32⟩) main_call4_v0).ref.ty.Contents (Elt F)) :
    (TRef.of (T := ⟨S4096, .f32⟩) main_call4_v0).ofBuf v = v := rfl
theorem toBuf_main_call4_v0 (v : (⟨S4096, .f32⟩ : BufTy).Contents (Elt F)) :
    (TRef.of (T := ⟨S4096, .f32⟩) main_call4_v0).toBuf v = v := rfl

/-! ## The windows -/

/-- Operations 1 to 12. -/
abbrev W1 : List (HloOp τ sig (Elt F)) :=
  [ TRef.binary (TRef.of (T := ⟨S8192x512, .f32⟩) main_arg0) (TRef.of (T := ⟨S8192x512, .f32⟩) main_arg0) (TRef.of (T := ⟨S8192x512, .f32⟩) main_call0_v0) mulf,
    TRef.nullary (TRef.of (T := ⟨S_, .f32⟩) main_call0_cst) (constant S_ .f32 0x00000000#32),
    TRef.binary (TRef.of (T := ⟨S8192x512, .f32⟩) main_call0_v0) (TRef.of (T := ⟨S_, .f32⟩) main_call0_cst) (TRef.of (T := ⟨S8192, .f32⟩) main_call0_v1) (fun x v => Host.reduceAdd x v reducesTo_S8192x512_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x512 ![0, 1] bcast_S8192x1_S8192x512_0_1 : (⟨S8192x1, .f32⟩ : BufTy).Contents (Elt F) → (⟨S8192x512, .f32⟩ : BufTy).Contents (Elt F)),
    binary main_arg0 main_v3 main_v4 (Host.divf : (⟨S8192x512, .f32⟩ : BufTy).Contents (Elt F) → (⟨S8192x512, .f32⟩ : BufTy).Contents (Elt F) → (⟨S8192x512, .f32⟩ : BufTy).Contents (Elt F)),
    unary main_v4 main_v5 ((extractStridedSlice S4096x512 ![0, 0] · slices_S8192x512_S4096x512_0_0) : (⟨S8192x512, .f32⟩ : BufTy).Contents (Elt F) → (⟨S4096x512, .f32⟩ : BufTy).Contents (Elt F)),
    unary main_v4 main_v6 ((extractStridedSlice S4096x512 ![4096, 0] · slices_S8192x512_S4096x512_4096_0) : (⟨S8192x512, .f32⟩ : BufTy).Contents (Elt F) → (⟨S4096x512, .f32⟩ : BufTy).Contents (Elt F)) ]

/-- Operations 13 to 18. -/
abbrev W2 : List (HloOp τ sig (Elt F)) :=
  [ nullary main_v7 (iotaInDim S4096x4096 32 0),
    nullary main_v8 (iotaInDim S4096x4096 32 1),
    nullary main_c (constantI S_ 32 0#32),
    unary main_c main_v9 (broadcastInDim S4096x4096 ![] bcast_S_S4096x4096 : (⟨S_, .i32⟩ : BufTy).Contents (Elt F) → (⟨S4096x4096, .i32⟩ : BufTy).Contents (Elt F)),
    binary main_v7 main_v9 main_v10 (addi : (⟨S4096x4096, .i32⟩ : BufTy).Contents (Elt F) → (⟨S4096x4096, .i32⟩ : BufTy).Contents (Elt F) → (⟨S4096x4096, .i32⟩ : BufTy).Contents (Elt F)),
    binary main_v10 main_v8 main_v11 (cmpi .eq : (⟨S4096x4096, .i32⟩ : BufTy).Contents (Elt F) → (⟨S4096x4096, .i32⟩ : BufTy).Contents (Elt F) → (⟨S4096x4096, .i1⟩ : BufTy).Contents (Elt F)) ]

/-- Operations 19 to 27. -/
abbrev W3 : List (HloOp τ sig (Elt F)) :=
  [ unary main_v5 main_v12 ((transpose S512x4096 [1, 0] · transposes_S4096x512_S512x4096_1_0) : (⟨S4096x512, .f32⟩ : BufTy).Contents (Elt F) → (⟨S512x4096, .f32⟩ : BufTy).Contents (Elt F)),
    binary main_v5 main_v12 main_v13 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_0 (constant S_ .f32 0x3DCCCCCD#32),
    unary main_cst_0 main_v14 (broadcastInDim S4096x4096 ![] bcast_S_S4096x4096 : (⟨S_, .f32⟩ : BufTy).Contents (Elt F) → (⟨S4096x4096, .f32⟩ : BufTy).Contents (Elt F)),
    binary main_v13 main_v14 main_v15 (Host.divf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0xC77FE000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v11) (TRef.of (T := ⟨S4096x4096, .f32⟩) main_call1_v1) (TRef.of (T := ⟨S4096x4096, .f32⟩) main_v15) (TRef.of (T := ⟨S4096x4096, .f32⟩) main_v16) select ]

/-- Operations 28 to 36. -/
abbrev W4 : List (HloOp τ sig (Elt F)) :=
  [ unary main_v6 main_v17 ((transpose S512x4096 [1, 0] · transposes_S4096x512_S512x4096_1_0) : (⟨S4096x512, .f32⟩ : BufTy).Contents (Elt F) → (⟨S512x4096, .f32⟩ : BufTy).Contents (Elt F)),
    binary main_v6 main_v17 main_v18 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_2 (constant S_ .f32 0x3DCCCCCD#32),
    unary main_cst_2 main_v19 (broadcastInDim S4096x4096 ![] bcast_S_S4096x4096 : (⟨S_, .f32⟩ : BufTy).Contents (Elt F) → (⟨S4096x4096, .f32⟩ : BufTy).Contents (Elt F)),
    binary main_v18 main_v19 main_v20 (Host.divf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0xC77FE000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S4096x4096, .f32⟩) main_call2_v1) (broadcastInDim S4096x4096 ![] bcast_S_S4096x4096),
    TRef.ternary (TRef.of (T := ⟨S4096x4096, .i1⟩) main_v11) (TRef.of (T := ⟨S4096x4096, .f32⟩) main_call2_v1) (TRef.of (T := ⟨S4096x4096, .f32⟩) main_v20) (TRef.of (T := ⟨S4096x4096, .f32⟩) main_v21) select ]

/-- Operations 37 to 41. -/
abbrev W5 : List (HloOp τ sig (Elt F)) :=
  [ unary main_v6 main_v22 ((transpose S512x4096 [1, 0] · transposes_S4096x512_S512x4096_1_0) : (⟨S4096x512, .f32⟩ : BufTy).Contents (Elt F) → (⟨S512x4096, .f32⟩ : BufTy).Contents (Elt F)),
    binary main_v5 main_v22 main_v23 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_4 (constant S_ .f32 0x3DCCCCCD#32),
    unary main_cst_4 main_v24 (broadcastInDim S4096x4096 ![] bcast_S_S4096x4096 : (⟨S_, .f32⟩ : BufTy).Contents (Elt F) → (⟨S4096x4096, .f32⟩ : BufTy).Contents (Elt F)),
    binary main_v23 main_v24 main_v25 (Host.divf : (⟨S4096x4096, .f32⟩ : BufTy).Contents (Elt F) → (⟨S4096x4096, .f32⟩ : BufTy).Contents (Elt F) → (⟨S4096x4096, .f32⟩ : BufTy).Contents (Elt F)) ]

/-- Operations 42 to 47. -/
abbrev W6 : List (HloOp τ sig (Elt F)) :=
  [ unary main_v5 main_v26 ((transpose S512x4096 [1, 0] · transposes_S4096x512_S512x4096_1_0) : (⟨S4096x512, .f32⟩ : BufTy).Contents (Elt F) → (⟨S512x4096, .f32⟩ : BufTy).Contents (Elt F)),
    binary main_v6 main_v26 main_v27 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    nullary main_cst_5 (constant S_ .f32 0x3DCCCCCD#32),
    unary main_cst_5 main_v28 (broadcastInDim S4096x4096 ![] bcast_S_S4096x4096 : (⟨S_, .f32⟩ : BufTy).Contents (Elt F) → (⟨S4096x4096, .f32⟩ : BufTy).Contents (Elt F)),
    binary main_v27 main_v28 main_v29 (Host.divf : (⟨S4096x4096, .f32⟩ : BufTy).Contents (Elt F) → (⟨S4096x4096, .f32⟩ : BufTy).Contents (Elt F) → (⟨S4096x4096, .f32⟩ : BufTy).Contents (Elt F)),
    nullary main_v30 (iotaInDim S4096 32 0) ]

/-- Operations 48 to 48. -/
abbrev W7 : List (HloOp τ sig (Elt F)) :=
  [ binary main_v25 main_v16 main_v31 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)) ]

/-- Operations 49 to 50. -/
abbrev W8 : List (HloOp τ sig (Elt F)) :=
  [ TRef.nullary (TRef.of (T := ⟨S_, .f32⟩) main_call3_cst) (constant S_ .f32 0xFF800000#32),
    TRef.binary (TRef.of (T := ⟨S4096x8192, .f32⟩) main_v31) (TRef.of (T := ⟨S_, .f32⟩) main_call3_cst) (TRef.of (T := ⟨S4096, .f32⟩) main_call3_v0) (fun x v => Host.reduce FloatOps.maximumf x v reducesTo_S4096x8192_S4096_d1 h_S_) ]

/-- Operations 51 to 55. -/
abbrev W9 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x8192, .f32⟩) main_call3_v4) (broadcastInDim S4096x8192 ![0, 1] bcast_S4096x1_S4096x8192_0_1) ]

/-- Operations 56 to 63. -/
abbrev W10 : List (HloOp τ sig (Elt F)) :=
  [ TRef.binary (TRef.of (T := ⟨S4096x8192, .f32⟩) main_v31) (TRef.of (T := ⟨S4096x8192, .f32⟩) main_call3_v4) (TRef.of (T := ⟨S4096x8192, .f32⟩) main_call3_v5) subf,
    TRef.unary (TRef.of (T := ⟨S4096x8192, .f32⟩) main_call3_v5) (TRef.of (T := ⟨S4096x8192, .f32⟩) main_call3_v6) Host.exp,
    TRef.nullary (TRef.of (T := ⟨S_, .f32⟩) main_call3_cst_1) (constant S_ .f32 0x00000000#32),
    TRef.binary (TRef.of (T := ⟨S4096x8192, .f32⟩) main_call3_v6) (TRef.of (T := ⟨S_, .f32⟩) main_call3_cst_1) (TRef.of (T := ⟨S4096, .f32⟩) main_call3_v7) (fun x v => Host.reduceAdd x v reducesTo_S4096x8192_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x8192, .f32⟩) main_call3_v10) (broadcastInDim S4096x8192 ![0, 1] bcast_S4096x1_S4096x8192_0_1),
    TRef.binary (TRef.of (T := ⟨S4096x8192, .f32⟩) main_call3_v5) (TRef.of (T := ⟨S4096x8192, .f32⟩) main_call3_v10) (TRef.of (T := ⟨S4096x8192, .f32⟩) main_v32) subf ]

/-- Operations 64 to 79. -/
abbrev W11 : List (HloOp τ sig (Elt F)) :=
  [ nullary main_c_6 (constantI S_ 32 0#32),
    unary main_c_6 main_v33 (broadcastInDim S4096 ![] bcast_S_S4096 : (⟨S_, .i32⟩ : BufTy).Contents (Elt F) → (⟨S4096, .i32⟩ : BufTy).Contents (Elt F)),
    binary main_v30 main_v33 main_v34 (cmpi .slt : (⟨S4096, .i32⟩ : BufTy).Contents (Elt F) → (⟨S4096, .i32⟩ : BufTy).Contents (Elt F) → (⟨S4096, .i1⟩ : BufTy).Contents (Elt F)),
    nullary main_c_7 (constantI S_ 32 4096#32),
    unary main_c_7 main_v35 (broadcastInDim S4096 ![] bcast_S_S4096 : (⟨S_, .i32⟩ : BufTy).Contents (Elt F) → (⟨S4096, .i32⟩ : BufTy).Contents (Elt F)),
    binary main_v30 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v30 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v38 (broadcastInDim S4096 ![] bcast_S_S4096 : (⟨S_, .i32⟩ : BufTy).Contents (Elt F) → (⟨S4096, .i32⟩ : BufTy).Contents (Elt F)),
    binary main_v30 main_v38 main_v39 (cmpi .slt : (⟨S4096, .i32⟩ : BufTy).Contents (Elt F) → (⟨S4096, .i32⟩ : BufTy).Contents (Elt F) → (⟨S4096, .i1⟩ : BufTy).Contents (Elt F)),
    nullary main_c_9 (constantI S_ 32 8192#32),
    unary main_c_9 main_v40 (broadcastInDim S4096 ![] bcast_S_S4096 : (⟨S_, .i32⟩ : BufTy).Contents (Elt F) → (⟨S4096, .i32⟩ : BufTy).Contents (Elt F)),
    binary main_v30 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v30 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v37 main_v43 (broadcastInDim S4096x1 ![0] bcast_S4096_S4096x1_0 : (⟨S4096, .i32⟩ : BufTy).Contents (Elt F) → (⟨S4096x1, .i32⟩ : BufTy).Contents (Elt F)),
    unary main_v42 main_v44 (broadcastInDim S4096x1 ![0] bcast_S4096_S4096x1_0 : (⟨S4096, .i32⟩ : BufTy).Contents (Elt F) → (⟨S4096x1, .i32⟩ : BufTy).Contents (Elt F)) ]

/-- Operations 80 to 86. -/
abbrev W12 : List (HloOp τ sig (Elt F)) :=
  [ binary main_v43 main_v44 main_v45 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v32 main_v45 main_v46 ((fun x i => Host.gather gather_S4096x8192_S4096x2_S4096_n_01_n_n_01_1_11 x i) : (⟨S4096x8192, .f32⟩ : BufTy).Contents (Elt F) → (⟨S4096x2, .i32⟩ : BufTy).Contents (Elt F) → (⟨S4096, .f32⟩ : BufTy).Contents (Elt F)),
    nullary main_cst_10 (constant S_ .f32 0x00000000#32),
    binary main_v46 main_cst_10 main_v47 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_11 (constant S_ .f32 0x45800000#32),
    binary main_v47 main_cst_11 main_v48 (Host.divf : (⟨S_, .f32⟩ : BufTy).Contents (Elt F) → (⟨S_, .f32⟩ : BufTy).Contents (Elt F) → (⟨S_, .f32⟩ : BufTy).Contents (Elt F)),
    unary main_v48 main_v49 (Host.negf : (⟨S_, .f32⟩ : BufTy).Contents (Elt F) → (⟨S_, .f32⟩ : BufTy).Contents (Elt F)) ]

/-- Operations 87 to 87. -/
abbrev W13 : List (HloOp τ sig (Elt F)) :=
  [ binary main_v29 main_v21 main_v50 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)) ]

/-- Operations 88 to 89. -/
abbrev W14 : List (HloOp τ sig (Elt F)) :=
  [ TRef.nullary (TRef.of (T := ⟨S_, .f32⟩) main_call4_cst) (constant S_ .f32 0xFF800000#32),
    TRef.binary (TRef.of (T := ⟨S4096x8192, .f32⟩) main_v50) (TRef.of (T := ⟨S_, .f32⟩) main_call4_cst) (TRef.of (T := ⟨S4096, .f32⟩) main_call4_v0) (fun x v => Host.reduce FloatOps.maximumf x v reducesTo_S4096x8192_S4096_d1 h_S_) ]

/-- Operations 90 to 94. -/
abbrev W15 : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x8192, .f32⟩) main_call4_v4) (broadcastInDim S4096x8192 ![0, 1] bcast_S4096x1_S4096x8192_0_1) ]

/-- Operations 95 to 102. -/
abbrev W16 : List (HloOp τ sig (Elt F)) :=
  [ TRef.binary (TRef.of (T := ⟨S4096x8192, .f32⟩) main_v50) (TRef.of (T := ⟨S4096x8192, .f32⟩) main_call4_v4) (TRef.of (T := ⟨S4096x8192, .f32⟩) main_call4_v5) subf,
    TRef.unary (TRef.of (T := ⟨S4096x8192, .f32⟩) main_call4_v5) (TRef.of (T := ⟨S4096x8192, .f32⟩) main_call4_v6) Host.exp,
    TRef.nullary (TRef.of (T := ⟨S_, .f32⟩) main_call4_cst_1) (constant S_ .f32 0x00000000#32),
    TRef.binary (TRef.of (T := ⟨S4096x8192, .f32⟩) main_call4_v6) (TRef.of (T := ⟨S_, .f32⟩) main_call4_cst_1) (TRef.of (T := ⟨S4096, .f32⟩) main_call4_v7) (fun x v => Host.reduceAdd x v reducesTo_S4096x8192_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x8192, .f32⟩) main_call4_v10) (broadcastInDim S4096x8192 ![0, 1] bcast_S4096x1_S4096x8192_0_1),
    TRef.binary (TRef.of (T := ⟨S4096x8192, .f32⟩) main_call4_v5) (TRef.of (T := ⟨S4096x8192, .f32⟩) main_call4_v10) (TRef.of (T := ⟨S4096x8192, .f32⟩) main_v51) subf ]

/-- Operations 103 to 118. -/
abbrev W17 : List (HloOp τ sig (Elt F)) :=
  [ nullary main_c_12 (constantI S_ 32 0#32),
    unary main_c_12 main_v52 (broadcastInDim S4096 ![] bcast_S_S4096 : (⟨S_, .i32⟩ : BufTy).Contents (Elt F) → (⟨S4096, .i32⟩ : BufTy).Contents (Elt F)),
    binary main_v30 main_v52 main_v53 (cmpi .slt : (⟨S4096, .i32⟩ : BufTy).Contents (Elt F) → (⟨S4096, .i32⟩ : BufTy).Contents (Elt F) → (⟨S4096, .i1⟩ : BufTy).Contents (Elt F)),
    nullary main_c_13 (constantI S_ 32 4096#32),
    unary main_c_13 main_v54 (broadcastInDim S4096 ![] bcast_S_S4096 : (⟨S_, .i32⟩ : BufTy).Contents (Elt F) → (⟨S4096, .i32⟩ : BufTy).Contents (Elt F)),
    binary main_v30 main_v54 main_v55 (addi : (⟨S4096, .i32⟩ : BufTy).Contents (Elt F) → (⟨S4096, .i32⟩ : BufTy).Contents (Elt F) → (⟨S4096, .i32⟩ : BufTy).Contents (Elt F)),
    ternary main_v53 main_v55 main_v30 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_14 (constantI S_ 32 0#32),
    unary main_c_14 main_v57 (broadcastInDim S4096 ![] bcast_S_S4096 : (⟨S_, .i32⟩ : BufTy).Contents (Elt F) → (⟨S4096, .i32⟩ : BufTy).Contents (Elt F)),
    binary main_v30 main_v57 main_v58 (cmpi .slt : (⟨S4096, .i32⟩ : BufTy).Contents (Elt F) → (⟨S4096, .i32⟩ : BufTy).Contents (Elt F) → (⟨S4096, .i1⟩ : BufTy).Contents (Elt F)),
    nullary main_c_15 (constantI S_ 32 8192#32),
    unary main_c_15 main_v59 (broadcastInDim S4096 ![] bcast_S_S4096 : (⟨S_, .i32⟩ : BufTy).Contents (Elt F) → (⟨S4096, .i32⟩ : BufTy).Contents (Elt F)),
    binary main_v30 main_v59 main_v60 (addi : (⟨S4096, .i32⟩ : BufTy).Contents (Elt F) → (⟨S4096, .i32⟩ : BufTy).Contents (Elt F) → (⟨S4096, .i32⟩ : BufTy).Contents (Elt F)),
    ternary main_v58 main_v60 main_v30 main_v61 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v56 main_v62 (broadcastInDim S4096x1 ![0] bcast_S4096_S4096x1_0 : (⟨S4096, .i32⟩ : BufTy).Contents (Elt F) → (⟨S4096x1, .i32⟩ : BufTy).Contents (Elt F)),
    unary main_v61 main_v63 (broadcastInDim S4096x1 ![0] bcast_S4096_S4096x1_0 : (⟨S4096, .i32⟩ : BufTy).Contents (Elt F) → (⟨S4096x1, .i32⟩ : BufTy).Contents (Elt F)) ]

/-- Operations 119 to 126. -/
abbrev W18 : List (HloOp τ sig (Elt F)) :=
  [ binary main_v62 main_v63 main_v64 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v51 main_v64 main_v65 ((fun x i => Host.gather gather_S4096x8192_S4096x2_S4096_n_01_n_n_01_1_11 x i) : (⟨S4096x8192, .f32⟩ : BufTy).Contents (Elt F) → (⟨S4096x2, .i32⟩ : BufTy).Contents (Elt F) → (⟨S4096, .f32⟩ : BufTy).Contents (Elt F)),
    nullary main_cst_16 (constant S_ .f32 0x00000000#32),
    binary main_v65 main_cst_16 main_v66 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_17 (constant S_ .f32 0x45800000#32),
    binary main_v66 main_cst_17 main_v67 (Host.divf : (⟨S_, .f32⟩ : BufTy).Contents (Elt F) → (⟨S_, .f32⟩ : BufTy).Contents (Elt F) → (⟨S_, .f32⟩ : BufTy).Contents (Elt F)),
    unary main_v67 main_v68 (Host.negf : (⟨S_, .f32⟩ : BufTy).Contents (Elt F) → (⟨S_, .f32⟩ : BufTy).Contents (Elt F)),
    binary main_v49 main_v68 main_v69 (addf : (⟨S_, .f32⟩ : BufTy).Contents (Elt F) → (⟨S_, .f32⟩ : BufTy).Contents (Elt F) → (⟨S_, .f32⟩ : BufTy).Contents (Elt F)) ]

/-- The program's operations are the windows in order. -/
theorem ops_eq_windows : (ValueP.ops (F := F)) = W1 ++ (W2 ++ (W3 ++ (W4 ++ (W5 ++ (W6 ++ (W7 ++ (W8 ++ (W9 ++ (W10 ++ (W11 ++ (W12 ++ (W13 ++ (W14 ++ (W15 ++ (W16 ++ (W17 ++ (W18))))))))))))))))) := rfl

/-! ## Each window's results, and what it leaves alone -/

theorem w1_main_v5 (V : Valuation τ sig (Elt F)) (x : (⟨S8192x512, .f32⟩ : BufTy).Contents (Elt F))
    (h_main_arg0 : V (Proc.devRef .tc main_arg0) = x) :
    after (W1 (F := F)) V (Proc.devRef .tc main_v5) = ReadP.val_main_v5 (F := F) x := by
  after_results_simp
  rw [h_main_arg0]
  rfl

theorem w1_main_v6 (V : Valuation τ sig (Elt F)) (x : (⟨S8192x512, .f32⟩ : BufTy).Contents (Elt F))
    (h_main_arg0 : V (Proc.devRef .tc main_arg0) = x) :
    after (W1 (F := F)) V (Proc.devRef .tc main_v6) = ReadP.val_main_v6 (F := F) x := by
  after_results_simp
  rw [h_main_arg0]
  rfl

theorem w2_main_v11 (V : Valuation τ sig (Elt F)) (x : (⟨S8192x512, .f32⟩ : BufTy).Contents (Elt F)) :
    after (W2 (F := F)) V (Proc.devRef .tc main_v11) = ReadP.val_main_v11 (F := F) := by
  after_results_simp
  rfl

theorem w2_keeps_main_v5 (V : Valuation τ sig (Elt F)) :
    after (W2 (F := F)) V (Proc.devRef .tc main_v5) = V (Proc.devRef .tc main_v5) := by
  after_results_simp

theorem w2_keeps_main_v6 (V : Valuation τ sig (Elt F)) :
    after (W2 (F := F)) V (Proc.devRef .tc main_v6) = V (Proc.devRef .tc main_v6) := by
  after_results_simp

theorem w3_main_v16 (V : Valuation τ sig (Elt F)) (x : (⟨S8192x512, .f32⟩ : BufTy).Contents (Elt F))
    (h_main_v5 : V (Proc.devRef .tc main_v5) = ReadP.val_main_v5 (F := F) x)
    (h_main_v11 : V (Proc.devRef .tc main_v11) = ReadP.val_main_v11 (F := F)) :
    after (W3 (F := F)) V (Proc.devRef .tc main_v16) = ReadP.val_main_v16 (F := F) x := by
  after_results_simp
  rw [h_main_v5, h_main_v11]
  rfl

theorem w3_keeps_main_v5 (V : Valuation τ sig (Elt F)) :
    after (W3 (F := F)) V (Proc.devRef .tc main_v5) = V (Proc.devRef .tc main_v5) := by
  after_results_simp

theorem w3_keeps_main_v6 (V : Valuation τ sig (Elt F)) :
    after (W3 (F := F)) V (Proc.devRef .tc main_v6) = V (Proc.devRef .tc main_v6) := by
  after_results_simp

theorem w3_keeps_main_v11 (V : Valuation τ sig (Elt F)) :
    after (W3 (F := F)) V (Proc.devRef .tc main_v11) = V (Proc.devRef .tc main_v11) := by
  after_results_simp

theorem w4_main_v21 (V : Valuation τ sig (Elt F)) (x : (⟨S8192x512, .f32⟩ : BufTy).Contents (Elt F))
    (h_main_v6 : V (Proc.devRef .tc main_v6) = ReadP.val_main_v6 (F := F) x)
    (h_main_v11 : V (Proc.devRef .tc main_v11) = ReadP.val_main_v11 (F := F)) :
    after (W4 (F := F)) V (Proc.devRef .tc main_v21) = ReadP.val_main_v21 (F := F) x := by
  after_results_simp
  rw [h_main_v6, h_main_v11]
  rfl

theorem w4_keeps_main_v5 (V : Valuation τ sig (Elt F)) :
    after (W4 (F := F)) V (Proc.devRef .tc main_v5) = V (Proc.devRef .tc main_v5) := by
  after_results_simp

theorem w4_keeps_main_v6 (V : Valuation τ sig (Elt F)) :
    after (W4 (F := F)) V (Proc.devRef .tc main_v6) = V (Proc.devRef .tc main_v6) := by
  after_results_simp

theorem w4_keeps_main_v16 (V : Valuation τ sig (Elt F)) :
    after (W4 (F := F)) V (Proc.devRef .tc main_v16) = V (Proc.devRef .tc main_v16) := by
  after_results_simp

theorem w5_main_v25 (V : Valuation τ sig (Elt F)) (x : (⟨S8192x512, .f32⟩ : BufTy).Contents (Elt F))
    (h_main_v6 : V (Proc.devRef .tc main_v6) = ReadP.val_main_v6 (F := F) x)
    (h_main_v5 : V (Proc.devRef .tc main_v5) = ReadP.val_main_v5 (F := F) x) :
    after (W5 (F := F)) V (Proc.devRef .tc main_v25) = ReadP.val_main_v25 (F := F) x := by
  after_results_simp
  rw [h_main_v6, h_main_v5]
  rfl

theorem w5_keeps_main_v5 (V : Valuation τ sig (Elt F)) :
    after (W5 (F := F)) V (Proc.devRef .tc main_v5) = V (Proc.devRef .tc main_v5) := by
  after_results_simp

theorem w5_keeps_main_v6 (V : Valuation τ sig (Elt F)) :
    after (W5 (F := F)) V (Proc.devRef .tc main_v6) = V (Proc.devRef .tc main_v6) := by
  after_results_simp

theorem w5_keeps_main_v16 (V : Valuation τ sig (Elt F)) :
    after (W5 (F := F)) V (Proc.devRef .tc main_v16) = V (Proc.devRef .tc main_v16) := by
  after_results_simp

theorem w5_keeps_main_v21 (V : Valuation τ sig (Elt F)) :
    after (W5 (F := F)) V (Proc.devRef .tc main_v21) = V (Proc.devRef .tc main_v21) := by
  after_results_simp

theorem w6_main_v29 (V : Valuation τ sig (Elt F)) (x : (⟨S8192x512, .f32⟩ : BufTy).Contents (Elt F))
    (h_main_v5 : V (Proc.devRef .tc main_v5) = ReadP.val_main_v5 (F := F) x)
    (h_main_v6 : V (Proc.devRef .tc main_v6) = ReadP.val_main_v6 (F := F) x) :
    after (W6 (F := F)) V (Proc.devRef .tc main_v29) = ReadP.val_main_v29 (F := F) x := by
  after_results_simp
  rw [h_main_v5, h_main_v6]
  rfl

theorem w6_main_v30 (V : Valuation τ sig (Elt F)) (x : (⟨S8192x512, .f32⟩ : BufTy).Contents (Elt F)) :
    after (W6 (F := F)) V (Proc.devRef .tc main_v30) = ReadP.val_main_v30 (F := F) := by
  after_results_simp
  rfl

theorem w6_keeps_main_v16 (V : Valuation τ sig (Elt F)) :
    after (W6 (F := F)) V (Proc.devRef .tc main_v16) = V (Proc.devRef .tc main_v16) := by
  after_results_simp

theorem w6_keeps_main_v21 (V : Valuation τ sig (Elt F)) :
    after (W6 (F := F)) V (Proc.devRef .tc main_v21) = V (Proc.devRef .tc main_v21) := by
  after_results_simp

theorem w6_keeps_main_v25 (V : Valuation τ sig (Elt F)) :
    after (W6 (F := F)) V (Proc.devRef .tc main_v25) = V (Proc.devRef .tc main_v25) := by
  after_results_simp

theorem w7_main_v31 (V : Valuation τ sig (Elt F)) (x : (⟨S8192x512, .f32⟩ : BufTy).Contents (Elt F))
    (h_main_v25 : V (Proc.devRef .tc main_v25) = ReadP.val_main_v25 (F := F) x)
    (h_main_v16 : V (Proc.devRef .tc main_v16) = ReadP.val_main_v16 (F := F) x) :
    after (W7 (F := F)) V (Proc.devRef .tc main_v31) = ReadP.val_main_v31 (F := F) x := by
  after_results_simp
  rw [h_main_v25, h_main_v16]
  rfl

theorem w7_keeps_main_v21 (V : Valuation τ sig (Elt F)) :
    after (W7 (F := F)) V (Proc.devRef .tc main_v21) = V (Proc.devRef .tc main_v21) := by
  after_results_simp

theorem w7_keeps_main_v29 (V : Valuation τ sig (Elt F)) :
    after (W7 (F := F)) V (Proc.devRef .tc main_v29) = V (Proc.devRef .tc main_v29) := by
  after_results_simp

theorem w7_keeps_main_v30 (V : Valuation τ sig (Elt F)) :
    after (W7 (F := F)) V (Proc.devRef .tc main_v30) = V (Proc.devRef .tc main_v30) := by
  after_results_simp

theorem w8_main_call3_v0 (V : Valuation τ sig (Elt F)) (x : (⟨S8192x512, .f32⟩ : BufTy).Contents (Elt F))
    (h_main_v31 : V (Proc.devRef .tc main_v31) = ReadP.val_main_v31 (F := F) x) :
    after (W8 (F := F)) V (Proc.devRef .tc main_call3_v0) = ReadP.val_main_call3_v0 (F := F) x := by
  after_results_simp
  rw [h_main_v31]
  simp only [ofBuf_main_call3_cst, toBuf_main_call3_cst, ofBuf_main_v31, toBuf_main_v31, ofBuf_main_call3_v0, toBuf_main_call3_v0]
  rfl

theorem w8_keeps_main_v21 (V : Valuation τ sig (Elt F)) :
    after (W8 (F := F)) V (Proc.devRef .tc main_v21) = V (Proc.devRef .tc main_v21) := by
  after_results_simp

theorem w8_keeps_main_v29 (V : Valuation τ sig (Elt F)) :
    after (W8 (F := F)) V (Proc.devRef .tc main_v29) = V (Proc.devRef .tc main_v29) := by
  after_results_simp

theorem w8_keeps_main_v30 (V : Valuation τ sig (Elt F)) :
    after (W8 (F := F)) V (Proc.devRef .tc main_v30) = V (Proc.devRef .tc main_v30) := by
  after_results_simp

theorem w8_keeps_main_v31 (V : Valuation τ sig (Elt F)) :
    after (W8 (F := F)) V (Proc.devRef .tc main_v31) = V (Proc.devRef .tc main_v31) := by
  after_results_simp

theorem w9_main_call3_v4 (V : Valuation τ sig (Elt F)) (x : (⟨S8192x512, .f32⟩ : BufTy).Contents (Elt F))
    (h_main_call3_v0 : V (Proc.devRef .tc main_call3_v0) = ReadP.val_main_call3_v0 (F := F) x) :
    after (W9 (F := F)) V (Proc.devRef .tc main_call3_v4) = ReadP.val_main_call3_v4 (F := F) x := by
  after_results_simp
  simp only [ReadP.val_main_call3_cst_0, ReadP.val_main_call3_v1, ReadP.val_main_call3_v2, ReadP.val_main_call3_v3, ReadP.val_main_call3_v4]
  rw [← h_main_call3_v0]
  rfl

theorem w9_keeps_main_v21 (V : Valuation τ sig (Elt F)) :
    after (W9 (F := F)) V (Proc.devRef .tc main_v21) = V (Proc.devRef .tc main_v21) := by
  after_results_simp

theorem w9_keeps_main_v29 (V : Valuation τ sig (Elt F)) :
    after (W9 (F := F)) V (Proc.devRef .tc main_v29) = V (Proc.devRef .tc main_v29) := by
  after_results_simp

theorem w9_keeps_main_v30 (V : Valuation τ sig (Elt F)) :
    after (W9 (F := F)) V (Proc.devRef .tc main_v30) = V (Proc.devRef .tc main_v30) := by
  after_results_simp

theorem w9_keeps_main_v31 (V : Valuation τ sig (Elt F)) :
    after (W9 (F := F)) V (Proc.devRef .tc main_v31) = V (Proc.devRef .tc main_v31) := by
  after_results_simp

theorem w10_main_v32 (V : Valuation τ sig (Elt F)) (x : (⟨S8192x512, .f32⟩ : BufTy).Contents (Elt F))
    (h_main_v31 : V (Proc.devRef .tc main_v31) = ReadP.val_main_v31 (F := F) x)
    (h_main_call3_v4 : V (Proc.devRef .tc main_call3_v4) = ReadP.val_main_call3_v4 (F := F) x) :
    after (W10 (F := F)) V (Proc.devRef .tc main_v32) = ReadP.val_main_v32 (F := F) x := by
  after_results_simp
  rw [h_main_v31, h_main_call3_v4]
  rfl

theorem w10_keeps_main_v21 (V : Valuation τ sig (Elt F)) :
    after (W10 (F := F)) V (Proc.devRef .tc main_v21) = V (Proc.devRef .tc main_v21) := by
  after_results_simp

theorem w10_keeps_main_v29 (V : Valuation τ sig (Elt F)) :
    after (W10 (F := F)) V (Proc.devRef .tc main_v29) = V (Proc.devRef .tc main_v29) := by
  after_results_simp

theorem w10_keeps_main_v30 (V : Valuation τ sig (Elt F)) :
    after (W10 (F := F)) V (Proc.devRef .tc main_v30) = V (Proc.devRef .tc main_v30) := by
  after_results_simp

theorem w11_main_v43 (V : Valuation τ sig (Elt F)) (x : (⟨S8192x512, .f32⟩ : BufTy).Contents (Elt F))
    (h_main_v30 : V (Proc.devRef .tc main_v30) = ReadP.val_main_v30 (F := F)) :
    after (W11 (F := F)) V (Proc.devRef .tc main_v43) = ReadP.val_main_v43 (F := F) := by
  after_results_simp
  rw [h_main_v30]
  rfl

theorem w11_main_v44 (V : Valuation τ sig (Elt F)) (x : (⟨S8192x512, .f32⟩ : BufTy).Contents (Elt F))
    (h_main_v30 : V (Proc.devRef .tc main_v30) = ReadP.val_main_v30 (F := F)) :
    after (W11 (F := F)) V (Proc.devRef .tc main_v44) = ReadP.val_main_v44 (F := F) := by
  after_results_simp
  rw [h_main_v30]
  rfl

theorem w11_keeps_main_v21 (V : Valuation τ sig (Elt F)) :
    after (W11 (F := F)) V (Proc.devRef .tc main_v21) = V (Proc.devRef .tc main_v21) := by
  after_results_simp

theorem w11_keeps_main_v29 (V : Valuation τ sig (Elt F)) :
    after (W11 (F := F)) V (Proc.devRef .tc main_v29) = V (Proc.devRef .tc main_v29) := by
  after_results_simp

theorem w11_keeps_main_v30 (V : Valuation τ sig (Elt F)) :
    after (W11 (F := F)) V (Proc.devRef .tc main_v30) = V (Proc.devRef .tc main_v30) := by
  after_results_simp

theorem w11_keeps_main_v32 (V : Valuation τ sig (Elt F)) :
    after (W11 (F := F)) V (Proc.devRef .tc main_v32) = V (Proc.devRef .tc main_v32) := by
  after_results_simp

theorem w12_main_v49 (V : Valuation τ sig (Elt F)) (x : (⟨S8192x512, .f32⟩ : BufTy).Contents (Elt F))
    (h_main_v43 : V (Proc.devRef .tc main_v43) = ReadP.val_main_v43 (F := F))
    (h_main_v44 : V (Proc.devRef .tc main_v44) = ReadP.val_main_v44 (F := F))
    (h_main_v32 : V (Proc.devRef .tc main_v32) = ReadP.val_main_v32 (F := F) x) :
    after (W12 (F := F)) V (Proc.devRef .tc main_v49) = ReadP.val_main_v49 (F := F) x := by
  after_results_simp
  rw [h_main_v43, h_main_v44, h_main_v32]
  rfl

theorem w12_keeps_main_v21 (V : Valuation τ sig (Elt F)) :
    after (W12 (F := F)) V (Proc.devRef .tc main_v21) = V (Proc.devRef .tc main_v21) := by
  after_results_simp

theorem w12_keeps_main_v29 (V : Valuation τ sig (Elt F)) :
    after (W12 (F := F)) V (Proc.devRef .tc main_v29) = V (Proc.devRef .tc main_v29) := by
  after_results_simp

theorem w12_keeps_main_v30 (V : Valuation τ sig (Elt F)) :
    after (W12 (F := F)) V (Proc.devRef .tc main_v30) = V (Proc.devRef .tc main_v30) := by
  after_results_simp

theorem w13_main_v50 (V : Valuation τ sig (Elt F)) (x : (⟨S8192x512, .f32⟩ : BufTy).Contents (Elt F))
    (h_main_v29 : V (Proc.devRef .tc main_v29) = ReadP.val_main_v29 (F := F) x)
    (h_main_v21 : V (Proc.devRef .tc main_v21) = ReadP.val_main_v21 (F := F) x) :
    after (W13 (F := F)) V (Proc.devRef .tc main_v50) = ReadP.val_main_v50 (F := F) x := by
  after_results_simp
  rw [h_main_v29, h_main_v21]
  rfl

theorem w13_keeps_main_v30 (V : Valuation τ sig (Elt F)) :
    after (W13 (F := F)) V (Proc.devRef .tc main_v30) = V (Proc.devRef .tc main_v30) := by
  after_results_simp

theorem w13_keeps_main_v49 (V : Valuation τ sig (Elt F)) :
    after (W13 (F := F)) V (Proc.devRef .tc main_v49) = V (Proc.devRef .tc main_v49) := by
  after_results_simp

theorem w14_main_call4_v0 (V : Valuation τ sig (Elt F)) (x : (⟨S8192x512, .f32⟩ : BufTy).Contents (Elt F))
    (h_main_v50 : V (Proc.devRef .tc main_v50) = ReadP.val_main_v50 (F := F) x) :
    after (W14 (F := F)) V (Proc.devRef .tc main_call4_v0) = ReadP.val_main_call4_v0 (F := F) x := by
  after_results_simp
  rw [h_main_v50]
  simp only [ofBuf_main_call4_cst, toBuf_main_call4_cst, ofBuf_main_v50, toBuf_main_v50, ofBuf_main_call4_v0, toBuf_main_call4_v0]
  rfl

theorem w14_keeps_main_v30 (V : Valuation τ sig (Elt F)) :
    after (W14 (F := F)) V (Proc.devRef .tc main_v30) = V (Proc.devRef .tc main_v30) := by
  after_results_simp

theorem w14_keeps_main_v49 (V : Valuation τ sig (Elt F)) :
    after (W14 (F := F)) V (Proc.devRef .tc main_v49) = V (Proc.devRef .tc main_v49) := by
  after_results_simp

theorem w14_keeps_main_v50 (V : Valuation τ sig (Elt F)) :
    after (W14 (F := F)) V (Proc.devRef .tc main_v50) = V (Proc.devRef .tc main_v50) := by
  after_results_simp

theorem w15_main_call4_v4 (V : Valuation τ sig (Elt F)) (x : (⟨S8192x512, .f32⟩ : BufTy).Contents (Elt F))
    (h_main_call4_v0 : V (Proc.devRef .tc main_call4_v0) = ReadP.val_main_call4_v0 (F := F) x) :
    after (W15 (F := F)) V (Proc.devRef .tc main_call4_v4) = ReadP.val_main_call4_v4 (F := F) x := by
  after_results_simp
  simp only [ReadP.val_main_call4_cst_0, ReadP.val_main_call4_v1, ReadP.val_main_call4_v2, ReadP.val_main_call4_v3, ReadP.val_main_call4_v4]
  rw [← h_main_call4_v0]
  rfl

theorem w15_keeps_main_v30 (V : Valuation τ sig (Elt F)) :
    after (W15 (F := F)) V (Proc.devRef .tc main_v30) = V (Proc.devRef .tc main_v30) := by
  after_results_simp

theorem w15_keeps_main_v49 (V : Valuation τ sig (Elt F)) :
    after (W15 (F := F)) V (Proc.devRef .tc main_v49) = V (Proc.devRef .tc main_v49) := by
  after_results_simp

theorem w15_keeps_main_v50 (V : Valuation τ sig (Elt F)) :
    after (W15 (F := F)) V (Proc.devRef .tc main_v50) = V (Proc.devRef .tc main_v50) := by
  after_results_simp

theorem w16_main_v51 (V : Valuation τ sig (Elt F)) (x : (⟨S8192x512, .f32⟩ : BufTy).Contents (Elt F))
    (h_main_v50 : V (Proc.devRef .tc main_v50) = ReadP.val_main_v50 (F := F) x)
    (h_main_call4_v4 : V (Proc.devRef .tc main_call4_v4) = ReadP.val_main_call4_v4 (F := F) x) :
    after (W16 (F := F)) V (Proc.devRef .tc main_v51) = ReadP.val_main_v51 (F := F) x := by
  after_results_simp
  rw [h_main_v50, h_main_call4_v4]
  rfl

theorem w16_keeps_main_v30 (V : Valuation τ sig (Elt F)) :
    after (W16 (F := F)) V (Proc.devRef .tc main_v30) = V (Proc.devRef .tc main_v30) := by
  after_results_simp

theorem w16_keeps_main_v49 (V : Valuation τ sig (Elt F)) :
    after (W16 (F := F)) V (Proc.devRef .tc main_v49) = V (Proc.devRef .tc main_v49) := by
  after_results_simp

theorem w17_main_v62 (V : Valuation τ sig (Elt F)) (x : (⟨S8192x512, .f32⟩ : BufTy).Contents (Elt F))
    (h_main_v30 : V (Proc.devRef .tc main_v30) = ReadP.val_main_v30 (F := F)) :
    after (W17 (F := F)) V (Proc.devRef .tc main_v62) = ReadP.val_main_v62 (F := F) := by
  after_results_simp
  rw [h_main_v30]
  rfl

theorem w17_main_v63 (V : Valuation τ sig (Elt F)) (x : (⟨S8192x512, .f32⟩ : BufTy).Contents (Elt F))
    (h_main_v30 : V (Proc.devRef .tc main_v30) = ReadP.val_main_v30 (F := F)) :
    after (W17 (F := F)) V (Proc.devRef .tc main_v63) = ReadP.val_main_v63 (F := F) := by
  after_results_simp
  rw [h_main_v30]
  rfl

theorem w17_keeps_main_v49 (V : Valuation τ sig (Elt F)) :
    after (W17 (F := F)) V (Proc.devRef .tc main_v49) = V (Proc.devRef .tc main_v49) := by
  after_results_simp

theorem w17_keeps_main_v51 (V : Valuation τ sig (Elt F)) :
    after (W17 (F := F)) V (Proc.devRef .tc main_v51) = V (Proc.devRef .tc main_v51) := by
  after_results_simp

theorem w18_main_v69 (V : Valuation τ sig (Elt F)) (x : (⟨S8192x512, .f32⟩ : BufTy).Contents (Elt F))
    (h_main_v62 : V (Proc.devRef .tc main_v62) = ReadP.val_main_v62 (F := F))
    (h_main_v63 : V (Proc.devRef .tc main_v63) = ReadP.val_main_v63 (F := F))
    (h_main_v51 : V (Proc.devRef .tc main_v51) = ReadP.val_main_v51 (F := F) x)
    (h_main_v49 : V (Proc.devRef .tc main_v49) = ReadP.val_main_v49 (F := F) x) :
    after (W18 (F := F)) V (Proc.devRef .tc main_v69) = ReadP.val_main_v69 (F := F) x := by
  after_results_simp
  rw [h_main_v62, h_main_v63, h_main_v51, h_main_v49]
  rfl

/-! ## The chain -/

/-- After all the operations the result buffer holds the last stage at the argument's contents. -/
theorem after_ops (V : Valuation τ sig (Elt F)) :
    after (ValueP.ops (F := F)) V (Proc.devRef .tc main_v69) = ReadP.val_main_v69 (F := F) (V (Proc.devRef .tc main_arg0)) := by
  rw [ops_eq_windows]
  simp only [after_append]
  generalize hx : V (Proc.devRef .tc main_arg0) = x
  have f1_main_v5 := w1_main_v5 V x hx
  have f1_main_v6 := w1_main_v6 V x hx
  have f2_main_v11 := w2_main_v11 (after W1 V) x
  have f2_main_v5 := (w2_keeps_main_v5 (after W1 V)).trans f1_main_v5
  have f2_main_v6 := (w2_keeps_main_v6 (after W1 V)).trans f1_main_v6
  have f3_main_v16 := w3_main_v16 (after W2 (after W1 V)) x f2_main_v5 f2_main_v11
  have f3_main_v5 := (w3_keeps_main_v5 (after W2 (after W1 V))).trans f2_main_v5
  have f3_main_v6 := (w3_keeps_main_v6 (after W2 (after W1 V))).trans f2_main_v6
  have f3_main_v11 := (w3_keeps_main_v11 (after W2 (after W1 V))).trans f2_main_v11
  have f4_main_v21 := w4_main_v21 (after W3 (after W2 (after W1 V))) x f3_main_v6 f3_main_v11
  have f4_main_v5 := (w4_keeps_main_v5 (after W3 (after W2 (after W1 V)))).trans f3_main_v5
  have f4_main_v6 := (w4_keeps_main_v6 (after W3 (after W2 (after W1 V)))).trans f3_main_v6
  have f4_main_v16 := (w4_keeps_main_v16 (after W3 (after W2 (after W1 V)))).trans f3_main_v16
  have f5_main_v25 := w5_main_v25 (after W4 (after W3 (after W2 (after W1 V)))) x f4_main_v6 f4_main_v5
  have f5_main_v5 := (w5_keeps_main_v5 (after W4 (after W3 (after W2 (after W1 V))))).trans f4_main_v5
  have f5_main_v6 := (w5_keeps_main_v6 (after W4 (after W3 (after W2 (after W1 V))))).trans f4_main_v6
  have f5_main_v16 := (w5_keeps_main_v16 (after W4 (after W3 (after W2 (after W1 V))))).trans f4_main_v16
  have f5_main_v21 := (w5_keeps_main_v21 (after W4 (after W3 (after W2 (after W1 V))))).trans f4_main_v21
  have f6_main_v29 := w6_main_v29 (after W5 (after W4 (after W3 (after W2 (after W1 V))))) x f5_main_v5 f5_main_v6
  have f6_main_v30 := w6_main_v30 (after W5 (after W4 (after W3 (after W2 (after W1 V))))) x
  have f6_main_v16 := (w6_keeps_main_v16 (after W5 (after W4 (after W3 (after W2 (after W1 V)))))).trans f5_main_v16
  have f6_main_v21 := (w6_keeps_main_v21 (after W5 (after W4 (after W3 (after W2 (after W1 V)))))).trans f5_main_v21
  have f6_main_v25 := (w6_keeps_main_v25 (after W5 (after W4 (after W3 (after W2 (after W1 V)))))).trans f5_main_v25
  have f7_main_v31 := w7_main_v31 (after W6 (after W5 (after W4 (after W3 (after W2 (after W1 V)))))) x f6_main_v25 f6_main_v16
  have f7_main_v21 := (w7_keeps_main_v21 (after W6 (after W5 (after W4 (after W3 (after W2 (after W1 V))))))).trans f6_main_v21
  have f7_main_v29 := (w7_keeps_main_v29 (after W6 (after W5 (after W4 (after W3 (after W2 (after W1 V))))))).trans f6_main_v29
  have f7_main_v30 := (w7_keeps_main_v30 (after W6 (after W5 (after W4 (after W3 (after W2 (after W1 V))))))).trans f6_main_v30
  have f8_main_call3_v0 := w8_main_call3_v0 (after W7 (after W6 (after W5 (after W4 (after W3 (after W2 (after W1 V))))))) x f7_main_v31
  have f8_main_v21 := (w8_keeps_main_v21 (after W7 (after W6 (after W5 (after W4 (after W3 (after W2 (after W1 V)))))))).trans f7_main_v21
  have f8_main_v29 := (w8_keeps_main_v29 (after W7 (after W6 (after W5 (after W4 (after W3 (after W2 (after W1 V)))))))).trans f7_main_v29
  have f8_main_v30 := (w8_keeps_main_v30 (after W7 (after W6 (after W5 (after W4 (after W3 (after W2 (after W1 V)))))))).trans f7_main_v30
  have f8_main_v31 := (w8_keeps_main_v31 (after W7 (after W6 (after W5 (after W4 (after W3 (after W2 (after W1 V)))))))).trans f7_main_v31
  have f9_main_call3_v4 := w9_main_call3_v4 (after W8 (after W7 (after W6 (after W5 (after W4 (after W3 (after W2 (after W1 V)))))))) x f8_main_call3_v0
  have f9_main_v21 := (w9_keeps_main_v21 (after W8 (after W7 (after W6 (after W5 (after W4 (after W3 (after W2 (after W1 V))))))))).trans f8_main_v21
  have f9_main_v29 := (w9_keeps_main_v29 (after W8 (after W7 (after W6 (after W5 (after W4 (after W3 (after W2 (after W1 V))))))))).trans f8_main_v29
  have f9_main_v30 := (w9_keeps_main_v30 (after W8 (after W7 (after W6 (after W5 (after W4 (after W3 (after W2 (after W1 V))))))))).trans f8_main_v30
  have f9_main_v31 := (w9_keeps_main_v31 (after W8 (after W7 (after W6 (after W5 (after W4 (after W3 (after W2 (after W1 V))))))))).trans f8_main_v31
  have f10_main_v32 := w10_main_v32 (after W9 (after W8 (after W7 (after W6 (after W5 (after W4 (after W3 (after W2 (after W1 V))))))))) x f9_main_v31 f9_main_call3_v4
  have f10_main_v21 := (w10_keeps_main_v21 (after W9 (after W8 (after W7 (after W6 (after W5 (after W4 (after W3 (after W2 (after W1 V)))))))))).trans f9_main_v21
  have f10_main_v29 := (w10_keeps_main_v29 (after W9 (after W8 (after W7 (after W6 (after W5 (after W4 (after W3 (after W2 (after W1 V)))))))))).trans f9_main_v29
  have f10_main_v30 := (w10_keeps_main_v30 (after W9 (after W8 (after W7 (after W6 (after W5 (after W4 (after W3 (after W2 (after W1 V)))))))))).trans f9_main_v30
  have f11_main_v43 := w11_main_v43 (after W10 (after W9 (after W8 (after W7 (after W6 (after W5 (after W4 (after W3 (after W2 (after W1 V)))))))))) x f10_main_v30
  have f11_main_v44 := w11_main_v44 (after W10 (after W9 (after W8 (after W7 (after W6 (after W5 (after W4 (after W3 (after W2 (after W1 V)))))))))) x f10_main_v30
  have f11_main_v21 := (w11_keeps_main_v21 (after W10 (after W9 (after W8 (after W7 (after W6 (after W5 (after W4 (after W3 (after W2 (after W1 V))))))))))).trans f10_main_v21
  have f11_main_v29 := (w11_keeps_main_v29 (after W10 (after W9 (after W8 (after W7 (after W6 (after W5 (after W4 (after W3 (after W2 (after W1 V))))))))))).trans f10_main_v29
  have f11_main_v30 := (w11_keeps_main_v30 (after W10 (after W9 (after W8 (after W7 (after W6 (after W5 (after W4 (after W3 (after W2 (after W1 V))))))))))).trans f10_main_v30
  have f11_main_v32 := (w11_keeps_main_v32 (after W10 (after W9 (after W8 (after W7 (after W6 (after W5 (after W4 (after W3 (after W2 (after W1 V))))))))))).trans f10_main_v32
  have f12_main_v49 := w12_main_v49 (after W11 (after W10 (after W9 (after W8 (after W7 (after W6 (after W5 (after W4 (after W3 (after W2 (after W1 V))))))))))) x f11_main_v43 f11_main_v44 f11_main_v32
  have f12_main_v21 := (w12_keeps_main_v21 (after W11 (after W10 (after W9 (after W8 (after W7 (after W6 (after W5 (after W4 (after W3 (after W2 (after W1 V)))))))))))).trans f11_main_v21
  have f12_main_v29 := (w12_keeps_main_v29 (after W11 (after W10 (after W9 (after W8 (after W7 (after W6 (after W5 (after W4 (after W3 (after W2 (after W1 V)))))))))))).trans f11_main_v29
  have f12_main_v30 := (w12_keeps_main_v30 (after W11 (after W10 (after W9 (after W8 (after W7 (after W6 (after W5 (after W4 (after W3 (after W2 (after W1 V)))))))))))).trans f11_main_v30
  have f13_main_v50 := w13_main_v50 (after W12 (after W11 (after W10 (after W9 (after W8 (after W7 (after W6 (after W5 (after W4 (after W3 (after W2 (after W1 V)))))))))))) x f12_main_v29 f12_main_v21
  have f13_main_v30 := (w13_keeps_main_v30 (after W12 (after W11 (after W10 (after W9 (after W8 (after W7 (after W6 (after W5 (after W4 (after W3 (after W2 (after W1 V))))))))))))).trans f12_main_v30
  have f13_main_v49 := (w13_keeps_main_v49 (after W12 (after W11 (after W10 (after W9 (after W8 (after W7 (after W6 (after W5 (after W4 (after W3 (after W2 (after W1 V))))))))))))).trans f12_main_v49
  have f14_main_call4_v0 := w14_main_call4_v0 (after W13 (after W12 (after W11 (after W10 (after W9 (after W8 (after W7 (after W6 (after W5 (after W4 (after W3 (after W2 (after W1 V))))))))))))) x f13_main_v50
  have f14_main_v30 := (w14_keeps_main_v30 (after W13 (after W12 (after W11 (after W10 (after W9 (after W8 (after W7 (after W6 (after W5 (after W4 (after W3 (after W2 (after W1 V)))))))))))))).trans f13_main_v30
  have f14_main_v49 := (w14_keeps_main_v49 (after W13 (after W12 (after W11 (after W10 (after W9 (after W8 (after W7 (after W6 (after W5 (after W4 (after W3 (after W2 (after W1 V)))))))))))))).trans f13_main_v49
  have f14_main_v50 := (w14_keeps_main_v50 (after W13 (after W12 (after W11 (after W10 (after W9 (after W8 (after W7 (after W6 (after W5 (after W4 (after W3 (after W2 (after W1 V)))))))))))))).trans f13_main_v50
  have f15_main_call4_v4 := w15_main_call4_v4 (after W14 (after W13 (after W12 (after W11 (after W10 (after W9 (after W8 (after W7 (after W6 (after W5 (after W4 (after W3 (after W2 (after W1 V)))))))))))))) x f14_main_call4_v0
  have f15_main_v30 := (w15_keeps_main_v30 (after W14 (after W13 (after W12 (after W11 (after W10 (after W9 (after W8 (after W7 (after W6 (after W5 (after W4 (after W3 (after W2 (after W1 V))))))))))))))).trans f14_main_v30
  have f15_main_v49 := (w15_keeps_main_v49 (after W14 (after W13 (after W12 (after W11 (after W10 (after W9 (after W8 (after W7 (after W6 (after W5 (after W4 (after W3 (after W2 (after W1 V))))))))))))))).trans f14_main_v49
  have f15_main_v50 := (w15_keeps_main_v50 (after W14 (after W13 (after W12 (after W11 (after W10 (after W9 (after W8 (after W7 (after W6 (after W5 (after W4 (after W3 (after W2 (after W1 V))))))))))))))).trans f14_main_v50
  have f16_main_v51 := w16_main_v51 (after W15 (after W14 (after W13 (after W12 (after W11 (after W10 (after W9 (after W8 (after W7 (after W6 (after W5 (after W4 (after W3 (after W2 (after W1 V))))))))))))))) x f15_main_v50 f15_main_call4_v4
  have f16_main_v30 := (w16_keeps_main_v30 (after W15 (after W14 (after W13 (after W12 (after W11 (after W10 (after W9 (after W8 (after W7 (after W6 (after W5 (after W4 (after W3 (after W2 (after W1 V)))))))))))))))).trans f15_main_v30
  have f16_main_v49 := (w16_keeps_main_v49 (after W15 (after W14 (after W13 (after W12 (after W11 (after W10 (after W9 (after W8 (after W7 (after W6 (after W5 (after W4 (after W3 (after W2 (after W1 V)))))))))))))))).trans f15_main_v49
  have f17_main_v62 := w17_main_v62 (after W16 (after W15 (after W14 (after W13 (after W12 (after W11 (after W10 (after W9 (after W8 (after W7 (after W6 (after W5 (after W4 (after W3 (after W2 (after W1 V)))))))))))))))) x f16_main_v30
  have f17_main_v63 := w17_main_v63 (after W16 (after W15 (after W14 (after W13 (after W12 (after W11 (after W10 (after W9 (after W8 (after W7 (after W6 (after W5 (after W4 (after W3 (after W2 (after W1 V)))))))))))))))) x f16_main_v30
  have f17_main_v49 := (w17_keeps_main_v49 (after W16 (after W15 (after W14 (after W13 (after W12 (after W11 (after W10 (after W9 (after W8 (after W7 (after W6 (after W5 (after W4 (after W3 (after W2 (after W1 V))))))))))))))))).trans f16_main_v49
  have f17_main_v51 := (w17_keeps_main_v51 (after W16 (after W15 (after W14 (after W13 (after W12 (after W11 (after W10 (after W9 (after W8 (after W7 (after W6 (after W5 (after W4 (after W3 (after W2 (after W1 V))))))))))))))))).trans f16_main_v51
  have f18_main_v69 := w18_main_v69 (after W17 (after W16 (after W15 (after W14 (after W13 (after W12 (after W11 (after W10 (after W9 (after W8 (after W7 (after W6 (after W5 (after W4 (after W3 (after W2 (after W1 V))))))))))))))))) x f17_main_v62 f17_main_v63 f17_main_v51 f17_main_v49
  exact f18_main_v69

/-- No operation writes the argument. -/
theorem arg0_kept (V : Valuation τ sig (Elt F)) :
    after (ValueP.ops (F := F)) V (Proc.devRef .tc main_arg0) = V (Proc.devRef .tc main_arg0) := by
  after_results_simp

/-- THE REFERENCE'S RUN: on every device, from any memory with zero counters, every weakly fair execution of the
    program terminates with the result buffer at the last stage of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
          = ReadP.val_main_v69 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v69).trans (after_ops (launchContents m c)),
      (h c main_arg0).trans (arg0_kept (launchContents m c))⟩)
    (run_seq ValueP.scopedRefs_eq ValueP.scopedSems_eq defs main (fun _ => ValueP.ops) ValueP.main_eq
      (fun _ => ValueP.ops_sub) m ρ)

end Cert.Ref

end
-- ==== Proof.RefFrame.lean ====
/-
  The reference program runs to the end, faults nowhere and leaves its argument unchanged: it is a straight line
  of host operations, so its run is the operations' composite, and the frame is that run with the result dropped.
-/
import proofs.«117558_j62045097558541_2_alg».proof.Defs
import proofs.«117558_j62045097558541_2_alg».proof.Proof.Gen.Pre_finite_inputs
import proofs.«117558_j62045097558541_2_alg».proof.Proof.Ref.Run

noncomputable section

namespace Cert.Proof.Ref

open Idealize.ShloMosaic Idealize.ShloMosaic.TcCoe Idealize.SL.Sem

theorem frame : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.Ref.run (F := Ideal) m ρ)

end Cert.Proof.Ref

end
-- ==== Proof.KValue.Pieces.lean ====
/- What each run leaves, as the body's own arithmetic: every list of pieces the runs found is one whole-block store (after
   the zeroing store at the first column tile), so a buffer's contents afterwards are that store's payload, and a load of an
   accumulator after its store reads the payload. The three updates: the first accumulator gains the tile's two sums of
   exponentials for the first half's rows, the second the same for the second half's rows, the third the tile's diagonal
   term. -/
import proofs.«117558_j62045097558541_2_alg».proof.Proof.Body.Accum
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal Cert.KernelIdeal.Body

variable {F : FTy → Type} [FloatOps F] [Named F]

theorem hz1 : (![0, 0] : Fin S1024x1.rank → Nat) = fun _ => 0 := by funext a; fin_cases a <;> rfl
theorem hz512 : (![0, 0] : Fin S1024x512.rank → Nat) = fun _ => 0 := by funext a; fin_cases a <;> rfl

/-- The 512 rows of a half staged whole that the point's column tile reads. -/
def colTile (i : grid0.Coords) (X : Vec F S4096x512 .bf16) : Vec F S512x512 .bf16 :=
  View.ld X (Rect.unit (s := S4096x512) (k0_off1 i) S512x512.size (k0_off1_inb i))

/-- The first accumulator after a point, from its contents `s` before: the tile's sums for the first half's row block
    `x0` against the two halves `x2`, `x3`. -/
def step0 (i : grid0.Coords) (x0 : Vec F S1024x512 .bf16) (x2 x3 : Vec F S4096x512 .bf16) (s : Vec F S1024x1 .f32) : Vec F S1024x1 .f32 :=
  k0_pay17 (k0_pay11 x0 (colTile i x2)) (k0_pay12 x0 (colTile i x3)) (k0_pay15 i) k0_pay16 s
/-- The second accumulator after a point: the same for the second half's row block `x1`. -/
def step1 (i : grid0.Coords) (x1 : Vec F S1024x512 .bf16) (x2 x3 : Vec F S4096x512 .bf16) (s : Vec F S1024x1 .f32) : Vec F S1024x1 .f32 :=
  k0_pay18 (k0_pay13 x1 (colTile i x3)) (k0_pay14 x1 (colTile i x2)) (k0_pay15 i) s
/-- The third accumulator after a point: the diagonal entries of the tile of cross similarities. -/
def step2 (i : grid0.Coords) (x0 : Vec F S1024x512 .bf16) (x3 : Vec F S4096x512 .bf16) (s : Vec F S1024x1 .f32) : Vec F S1024x1 .f32 :=
  k0_pay1 s (k0_pay19 (k0_pay12 x0 (colTile i x3)) (k0_pay15 i))

/-! ## The first column tile: from zero -/

theorem first_acc0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) :
    (Body.heldFirst c i arg2 harg2 arg3 harg3 arg4 harg4 arg5 harg5 arg6 harg6 arg7 harg7 arg8 harg8 arg9 harg9 arg10 harg10 arg11 harg11 hc0 hc1 x0 x1 x2 x3).acc0 = step0 i x0 x2 x3 k0_pay4 := by
  unfold Body.heldFirst; dsimp only
  rw [View.read_writes_eq_canon _ _ _ (Body.coverFirst0 c i arg2 harg2 arg3 harg3 arg4 harg4 arg5 harg5 arg6 harg6 arg7 harg7 arg8 harg8 arg9 harg9 arg10 harg10 arg11 harg11 hc0 hc1 x0 x1 x2 x3)]
  unfold Body.runFirst; dsimp only
  sl_unfold_run_names
  rw [View.canon_cons_unit_zero hz1]
  simp only [View.readCov_unit_zero (S := S1024x1) _ hz1, View.readAt_eq_ld, harg2.read_unread, harg4.read_unread, harg5.read_unread, View.ld_unit_zero (S := S1024x512) hz512, View.ld_unit_zero (S := S1024x1) hz1]
  rfl
theorem first_acc1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) :
    (Body.heldFirst c i arg2 harg2 arg3 harg3 arg4 harg4 arg5 harg5 arg6 harg6 arg7 harg7 arg8 harg8 arg9 harg9 arg10 harg10 arg11 harg11 hc0 hc1 x0 x1 x2 x3).acc1 = step1 i x1 x2 x3 k0_pay5 := by
  unfold Body.heldFirst; dsimp only
  rw [View.read_writes_eq_canon _ _ _ (Body.coverFirst1 c i arg2 harg2 arg3 harg3 arg4 harg4 arg5 harg5 arg6 harg6 arg7 harg7 arg8 harg8 arg9 harg9 arg10 harg10 arg11 harg11 hc0 hc1 x0 x1 x2 x3)]
  unfold Body.runFirst; dsimp only
  sl_unfold_run_names
  rw [View.canon_cons_unit_zero hz1]
  simp only [View.readCov_unit_zero (S := S1024x1) _ hz1, View.readAt_eq_ld, harg3.read_unread, harg4.read_unread, harg5.read_unread, View.ld_unit_zero (S := S1024x512) hz512, View.ld_unit_zero (S := S1024x1) hz1]
  rfl
theorem first_acc2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : firstTile i) (hc1 : ¬lastTile i)
    (x0 x1 : Vec F S1024x512 .bf16) (x2 x3 : Vec F S4096x512 .bf16) :
    (Body.heldFirst c i arg2 harg2 arg3 harg3 arg4 harg4 arg5 harg5 arg6 harg6 arg7 harg7 arg8 harg8 arg9 harg9 arg10 harg10 arg11 harg11 hc0 hc1 x0 x1 x2 x3).acc2 = step2 i x0 x3 k0_pay6 := by
  unfold Body.heldFirst; dsimp only
  rw [View.read_writes_eq_canon _ _ _ (Body.coverFirst2 c i arg2 harg2 arg3 harg3 arg4 harg4 arg5 harg5 arg6 harg6 arg7 harg7 arg8 harg8 arg9 harg9 arg10 harg10 arg11 harg11 hc0 hc1 x0 x1 x2 x3)]
  unfold Body.runFirst; dsimp only
  sl_unfold_run_names
  rw [View.canon_cons_unit_zero hz1]
  simp only [View.readCov_unit_zero (S := S1024x1) _ hz1, View.readAt_eq_ld, harg2.read_unread, harg5.read_unread, View.ld_unit_zero (S := S1024x512) hz512, View.ld_unit_zero (S := S1024x1) hz1]
  rfl

/-! ## A column tile in the middle: from what the tile before left -/

theorem middle_acc0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) :
    (Body.heldMiddle c i arg2 harg2 arg3 harg3 arg4 harg4 arg5 harg5 arg6 harg6 arg7 harg7 arg8 harg8 arg9 harg9 arg10 harg10 arg11 harg11 hc0 hc1 x0 x1 x2 x3 xs0 xs1 xs2).acc0 = step0 i x0 x2 x3 xs0 := by
  unfold Body.heldMiddle; dsimp only
  rw [View.read_writes_eq_canon _ _ _ (Body.coverMiddle0 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runMiddle; dsimp only
  sl_unfold_run_names
  rw [View.canon_unit_zero hz1]
  simp only [View.readCov_unit_zero (S := S1024x1) _ hz1, View.readAt_eq_ld, harg2.read_unread, harg4.read_unread, harg5.read_unread, harg9.read_unread, View.ld_unit_zero (S := S1024x512) hz512, View.ld_unit_zero (S := S1024x1) hz1]
  rfl
theorem middle_acc1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) :
    (Body.heldMiddle c i arg2 harg2 arg3 harg3 arg4 harg4 arg5 harg5 arg6 harg6 arg7 harg7 arg8 harg8 arg9 harg9 arg10 harg10 arg11 harg11 hc0 hc1 x0 x1 x2 x3 xs0 xs1 xs2).acc1 = step1 i x1 x2 x3 xs1 := by
  unfold Body.heldMiddle; dsimp only
  rw [View.read_writes_eq_canon _ _ _ (Body.coverMiddle1 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runMiddle; dsimp only
  sl_unfold_run_names
  rw [View.canon_unit_zero hz1]
  simp only [View.readCov_unit_zero (S := S1024x1) _ hz1, View.readAt_eq_ld, harg3.read_unread, harg4.read_unread, harg5.read_unread, harg10.read_unread, View.ld_unit_zero (S := S1024x512) hz512, View.ld_unit_zero (S := S1024x1) hz1]
  rfl
theorem middle_acc2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : ¬lastTile i)
    (x0 x1 : Vec F S1024x512 .bf16) (x2 x3 : Vec F S4096x512 .bf16) (xs0 xs1 xs2 : Vec F S1024x1 .f32) :
    (Body.heldMiddle c i arg2 harg2 arg3 harg3 arg4 harg4 arg5 harg5 arg6 harg6 arg7 harg7 arg8 harg8 arg9 harg9 arg10 harg10 arg11 harg11 hc0 hc1 x0 x1 x2 x3 xs0 xs1 xs2).acc2 = step2 i x0 x3 xs2 := by
  unfold Body.heldMiddle; dsimp only
  rw [View.read_writes_eq_canon _ _ _ (Body.coverMiddle2 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runMiddle; dsimp only
  sl_unfold_run_names
  rw [View.canon_unit_zero hz1]
  simp only [View.readCov_unit_zero (S := S1024x1) _ hz1, View.readAt_eq_ld, harg2.read_unread, harg5.read_unread, harg11.read_unread, View.ld_unit_zero (S := S1024x512) hz512, View.ld_unit_zero (S := S1024x1) hz1]
  rfl

/-! ## The last column tile: the accumulators as in the middle, and the outputs from their final contents -/

theorem last_acc0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    (Body.heldLast c i arg2 harg2 arg3 harg3 arg4 harg4 arg5 harg5 arg6 harg6 arg7 harg7 arg8 harg8 arg9 harg9 arg10 harg10 arg11 harg11 hc0 hc1 x0 x1 x2 x3 xs0 xs1 xs2).acc0 = step0 i x0 x2 x3 xs0 := by
  unfold Body.heldLast; dsimp only
  rw [View.read_writes_eq_canon _ _ _ (Body.coverLastAcc0 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runLast; dsimp only
  sl_unfold_run_names
  rw [View.canon_unit_zero hz1]
  simp only [View.readCov_unit_zero (S := S1024x1) _ hz1, View.readAt_eq_ld, harg2.read_unread, harg4.read_unread, harg5.read_unread, harg9.read_unread, View.ld_unit_zero (S := S1024x512) hz512, View.ld_unit_zero (S := S1024x1) hz1]
  rfl
theorem last_acc1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    (Body.heldLast c i arg2 harg2 arg3 harg3 arg4 harg4 arg5 harg5 arg6 harg6 arg7 harg7 arg8 harg8 arg9 harg9 arg10 harg10 arg11 harg11 hc0 hc1 x0 x1 x2 x3 xs0 xs1 xs2).acc1 = step1 i x1 x2 x3 xs1 := by
  unfold Body.heldLast; dsimp only
  rw [View.read_writes_eq_canon _ _ _ (Body.coverLastAcc1 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runLast; dsimp only
  sl_unfold_run_names
  rw [View.canon_unit_zero hz1]
  simp only [View.readCov_unit_zero (S := S1024x1) _ hz1, View.readAt_eq_ld, harg3.read_unread, harg4.read_unread, harg5.read_unread, harg10.read_unread, View.ld_unit_zero (S := S1024x512) hz512, View.ld_unit_zero (S := S1024x1) hz1]
  rfl
theorem last_acc2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    (Body.heldLast c i arg2 harg2 arg3 harg3 arg4 harg4 arg5 harg5 arg6 harg6 arg7 harg7 arg8 harg8 arg9 harg9 arg10 harg10 arg11 harg11 hc0 hc1 x0 x1 x2 x3 xs0 xs1 xs2).acc2 = step2 i x0 x3 xs2 := by
  unfold Body.heldLast; dsimp only
  rw [View.read_writes_eq_canon _ _ _ (Body.coverLastAcc2 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runLast; dsimp only
  sl_unfold_run_names
  rw [View.canon_unit_zero hz1]
  simp only [View.readCov_unit_zero (S := S1024x1) _ hz1, View.readAt_eq_ld, harg2.read_unread, harg5.read_unread, harg11.read_unread, View.ld_unit_zero (S := S1024x512) hz512, View.ld_unit_zero (S := S1024x1) hz1]
  rfl
theorem last_out4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    (Body.heldLast c i arg2 harg2 arg3 harg3 arg4 harg4 arg5 harg5 arg6 harg6 arg7 harg7 arg8 harg8 arg9 harg9 arg10 harg10 arg11 harg11 hc0 hc1 x0 x1 x2 x3 xs0 xs1 xs2).out4 = k0_pay2 (step0 i x0 x2 x3 xs0) := by
  unfold Body.heldLast; dsimp only
  rw [View.read_writes_eq_canon _ _ _ (Body.coverLast4 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runLast; dsimp only
  sl_unfold_run_names
  rw [View.canon_unit_zero hz1]
  simp only [View.readCov_unit_zero (S := S1024x1) _ hz1, View.readAt_eq_ld, harg2.read_unread, harg4.read_unread, harg5.read_unread, harg9.read_unread, View.ld_unit_zero (S := S1024x512) hz512, View.ld_unit_zero (S := S1024x1) hz1]
  rfl
theorem last_out5 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    (Body.heldLast c i arg2 harg2 arg3 harg3 arg4 harg4 arg5 harg5 arg6 harg6 arg7 harg7 arg8 harg8 arg9 harg9 arg10 harg10 arg11 harg11 hc0 hc1 x0 x1 x2 x3 xs0 xs1 xs2).out5 = k0_pay3 (step1 i x1 x2 x3 xs1) := by
  unfold Body.heldLast; dsimp only
  rw [View.read_writes_eq_canon _ _ _ (Body.coverLast5 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runLast; dsimp only
  sl_unfold_run_names
  rw [View.canon_unit_zero hz1]
  simp only [View.readCov_unit_zero (S := S1024x1) _ hz1, View.readAt_eq_ld, harg3.read_unread, harg4.read_unread, harg5.read_unread, harg10.read_unread, View.ld_unit_zero (S := S1024x512) hz512, View.ld_unit_zero (S := S1024x1) hz1]
  rfl
theorem last_out6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬firstTile i) (hc1 : lastTile i)
    (x0 x1 : Vec F S1024x512 .bf16) (x2 x3 : Vec F S4096x512 .bf16) (xs0 xs1 xs2 : Vec F S1024x1 .f32) :
    (Body.heldLast c i arg2 harg2 arg3 harg3 arg4 harg4 arg5 harg5 arg6 harg6 arg7 harg7 arg8 harg8 arg9 harg9 arg10 harg10 arg11 harg11 hc0 hc1 x0 x1 x2 x3 xs0 xs1 xs2).out6 = step2 i x0 x3 xs2 := by
  unfold Body.heldLast; dsimp only
  rw [View.read_writes_eq_canon _ _ _ (Body.coverLast6 c i arg2 harg2 arg3 harg3 arg4 harg4 arg5 harg5 arg6 harg6 arg7 harg7 arg8 harg8 arg9 harg9 arg10 harg10 arg11 harg11 hc0 hc1 x0 x1 x2 x3 xs0 xs1 xs2)]
  unfold Body.runLast; dsimp only
  sl_unfold_run_names
  rw [View.canon_unit_zero hz1]
  simp only [View.readCov_unit_zero (S := S1024x1) _ hz1, View.readAt_eq_ld, harg2.read_unread, harg5.read_unread, harg11.read_unread, View.ld_unit_zero (S := S1024x512) hz512, View.ld_unit_zero (S := S1024x1) hz1]
  rfl

end Cert.KernelIdeal.KValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.KValue.Tile.lean ====
/- The body's arithmetic read at an index, on the extended reals. A tile of similarities is the product of a block of 1024
   rows with the transpose of a block of 512 rows, scaled: at (r, k) the sum over the 512 features of the two rows'
   products, times the scale. The mask marks the entries whose global row and global column coincide. An accumulator's
   update at row r adds the row sums over the tile's 512 columns of the exponentials of the shifted logits; the diagonal
   accumulator adds the row's masked cross similarity; the outputs are the shift plus the logarithm of the clamped sum. -/
import proofs.«117558_j62045097558541_2_alg».proof.Proof.Gen.KernelIdeal.Skeleton
import proofs.«117558_j62045097558541_2_alg».proof.Proof.LibBlockReads
import proofs.«117558_j62045097558541_2_alg».proof.Proof.LibRowReductions
import Idealize.ShloMosaic.PureOps.Ideal.Laws
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal Cert.Lib.BlockReads Cert.Lib.RowReductions
open scoped BigOperators

/-! ## The words the body uses -/

/-- The static shift of the logits (the word of 10.5). -/
def wShift : EReal := Ideal.ofBits .f32 0x41280000#32
/-- The value that replaces a row's similarity with itself (the word of -65504). -/
def wMask : EReal := Ideal.ofBits .f32 0xC77FE000#32
/-- The scale of the similarities (the named reciprocal of the temperature). -/
def wScale : EReal := (Named.named (F := Ideal) κ "inv_temperature" (φ := .f32) 0x41200000#32)
/-- The floor under the sums before the logarithm (the named 10⁻³⁰). -/
def wFloor : EReal := (Named.named (F := Ideal) κ "inv_1000000000000000000000000000000" (φ := .f32) 0x0DA24260#32)

/-! ## A tile of scaled similarities -/

/-- The four products of the body share one form: rows of `a` against rows of `s`, scaled. -/
theorem pay11_apply (a : Vec Ideal S1024x512 .bf16) (s : Vec Ideal S512x512 .bf16) (r : Fin 1024) (k : Fin 512) :
    k0_pay11 a s (ix2 r k) = (∑ d : Fin 512, a (ix2 r d) * s (ix2 k d)) * wScale := by
  unfold k0_pay11 k0_pay7 k0_pay9
  dsimp only
  rw [mulf_apply, broadcast_apply, shapeCast_self, shapeCast_self]
  rw [matmul_zero_cols_apply _ rfl rfl rfl rfl rfl rfl]
  rfl
theorem pay12_apply (a : Vec Ideal S1024x512 .bf16) (s : Vec Ideal S512x512 .bf16) (r : Fin 1024) (k : Fin 512) :
    k0_pay12 a s (ix2 r k) = (∑ d : Fin 512, a (ix2 r d) * s (ix2 k d)) * wScale := by
  unfold k0_pay12 k0_pay7 k0_pay10
  dsimp only
  rw [mulf_apply, broadcast_apply, shapeCast_self, shapeCast_self]
  rw [matmul_zero_cols_apply _ rfl rfl rfl rfl rfl rfl]
  rfl
theorem pay13_apply (a : Vec Ideal S1024x512 .bf16) (s : Vec Ideal S512x512 .bf16) (r : Fin 1024) (k : Fin 512) :
    k0_pay13 a s (ix2 r k) = (∑ d : Fin 512, a (ix2 r d) * s (ix2 k d)) * wScale := by
  unfold k0_pay13 k0_pay8 k0_pay10
  dsimp only
  rw [mulf_apply, broadcast_apply, shapeCast_self, shapeCast_self]
  rw [matmul_zero_cols_apply _ rfl rfl rfl rfl rfl rfl]
  rfl
theorem pay14_apply (a : Vec Ideal S1024x512 .bf16) (s : Vec Ideal S512x512 .bf16) (r : Fin 1024) (k : Fin 512) :
    k0_pay14 a s (ix2 r k) = (∑ d : Fin 512, a (ix2 r d) * s (ix2 k d)) * wScale := by
  unfold k0_pay14 k0_pay8 k0_pay9
  dsimp only
  rw [mulf_apply, broadcast_apply, shapeCast_self, shapeCast_self]
  rw [matmul_zero_cols_apply _ rfl rfl rfl rfl rfl rfl]
  rfl

/-! ## The mask of coinciding rows and columns -/

theorem word_lin (cst a b : ℕ) : BitVec.ofNat 32 a * BitVec.ofNat 32 cst + BitVec.ofNat 32 b = BitVec.ofNat 32 (cst * a + b) := by
  rw [BitVec.ofNat_add, BitVec.ofNat_mul, BitVec.mul_comm]

theorem word_inj {x y : ℕ} (hx : x < 4294967296) (hy : y < 4294967296) : BitVec.ofNat 32 x = BitVec.ofNat 32 y ↔ x = y := by
  constructor
  · intro h
    have := congrArg BitVec.toNat h
    simp only [BitVec.toNat_ofNat] at this
    omega
  · rintro rfl; rfl

/-- The mask at (r, k) of the tile at grid coordinates `i`: set exactly when global row 1024·i₀ + r is global column
    512·i₁ + k (all numbers below 4096: the 32-bit words do not wrap). -/
theorem pay15_apply (i : grid0.Coords) (r : Fin 1024) (k : Fin 512) :
    k0_pay15 i (ix2 r k) = if 1024 * (i 0).val + r.val = 512 * (i 1).val + k.val then 1#1 else 0#1 := by
  have hi0 : (i 0).val < 4 := (i 0).isLt
  have hi1 : (i 1).val < 8 := (i 1).isLt
  have hr := r.isLt
  have hk := k.isLt
  unfold k0_pay15
  dsimp only
  show IntOp.cmpi .eq (IntOp.addi (Scalar.muli (BitVec.ofNat 32 (i 0).val) 1024#32) (iota .tc S1024x512 32 [0] iota_S1024x512_d0_w32 (ix2 r k)))
      (IntOp.addi (Scalar.muli (BitVec.ofNat 32 (i 1).val) 512#32) (iota .tc S1024x512 32 [1] iota_S1024x512_d1_w32 (ix2 r k))) = _
  rw [iota_single_apply, iota_single_apply]
  show BitVec.ofBool (BitVec.ofNat 32 (i 0).val * BitVec.ofNat 32 1024 + BitVec.ofNat 32 r.val == BitVec.ofNat 32 (i 1).val * BitVec.ofNat 32 512 + BitVec.ofNat 32 k.val) = _
  rw [word_lin, word_lin]
  by_cases h : 1024 * (i 0).val + r.val = 512 * (i 1).val + k.val
  · rw [if_pos h, h]; simp
  · rw [if_neg h]
    have hne : ¬(BitVec.ofNat 32 (1024 * (i 0).val + r.val) = BitVec.ofNat 32 (512 * (i 1).val + k.val)) :=
      fun e => h ((word_inj (by omega) (by omega)).mp e)
    rw [beq_eq_false_iff_ne.mpr hne]; rfl

/-! ## The accumulators' updates and the outputs at a row -/

/-- A sum along the 512 columns of a tile, at row r: stated with the accumulator word and its evidence spelt as the body
    prints them. -/
theorem rowsum_tile (src : FVec Ideal S1024x512 .f32) (r : Fin 1024) :
    multiReduction .add [1] S1024 src 0x00000000#32 reduces_S1024x512_S1024 (.inl rfl) rfl (ix1 r) = ∑ k : Fin 512, src (ix2 r k) :=
  rowsum_apply src 0x00000000#32 reduces_S1024x512_S1024 (.inl rfl) rfl r

/-- The first accumulator's update at row r: what it held plus the row's two sums over the tile. -/
theorem pay17_apply (v17 v20 : FVec Ideal S1024x512 .f32) (v35 : IVec S1024x512 1) (v36 : FVec Ideal S1024x512 .f32)
    (v40 : Vec Ideal S1024x1 .f32) (r : Fin 1024) :
    k0_pay17 v17 v20 v35 v36 v40 (ix2 r 0)
      = v40 (ix2 r 0) + ((∑ k : Fin 512, Ideal.exp (v20 (ix2 r k) - wShift))
          + ∑ k : Fin 512, Ideal.exp (Scalar.select (v35 (ix2 r k)) (v36 (ix2 r k)) (v17 (ix2 r k)) - wShift)) := by
  unfold k0_pay17
  dsimp only
  rw [shapeCast_self, addf_apply, addf_apply, shapeCast_col_apply, shapeCast_col_apply, rowsum_tile, rowsum_tile]
  rfl

/-- The second accumulator's update at row r. -/
theorem pay18_apply (v23 v26 : FVec Ideal S1024x512 .f32) (v35 : IVec S1024x512 1) (v56 : Vec Ideal S1024x1 .f32) (r : Fin 1024) :
    k0_pay18 v23 v26 v35 v56 (ix2 r 0)
      = v56 (ix2 r 0) + ((∑ k : Fin 512, Ideal.exp (v26 (ix2 r k) - wShift))
          + ∑ k : Fin 512, Ideal.exp (Scalar.select (v35 (ix2 r k)) wMask (v23 (ix2 r k)) - wShift)) := by
  unfold k0_pay18
  dsimp only
  rw [shapeCast_self, addf_apply, addf_apply, shapeCast_col_apply, shapeCast_col_apply, rowsum_tile, rowsum_tile]
  rfl

/-- The masked value of the first accumulator's update is the same word. -/
theorem pay16_apply (y : S1024x512.Idx) : (k0_pay16 (F := Ideal)) y = wMask := rfl

/-- The diagonal accumulator's update at row r: what it held plus the row's masked cross similarities. -/
theorem pay1_apply (v72 : Vec Ideal S1024x1 .f32) (v74 : FVec Ideal S1024x512 .f32) (r : Fin 1024) :
    k0_pay1 v72 v74 (ix2 r 0) = v72 (ix2 r 0) + ∑ k : Fin 512, v74 (ix2 r k) := by
  unfold k0_pay1
  dsimp only
  rw [shapeCast_self, addf_apply, shapeCast_col_apply, rowsum_tile]
theorem pay19_apply (v20 : FVec Ideal S1024x512 .f32) (v35 : IVec S1024x512 1) (y : S1024x512.Idx) :
    k0_pay19 v20 v35 y = Scalar.select (v35 y) (v20 y) 0 := by
  unfold k0_pay19
  (try dsimp only)
  rw [select_apply, broadcast_apply]
  show Scalar.select (v35 y) (v20 y) (Ideal.ofBits .f32 0x00000000#32) = _
  rw [Ideal.ofBits_zero_f32]

/-- The zeroing stores' payloads. -/
theorem pay4_apply (y : S1024x1.Idx) : (k0_pay4 (F := Ideal)) y = 0 := by
  unfold k0_pay4; (try dsimp only); rw [shapeCast_self, broadcast_apply]; exact Ideal.ofBits_zero_f32
theorem pay5_apply (y : S1024x1.Idx) : (k0_pay5 (F := Ideal)) y = 0 := by
  unfold k0_pay5; (try dsimp only); rw [shapeCast_self, broadcast_apply]; exact Ideal.ofBits_zero_f32
theorem pay6_apply (y : S1024x1.Idx) : (k0_pay6 (F := Ideal)) y = 0 := by
  unfold k0_pay6; (try dsimp only); rw [shapeCast_self, broadcast_apply]; exact Ideal.ofBits_zero_f32

/-- The two log-sum-exp outputs at a row: the shift plus the logarithm of the clamped sum. -/
theorem pay2_apply (v84 : Vec Ideal S1024x1 .f32) (y : S1024x1.Idx) :
    k0_pay2 v84 y = wShift + Ideal.log (max (v84 y) wFloor) := by
  unfold k0_pay2; (try dsimp only); rfl
theorem pay3_apply (v91 : Vec Ideal S1024x1 .f32) (y : S1024x1.Idx) :
    k0_pay3 v91 y = wShift + Ideal.log (max (v91 y) wFloor) := by
  unfold k0_pay3; (try dsimp only); rfl

end Cert.KernelIdeal.KValue

end
-- ==== Proof.KValue.Steps.lean ====
/- The accumulators' updates in terms of the two entry arrays. At grid point t the row block is number t / 8 and the column
   tile number t % 8: the block of a half's rows the point is handed is rows 1024·(t/8) … of the half, the halves staged
   whole are the halves, and the column tile is rows 512·(t%8) … of a half. So the update of an accumulator at row r adds the
   tile's share of the sums for global row 1024·(t/8) + r. -/
import proofs.«117558_j62045097558541_2_alg».proof.Proof.KValue.Pieces
import proofs.«117558_j62045097558541_2_alg».proof.Proof.KValue.Tile
import proofs.«117558_j62045097558541_2_alg».proof.Proof.Body.Data

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal Cert.KernelIdeal.Body
open scoped BigOperators

/-- A row of a half by its number (modulo the 4096 rows, so that the term carries no bound). -/
def row (n : ℕ) : Fin 4096 := ⟨n % 4096, Nat.mod_lt _ (by norm_num)⟩

theorem row_val (n : ℕ) (h : n < 4096) : (row n).val = n := Nat.mod_eq_of_lt h

/-! ## The closed forms -/

/-- The scaled similarity of row i of P and row k of Q. -/
def sim (P Q : Vec Ideal S4096x512 .bf16) (i k : Fin 4096) : EReal := (∑ d : Fin 512, P (ix2 i d) * Q (ix2 k d)) * wScale

/-- Column tile j's share of row i's sum of exponentials of shifted logits: against the cross half Q, then against its own
    half P with its own entry replaced by the mask value. -/
def tileLse (P Q : Vec Ideal S4096x512 .bf16) (i : Fin 4096) (j : ℕ) : EReal :=
  (∑ k : Fin 512, Ideal.exp (sim P Q i (row (512 * j + k.val)) - wShift))
    + ∑ k : Fin 512, Ideal.exp ((if i.val = 512 * j + k.val then wMask else sim P P i (row (512 * j + k.val))) - wShift)

/-- Column tile j's share of row i's positive logit: the cross similarity with the row of the same number, if the tile
    holds it. -/
def tilePos (P Q : Vec Ideal S4096x512 .bf16) (i : Fin 4096) (j : ℕ) : EReal :=
  ∑ k : Fin 512, if i.val = 512 * j + k.val then sim P Q i (row (512 * j + k.val)) else 0

/-! ## The column tile of a half staged whole -/

theorem colTile_apply {F : FTy → Type} (i : grid0.Coords) (X : Vec F S4096x512 .bf16) (k d : Fin 512) :
    colTile i X (ix2 k d) = X (ix2 (row (512 * (i 1).val + k.val)) d) := by
  unfold colTile
  show X ((Rect.unit (s := S4096x512) (k0_off1 i) S512x512.size (k0_off1_inb i)).idx (ix2 k d)) = _
  refine congrArg X (funext fun a => Fin.ext ?_)
  have hi1 : (i 1).val < 8 := (i 1).isLt
  have hk := k.isLt
  have e := k0_off1_eq i
  match a with
  | ⟨0, _⟩ =>
    show k0_off1 i 0 + 1 * k.val = (512 * (i 1).val + k.val) % 4096
    rw [e]; show 512 * (i 1).val + 1 * k.val = _; omega
  | ⟨1, _⟩ =>
    show k0_off1 i 1 + 1 * d.val = d.val
    rw [e]; show 0 + 1 * d.val = _; omega

/-! ## The updates at a row, over variables -/

theorem select_mask {α : Type} (p : Prop) [Decidable p] (x y : α) : Scalar.select (if p then 1#1 else 0#1) x y = if p then x else y := by
  by_cases h : p
  · rw [if_pos h, if_pos h, select_one]
  · rw [if_neg h, if_neg h, select_zero]

/-- The first accumulator's update at row r of row block I at column tile j, the row block x0 being rows 1024·I … of P. -/
theorem step0_rows (i : grid0.Coords) (I j : ℕ) (hI : (i 0).val = I) (hj : (i 1).val = j) (hI4 : I < 4) (hj8 : j < 8)
    (P Q : Vec Ideal S4096x512 .bf16) (x0 : Vec Ideal S1024x512 .bf16)
    (h0 : ∀ (r : Fin 1024) (d : Fin 512), x0 (ix2 r d) = P (ix2 (row (1024 * I + r.val)) d))
    (s : Vec Ideal S1024x1 .f32) (r : Fin 1024) :
    step0 i x0 P Q s (ix2 r 0) = s (ix2 r 0) + tileLse P Q (row (1024 * I + r.val)) j := by
  have hr := r.isLt
  unfold step0
  rw [pay17_apply]
  unfold tileLse
  congr 2
  · refine Finset.sum_congr rfl fun k _ => ?_
    rw [pay12_apply]
    simp only [colTile_apply, h0, hj]
    rfl
  · refine Finset.sum_congr rfl fun k _ => ?_
    have hk := k.isLt
    rw [pay15_apply, pay16_apply, pay11_apply, select_mask, hI, hj, row_val _ (by omega)]
    simp only [colTile_apply, h0, hj]
    rfl

/-- The second accumulator's update: the same with the halves' roles exchanged. -/
theorem step1_rows (i : grid0.Coords) (I j : ℕ) (hI : (i 0).val = I) (hj : (i 1).val = j) (hI4 : I < 4) (hj8 : j < 8)
    (P Q : Vec Ideal S4096x512 .bf16) (x1 : Vec Ideal S1024x512 .bf16)
    (h1 : ∀ (r : Fin 1024) (d : Fin 512), x1 (ix2 r d) = Q (ix2 (row (1024 * I + r.val)) d))
    (s : Vec Ideal S1024x1 .f32) (r : Fin 1024) :
    step1 i x1 P Q s (ix2 r 0) = s (ix2 r 0) + tileLse Q P (row (1024 * I + r.val)) j := by
  have hr := r.isLt
  unfold step1
  rw [pay18_apply]
  unfold tileLse
  congr 2
  · refine Finset.sum_congr rfl fun k _ => ?_
    rw [pay14_apply]
    simp only [colTile_apply, h1, hj]
    rfl
  · refine Finset.sum_congr rfl fun k _ => ?_
    have hk := k.isLt
    rw [pay15_apply, pay13_apply, select_mask, hI, hj, row_val _ (by omega)]
    simp only [colTile_apply, h1, hj]
    rfl

/-- The diagonal accumulator's update. -/
theorem step2_rows (i : grid0.Coords) (I j : ℕ) (hI : (i 0).val = I) (hj : (i 1).val = j) (hI4 : I < 4) (hj8 : j < 8)
    (P Q : Vec Ideal S4096x512 .bf16) (x0 : Vec Ideal S1024x512 .bf16)
    (h0 : ∀ (r : Fin 1024) (d : Fin 512), x0 (ix2 r d) = P (ix2 (row (1024 * I + r.val)) d))
    (s : Vec Ideal S1024x1 .f32) (r : Fin 1024) :
    step2 i x0 Q s (ix2 r 0) = s (ix2 r 0) + tilePos P Q (row (1024 * I + r.val)) j := by
  have hr := r.isLt
  unfold step2
  rw [pay1_apply]
  unfold tilePos
  congr 1
  refine Finset.sum_congr rfl fun k _ => ?_
  have hk := k.isLt
  rw [pay19_apply, pay15_apply, pay12_apply, select_mask, hI, hj, row_val _ (by omega)]
  simp only [colTile_apply, h0, hj]
  rfl

/-! ## The blocks the points are handed, in terms of the entry arrays -/

variable (m : (ℓ : Loc nD τ sig) → Buf (Elt Ideal) ℓ) (c : Dev nD)

/-- The grid's coordinates and the windows' block indices at point t, decided over the 32 points. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)
theorem index_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first half's row block at point t is rows 1024·(t/8) … of the first half as the region finds it, -/
theorem iblk0_apply (t : Fin cfg0.N) (r : Fin 1024) (d : Fin 512) :
    Body.iblk m c 0 t (ix2 r d) = Body.V m c main_v7 (ix2 (row (1024 * (t.val / 8) + r.val)) d) := by
  have ht : t.val < 32 := lt_of_lt_of_eq t.isLt N_0
  have hr := r.isLt
  obtain ⟨e00, e01, e10, e11, e20, e21, e30, e31⟩ := index_facts t
  unfold Body.iblk
  show Body.V m c main_v7 (((cfg0.win 0).blk t).view.emb (ix2 r d)) = _
  refine congrArg _ (funext fun a => Fin.ext ?_)
  match a with
  | ⟨0, _⟩ => show win0_0.index t (0 : Fin 2) * 1024 + 1 * r.val = (1024 * (t.val / 8) + r.val) % 4096; omega
  | ⟨1, _⟩ => show win0_0.index t (1 : Fin 2) * 512 + 1 * d.val = d.val; omega
/-- the second half's likewise, -/
theorem iblk1_apply (t : Fin cfg0.N) (r : Fin 1024) (d : Fin 512) :
    Body.iblk m c 1 t (ix2 r d) = Body.V m c main_v8 (ix2 (row (1024 * (t.val / 8) + r.val)) d) := by
  have ht : t.val < 32 := lt_of_lt_of_eq t.isLt N_0
  have hr := r.isLt
  obtain ⟨e00, e01, e10, e11, e20, e21, e30, e31⟩ := index_facts t
  unfold Body.iblk
  show Body.V m c main_v8 (((cfg0.win 1).blk t).view.emb (ix2 r d)) = _
  refine congrArg _ (funext fun a => Fin.ext ?_)
  match a with
  | ⟨0, _⟩ => show win0_1.index t (0 : Fin 2) * 1024 + 1 * r.val = (1024 * (t.val / 8) + r.val) % 4096; omega
  | ⟨1, _⟩ => show win0_1.index t (1 : Fin 2) * 512 + 1 * d.val = d.val; omega
/-- and the halves staged whole are the halves. -/
theorem iblk2_eq (t : Fin cfg0.N) : Body.iblk m c 2 t = Body.V m c main_v7 := by
  obtain ⟨e00, e01, e10, e11, e20, e21, e30, e31⟩ := index_facts t
  unfold Body.iblk
  funext y
  show Body.V m c main_v7 (((cfg0.win 2).blk t).view.emb y) = Body.V m c main_v7 y
  refine congrArg _ (funext fun a => Fin.ext ?_)
  match a with
  | ⟨0, _⟩ => show win0_2.index t (0 : Fin 2) * 4096 + 1 * (y 0).val = (y 0).val; omega
  | ⟨1, _⟩ => show win0_2.index t (1 : Fin 2) * 512 + 1 * (y 1).val = (y 1).val; omega
theorem iblk3_eq (t : Fin cfg0.N) : Body.iblk m c 3 t = Body.V m c main_v8 := by
  obtain ⟨e00, e01, e10, e11, e20, e21, e30, e31⟩ := index_facts t
  unfold Body.iblk
  funext y
  show Body.V m c main_v8 (((cfg0.win 3).blk t).view.emb y) = Body.V m c main_v8 y
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 512 + 1 * (y 1).val = (y 1).val; omega

end Cert.KernelIdeal.KValue

end
-- ==== Proof.KValue.Accumulated.lean ====
/- The accumulators point by point, in closed form: after point t each holds, at row r, the sum over the column tiles
   0 … t % 8 of the row block's tile shares — by induction on the point, the first column tile starting from the zeroing
   store, every other from what the point before left (addition of extended reals needs no side condition to be
   reassociated this way: each step appends one summand). -/
import proofs.«117558_j62045097558541_2_alg».proof.Proof.KValue.Steps

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal Cert.KernelIdeal.Body
open scoped BigOperators

variable (m : (ℓ : Loc nD τ sig) → Buf (Elt Ideal) ℓ) (c : Dev nD)

set_option maxHeartbeats 1000000

/-- The first accumulator: the first half's rows against the second half (cross) and the first (own). -/
theorem acc0_closed : ∀ (n : ℕ) (hn : n < cfg0.N) (r : Fin 1024),
    (Body.heldAt m c n hn).acc0 (ix2 r 0) = ∑ j ∈ Finset.range (n % 8 + 1), tileLse (Body.V m c main_v7) (Body.V m c main_v8) (row (1024 * (n / 8) + r.val)) j := by
  intro n
  induction n with
  | zero =>
    intro hn r
    have e : Body.heldAt m c 0 hn = _ := Body.heldAt_first m c ⟨0, hn⟩ (by show 0 % 8 = 0; decide) (by show ¬(0 % 8 = 7); decide)
    rw [e, first_acc0, iblk2_eq, iblk3_eq]
    refine (step0_rows (grid0.coords ⟨0, hn⟩) (0 / 8) (0 % 8) (coords_facts ⟨0, hn⟩).1 (coords_facts ⟨0, hn⟩).2 (by omega) (by omega) (Body.V m c main_v7) (Body.V m c main_v8) (Body.iblk m c 0 ⟨0, hn⟩) (iblk0_apply m c ⟨0, hn⟩) (k0_pay4 (F := Ideal)) r).trans ?_
    rw [pay4_apply, zero_add]
    show _ = ∑ j ∈ Finset.range 1, _
    rw [Finset.sum_range_one]
  | succ n ih =>
    intro hn r
    have hN : n + 1 < 32 := lt_of_lt_of_eq hn N_0
    by_cases h0 : (n + 1) % 8 = 0
    · have h7 : ¬(n + 1) % 8 = 7 := by omega
      have e : Body.heldAt m c (n + 1) hn = _ := Body.heldAt_first m c ⟨n + 1, hn⟩ h0 h7
      rw [e, first_acc0, iblk2_eq, iblk3_eq]
      refine (step0_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 0 ⟨n + 1, hn⟩) (iblk0_apply m c ⟨n + 1, hn⟩) (k0_pay4 (F := Ideal)) r).trans ?_
      rw [pay4_apply, zero_add, h0]
      show _ = ∑ j ∈ Finset.range 1, _
      rw [Finset.sum_range_one]
    · have q : (n + 1) / 8 = n / 8 := by omega
      have p : (n + 1) % 8 = n % 8 + 1 := by omega
      by_cases h7 : (n + 1) % 8 = 7
      · have e : Body.heldAt m c (n + 1) hn = _ := Body.heldAt_last m c ⟨n + 1, hn⟩ h0 h7
        rw [e, last_acc0, iblk2_eq, iblk3_eq]
        refine (step0_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 0 ⟨n + 1, hn⟩) (iblk0_apply m c ⟨n + 1, hn⟩) _ r).trans ?_
        rw [q, p, Finset.sum_range_succ, ← ih (Nat.lt_of_succ_lt hn) r]
        rfl
      · have e : Body.heldAt m c (n + 1) hn = _ := Body.heldAt_middle m c ⟨n + 1, hn⟩ h0 h7
        rw [e, middle_acc0, iblk2_eq, iblk3_eq]
        refine (step0_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 0 ⟨n + 1, hn⟩) (iblk0_apply m c ⟨n + 1, hn⟩) _ r).trans ?_
        rw [q, p, Finset.sum_range_succ, ← ih (Nat.lt_of_succ_lt hn) r]
        rfl

/-- The second accumulator: the second half's rows against the first half (cross) and the second (own). -/
theorem acc1_closed : ∀ (n : ℕ) (hn : n < cfg0.N) (r : Fin 1024),
    (Body.heldAt m c n hn).acc1 (ix2 r 0) = ∑ j ∈ Finset.range (n % 8 + 1), tileLse (Body.V m c main_v8) (Body.V m c main_v7) (row (1024 * (n / 8) + r.val)) j := by
  intro n
  induction n with
  | zero =>
    intro hn r
    have e : Body.heldAt m c 0 hn = _ := Body.heldAt_first m c ⟨0, hn⟩ (by show 0 % 8 = 0; decide) (by show ¬(0 % 8 = 7); decide)
    rw [e, first_acc1, iblk2_eq, iblk3_eq]
    refine (step1_rows (grid0.coords ⟨0, hn⟩) (0 / 8) (0 % 8) (coords_facts ⟨0, hn⟩).1 (coords_facts ⟨0, hn⟩).2 (by omega) (by omega) (Body.V m c main_v7) (Body.V m c main_v8) (Body.iblk m c 1 ⟨0, hn⟩) (iblk1_apply m c ⟨0, hn⟩) (k0_pay5 (F := Ideal)) r).trans ?_
    rw [pay5_apply, zero_add]
    show _ = ∑ j ∈ Finset.range 1, _
    rw [Finset.sum_range_one]
  | succ n ih =>
    intro hn r
    have hN : n + 1 < 32 := lt_of_lt_of_eq hn N_0
    by_cases h0 : (n + 1) % 8 = 0
    · have h7 : ¬(n + 1) % 8 = 7 := by omega
      have e : Body.heldAt m c (n + 1) hn = _ := Body.heldAt_first m c ⟨n + 1, hn⟩ h0 h7
      rw [e, first_acc1, iblk2_eq, iblk3_eq]
      refine (step1_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 1 ⟨n + 1, hn⟩) (iblk1_apply m c ⟨n + 1, hn⟩) (k0_pay5 (F := Ideal)) r).trans ?_
      rw [pay5_apply, zero_add, h0]
      show _ = ∑ j ∈ Finset.range 1, _
      rw [Finset.sum_range_one]
    · have q : (n + 1) / 8 = n / 8 := by omega
      have p : (n + 1) % 8 = n % 8 + 1 := by omega
      by_cases h7 : (n + 1) % 8 = 7
      · have e : Body.heldAt m c (n + 1) hn = _ := Body.heldAt_last m c ⟨n + 1, hn⟩ h0 h7
        rw [e, last_acc1, iblk2_eq, iblk3_eq]
        refine (step1_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 1 ⟨n + 1, hn⟩) (iblk1_apply m c ⟨n + 1, hn⟩) _ r).trans ?_
        rw [q, p, Finset.sum_range_succ, ← ih (Nat.lt_of_succ_lt hn) r]
        rfl
      · have e : Body.heldAt m c (n + 1) hn = _ := Body.heldAt_middle m c ⟨n + 1, hn⟩ h0 h7
        rw [e, middle_acc1, iblk2_eq, iblk3_eq]
        refine (step1_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 1 ⟨n + 1, hn⟩) (iblk1_apply m c ⟨n + 1, hn⟩) _ r).trans ?_
        rw [q, p, Finset.sum_range_succ, ← ih (Nat.lt_of_succ_lt hn) r]
        rfl

/-- The third accumulator: the positive logits. -/
theorem acc2_closed : ∀ (n : ℕ) (hn : n < cfg0.N) (r : Fin 1024),
    (Body.heldAt m c n hn).acc2 (ix2 r 0) = ∑ j ∈ Finset.range (n % 8 + 1), tilePos (Body.V m c main_v7) (Body.V m c main_v8) (row (1024 * (n / 8) + r.val)) j := by
  intro n
  induction n with
  | zero =>
    intro hn r
    have e : Body.heldAt m c 0 hn = _ := Body.heldAt_first m c ⟨0, hn⟩ (by show 0 % 8 = 0; decide) (by show ¬(0 % 8 = 7); decide)
    rw [e, first_acc2, iblk3_eq]
    refine (step2_rows (grid0.coords ⟨0, hn⟩) (0 / 8) (0 % 8) (coords_facts ⟨0, hn⟩).1 (coords_facts ⟨0, hn⟩).2 (by omega) (by omega) (Body.V m c main_v7) (Body.V m c main_v8) (Body.iblk m c 0 ⟨0, hn⟩) (iblk0_apply m c ⟨0, hn⟩) (k0_pay6 (F := Ideal)) r).trans ?_
    rw [pay6_apply, zero_add]
    show _ = ∑ j ∈ Finset.range 1, _
    rw [Finset.sum_range_one]
  | succ n ih =>
    intro hn r
    have hN : n + 1 < 32 := lt_of_lt_of_eq hn N_0
    by_cases h0 : (n + 1) % 8 = 0
    · have h7 : ¬(n + 1) % 8 = 7 := by omega
      have e : Body.heldAt m c (n + 1) hn = _ := Body.heldAt_first m c ⟨n + 1, hn⟩ h0 h7
      rw [e, first_acc2, iblk3_eq]
      refine (step2_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 0 ⟨n + 1, hn⟩) (iblk0_apply m c ⟨n + 1, hn⟩) (k0_pay6 (F := Ideal)) r).trans ?_
      rw [pay6_apply, zero_add, h0]
      show _ = ∑ j ∈ Finset.range 1, _
      rw [Finset.sum_range_one]
    · have q : (n + 1) / 8 = n / 8 := by omega
      have p : (n + 1) % 8 = n % 8 + 1 := by omega
      by_cases h7 : (n + 1) % 8 = 7
      · have e : Body.heldAt m c (n + 1) hn = _ := Body.heldAt_last m c ⟨n + 1, hn⟩ h0 h7
        rw [e, last_acc2, iblk3_eq]
        refine (step2_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 0 ⟨n + 1, hn⟩) (iblk0_apply m c ⟨n + 1, hn⟩) _ r).trans ?_
        rw [q, p, Finset.sum_range_succ, ← ih (Nat.lt_of_succ_lt hn) r]
        rfl
      · have e : Body.heldAt m c (n + 1) hn = _ := Body.heldAt_middle m c ⟨n + 1, hn⟩ h0 h7
        rw [e, middle_acc2, iblk3_eq]
        refine (step2_rows (grid0.coords ⟨n + 1, hn⟩) ((n + 1) / 8) ((n + 1) % 8) (coords_facts ⟨n + 1, hn⟩).1 (coords_facts ⟨n + 1, hn⟩).2 (by omega) (by omega) (Body.V m c main_v7) (Body.V m c main_v8) (Body.iblk m c 0 ⟨n + 1, hn⟩) (iblk0_apply m c ⟨n + 1, hn⟩) _ r).trans ?_
        rw [q, p, Finset.sum_range_succ, ← ih (Nat.lt_of_succ_lt hn) r]
        rfl
/-! ## The outputs after a row block's last column tile -/

/-- Row i's log-sum-exp as the body computes it: the shift plus the logarithm of the eight tiles' sum, clamped below. -/
def lse (P Q : Vec Ideal S4096x512 .bf16) (i : Fin 4096) : EReal :=
  wShift + Ideal.log (max (∑ j ∈ Finset.range 8, tileLse P Q i j) wFloor)
/-- Row i's positive logit as the body computes it. -/
def pos (P Q : Vec Ideal S4096x512 .bf16) (i : Fin 4096) : EReal := ∑ j ∈ Finset.range 8, tilePos P Q i j

theorem out4_closed (t : Fin cfg0.N) (h7 : t.val % 8 = 7) (r : Fin 1024) :
    (Body.heldAt m c t.val t.isLt).out4 (ix2 r 0) = lse (Body.V m c main_v7) (Body.V m c main_v8) (row (1024 * (t.val / 8) + r.val)) := by
  have h0 : ¬t.val % 8 = 0 := by omega
  have e := Body.heldAt_last m c t h0 h7
  have a := acc0_closed m c t.val t.isLt r
  rw [e, last_acc0] at a
  rw [e, last_out4, pay2_apply, a, h7]
  rfl
theorem out5_closed (t : Fin cfg0.N) (h7 : t.val % 8 = 7) (r : Fin 1024) :
    (Body.heldAt m c t.val t.isLt).out5 (ix2 r 0) = lse (Body.V m c main_v8) (Body.V m c main_v7) (row (1024 * (t.val / 8) + r.val)) := by
  have h0 : ¬t.val % 8 = 0 := by omega
  have e := Body.heldAt_last m c t h0 h7
  have a := acc1_closed m c t.val t.isLt r
  rw [e, last_acc1] at a
  rw [e, last_out5, pay3_apply, a, h7]
  rfl
theorem out6_closed (t : Fin cfg0.N) (h7 : t.val % 8 = 7) (r : Fin 1024) :
    (Body.heldAt m c t.val t.isLt).out6 (ix2 r 0) = pos (Body.V m c main_v7) (Body.V m c main_v8) (row (1024 * (t.val / 8) + r.val)) := by
  have h0 : ¬t.val % 8 = 0 := by omega
  have e := Body.heldAt_last m c t h0 h7
  have a := acc2_closed m c t.val t.isLt r
  rw [e, last_acc2] at a
  rw [e, last_out6, a, h7]
  rfl

end Cert.KernelIdeal.KValue

end
-- ==== Proof.KValue.Arrays.lean ====
/- The three output arrays after the run, as functions of the two entry arrays. Each output's block is written back once,
   by the last point (column tile 7) of its row block, and those four blocks of 1024 rows tile the 4096 rows: row i is in
   block i / 1024. So each array is, row by row, the closed form of the accumulation. -/
import proofs.«117558_j62045097558541_2_alg».proof.Proof.KValue.Accumulated
import Idealize.ShloMosaic.Lib.Pipeline.Value

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal Cert.KernelIdeal.Body
open scoped BigOperators

variable (m : (ℓ : Loc nD τ sig) → Buf (Elt Ideal) ℓ) (c : Dev nD)

/-- The outputs' block indices at point t, decided over the 32 points. -/
theorem out_index_facts : ∀ t : Fin cfg0.N,
    win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

/-! ## Output 4: the first half's rows' log-sum-exp -/

/-- What the array ends holding: at row i, `lse` of the entry arrays. -/
def G4 : S4096x1.Idx → EReal := fun y => lse (Body.V m c main_v7) (Body.V m c main_v8) (row (y 0).val)

/-- What a point with j = 7 writes back is its block of that function. -/
theorem flushed4_eq (t : Fin cfg0.N) (hf : (cfg0.win 4).flush t = true) :
    (Body.dats m 0 c).flushed 4 t = ((cfg0.win 4).blk t).view.read (Elt Ideal) (G4 m c) := by
  have h7 : t.val % 8 = 7 := (flush0_4 t).mp hf
  have ht : t.val < 32 := lt_of_lt_of_eq t.isLt N_0
  obtain ⟨e40, e41, e50, e51, e60, e61⟩ := out_index_facts t
  show (cfg0.win 4).cut (grid0.coords t) ((Body.dats m 0 c).after 4 t) = _
  rw [Body.after0_4]
  funext y
  obtain ⟨r, q, rfl⟩ : ∃ (r : Fin 1024) (q : Fin 1), y = ix2 r q := ⟨y 0, y 1, eq_ix2 y⟩
  obtain rfl : q = 0 := Subsingleton.elim _ _
  have hr := r.isLt
  show (Body.heldAt m c t.val t.isLt).out4 (ix2 r 0) = G4 m c (((cfg0.win 4).blk t).view.emb (ix2 r 0))
  rw [out4_closed m c t h7 r]
  unfold G4
  refine congrArg _ (Fin.ext ?_)
  show (1024 * (t.val / 8) + r.val) % 4096 = (win0_4.index t (0 : Fin 2) * 1024 + 1 * r.val) % 4096
  rw [e40]
  congr 1
  omega

theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v9_0).slice (win0_4.rect t)).set ↔ _
  rw [View.set_slice_whole, Rect.mem_set_unit]
  exact Iff.rfl

/-- Row i is written back by the last point of row block i / 1024. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 32 := N_0
  refine ⟨⟨8 * ((i 0).val / 1024) + 7, by omega⟩, (flush0_4 _).mpr (by show (8 * ((i 0).val / 1024) + 7) % 8 = 7; omega), ?_⟩
  rw [mem_blk4]
  obtain ⟨e40, e41, e50, e51, e60, e61⟩ := out_index_facts ⟨8 * ((i 0).val / 1024) + 7, by omega⟩
  intro a
  match a with
  | ⟨0, _⟩ =>
    show win0_4.index _ (0 : Fin 2) * 1024 ≤ (i 0).val ∧ (i 0).val < win0_4.index _ (0 : Fin 2) * 1024 + 1024
    rw [e40]
    show (8 * ((i 0).val / 1024) + 7) / 8 * 1024 ≤ (i 0).val ∧ (i 0).val < (8 * ((i 0).val / 1024) + 7) / 8 * 1024 + 1024
    omega
  | ⟨1, _⟩ =>
    show win0_4.index _ (1 : Fin 2) * 1 ≤ (i 1).val ∧ (i 1).val < win0_4.index _ (1 : Fin 2) * 1 + 1
    rw [e41]
    omega

/-- THE ARRAY after the run. -/
theorem final4 : (Body.dats m 0 c).arrAt 4 cfg0.N = G4 m c :=
  (Body.dats m 0 c).arrAt_eq_of_cover 4 (G4 m c) (fun t hf => flushed4_eq m c t hf) (cover4)

/-- Row i of it. -/
theorem arr4_apply (i : Fin 4096) : (Body.dats m 0 c).arrAt 4 cfg0.N (ix2 i 0) = lse (Body.V m c main_v7) (Body.V m c main_v8) i := by
  rw [final4]
  unfold G4
  exact congrArg _ (Fin.ext (Nat.mod_eq_of_lt i.isLt))

/-! ## Output 5: the second half's rows' log-sum-exp -/

/-- What the array ends holding: at row i, `lse` of the entry arrays. -/
def G5 : S4096x1.Idx → EReal := fun y => lse (Body.V m c main_v8) (Body.V m c main_v7) (row (y 0).val)

/-- What a point with j = 7 writes back is its block of that function. -/
theorem flushed5_eq (t : Fin cfg0.N) (hf : (cfg0.win 5).flush t = true) :
    (Body.dats m 0 c).flushed 5 t = ((cfg0.win 5).blk t).view.read (Elt Ideal) (G5 m c) := by
  have h7 : t.val % 8 = 7 := (flush0_5 t).mp hf
  have ht : t.val < 32 := lt_of_lt_of_eq t.isLt N_0
  obtain ⟨e40, e41, e50, e51, e60, e61⟩ := out_index_facts t
  show (cfg0.win 5).cut (grid0.coords t) ((Body.dats m 0 c).after 5 t) = _
  rw [Body.after0_5]
  funext y
  obtain ⟨r, q, rfl⟩ : ∃ (r : Fin 1024) (q : Fin 1), y = ix2 r q := ⟨y 0, y 1, eq_ix2 y⟩
  obtain rfl : q = 0 := Subsingleton.elim _ _
  have hr := r.isLt
  show (Body.heldAt m c t.val t.isLt).out5 (ix2 r 0) = G5 m c (((cfg0.win 5).blk t).view.emb (ix2 r 0))
  rw [out5_closed m c t h7 r]
  unfold G5
  refine congrArg _ (Fin.ext ?_)
  show (1024 * (t.val / 8) + r.val) % 4096 = (win0_5.index t (0 : Fin 2) * 1024 + 1 * r.val) % 4096
  rw [e50]
  congr 1
  omega

theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v9_1).slice (win0_5.rect t)).set ↔ _
  rw [View.set_slice_whole, Rect.mem_set_unit]
  exact Iff.rfl

/-- Row i is written back by the last point of row block i / 1024. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 32 := N_0
  refine ⟨⟨8 * ((i 0).val / 1024) + 7, by omega⟩, (flush0_5 _).mpr (by show (8 * ((i 0).val / 1024) + 7) % 8 = 7; omega), ?_⟩
  rw [mem_blk5]
  obtain ⟨e40, e41, e50, e51, e60, e61⟩ := out_index_facts ⟨8 * ((i 0).val / 1024) + 7, by omega⟩
  intro a
  match a with
  | ⟨0, _⟩ =>
    show win0_5.index _ (0 : Fin 2) * 1024 ≤ (i 0).val ∧ (i 0).val < win0_5.index _ (0 : Fin 2) * 1024 + 1024
    rw [e50]
    show (8 * ((i 0).val / 1024) + 7) / 8 * 1024 ≤ (i 0).val ∧ (i 0).val < (8 * ((i 0).val / 1024) + 7) / 8 * 1024 + 1024
    omega
  | ⟨1, _⟩ =>
    show win0_5.index _ (1 : Fin 2) * 1 ≤ (i 1).val ∧ (i 1).val < win0_5.index _ (1 : Fin 2) * 1 + 1
    rw [e51]
    omega

/-- THE ARRAY after the run. -/
theorem final5 : (Body.dats m 0 c).arrAt 5 cfg0.N = G5 m c :=
  (Body.dats m 0 c).arrAt_eq_of_cover 5 (G5 m c) (fun t hf => flushed5_eq m c t hf) (cover5)

/-- Row i of it. -/
theorem arr5_apply (i : Fin 4096) : (Body.dats m 0 c).arrAt 5 cfg0.N (ix2 i 0) = lse (Body.V m c main_v8) (Body.V m c main_v7) i := by
  rw [final5]
  unfold G5
  exact congrArg _ (Fin.ext (Nat.mod_eq_of_lt i.isLt))

/-! ## Output 6: the positive logits -/

/-- What the array ends holding: at row i, `pos` of the entry arrays. -/
def G6 : S4096x1.Idx → EReal := fun y => pos (Body.V m c main_v7) (Body.V m c main_v8) (row (y 0).val)

/-- What a point with j = 7 writes back is its block of that function. -/
theorem flushed6_eq (t : Fin cfg0.N) (hf : (cfg0.win 6).flush t = true) :
    (Body.dats m 0 c).flushed 6 t = ((cfg0.win 6).blk t).view.read (Elt Ideal) (G6 m c) := by
  have h7 : t.val % 8 = 7 := (flush0_6 t).mp hf
  have ht : t.val < 32 := lt_of_lt_of_eq t.isLt N_0
  obtain ⟨e40, e41, e50, e51, e60, e61⟩ := out_index_facts t
  show (cfg0.win 6).cut (grid0.coords t) ((Body.dats m 0 c).after 6 t) = _
  rw [Body.after0_6]
  funext y
  obtain ⟨r, q, rfl⟩ : ∃ (r : Fin 1024) (q : Fin 1), y = ix2 r q := ⟨y 0, y 1, eq_ix2 y⟩
  obtain rfl : q = 0 := Subsingleton.elim _ _
  have hr := r.isLt
  show (Body.heldAt m c t.val t.isLt).out6 (ix2 r 0) = G6 m c (((cfg0.win 6).blk t).view.emb (ix2 r 0))
  rw [out6_closed m c t h7 r]
  unfold G6
  refine congrArg _ (Fin.ext ?_)
  show (1024 * (t.val / 8) + r.val) % 4096 = (win0_6.index t (0 : Fin 2) * 1024 + 1 * r.val) % 4096
  rw [e60]
  congr 1
  omega

theorem mem_blk6 (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v9_2).slice (win0_6.rect t)).set ↔ _
  rw [View.set_slice_whole, Rect.mem_set_unit]
  exact Iff.rfl

/-- Row i is written back by the last point of row block i / 1024. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 32 := N_0
  refine ⟨⟨8 * ((i 0).val / 1024) + 7, by omega⟩, (flush0_6 _).mpr (by show (8 * ((i 0).val / 1024) + 7) % 8 = 7; omega), ?_⟩
  rw [mem_blk6]
  obtain ⟨e40, e41, e50, e51, e60, e61⟩ := out_index_facts ⟨8 * ((i 0).val / 1024) + 7, by omega⟩
  intro a
  match a with
  | ⟨0, _⟩ =>
    show win0_6.index _ (0 : Fin 2) * 1024 ≤ (i 0).val ∧ (i 0).val < win0_6.index _ (0 : Fin 2) * 1024 + 1024
    rw [e60]
    show (8 * ((i 0).val / 1024) + 7) / 8 * 1024 ≤ (i 0).val ∧ (i 0).val < (8 * ((i 0).val / 1024) + 7) / 8 * 1024 + 1024
    omega
  | ⟨1, _⟩ =>
    show win0_6.index _ (1 : Fin 2) * 1 ≤ (i 1).val ∧ (i 1).val < win0_6.index _ (1 : Fin 2) * 1 + 1
    rw [e61]
    omega

/-- THE ARRAY after the run. -/
theorem final6 : (Body.dats m 0 c).arrAt 6 cfg0.N = G6 m c :=
  (Body.dats m 0 c).arrAt_eq_of_cover 6 (G6 m c) (fun t hf => flushed6_eq m c t hf) (cover6)

/-- Row i of it. -/
theorem arr6_apply (i : Fin 4096) : (Body.dats m 0 c).arrAt 6 cfg0.N (ix2 i 0) = pos (Body.V m c main_v7) (Body.V m c main_v8) i := by
  rw [final6]
  unfold G6
  exact congrArg _ (Fin.ext (Nat.mod_eq_of_lt i.isLt))

end Cert.KernelIdeal.KValue

end
-- ==== Proof.KValue.Mean.lean ====
/- The host operations after the region, read on the extended reals: each of the first two result columns minus the third
   is summed over its 4096 rows from the zero word and divided by the word of 4096, and the two quotients are added. -/
import proofs.«117558_j62045097558541_2_alg».proof.Proof.Gen.KernelIdeal.Launch
import proofs.«117558_j62045097558541_2_alg».proof.Proof.LibRowReductions
import Idealize.ShloMosaic.Lib.Pipeline.Value
import Idealize.ShloMosaic.Lib.IdealHost
import Idealize.ShloMosaic.Lib.Pipeline.FrameSuffix
import Idealize.ShloMosaic.Lib.ValueIdx

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal
open scoped BigOperators

/-- The word of 4096. -/
def w4096 : EReal := Ideal.ofBits .f32 0x45800000#32

/-- The fifteen later operations as one function of the three result columns. -/
def tailVec (o4 o5 o6 : FVec Ideal S4096x1 .f32) : FVec Ideal S_ .f32 :=
  addf
    (Host.divf
      (Host.reduceAdd (subf (shapeCast S4096 o4 shapeCasts_S4096x1_S4096) (shapeCast S4096 o6 shapeCasts_S4096x1_S4096))
        (constant (F := Ideal) S_ .f32 0x00000000#32) reducesTo_S4096_S_d0 h_S_)
      (constant (F := Ideal) S_ .f32 0x45800000#32))
    (Host.divf
      (Host.reduceAdd (subf (shapeCast S4096 o5 shapeCasts_S4096x1_S4096) (shapeCast S4096 o6 shapeCasts_S4096x1_S4096))
        (constant (F := Ideal) S_ .f32 0x00000000#32) reducesTo_S4096_S_d0 h_S_)
      (constant (F := Ideal) S_ .f32 0x45800000#32))

/-- After the later operations the scalar result holds that function of the three result arrays, whatever valuation
    the operations start from. -/
theorem tail_ops (W : Valuation τ sig (Elt Ideal)) :
    StableHlo.after (List.flatten [hostOps1]) W (Proc.devRef .tc main_v20)
      = tailVec (W (Proc.devRef .tc main_v9_0)) (W (Proc.devRef .tc main_v9_1)) (W (Proc.devRef .tc main_v9_2)) := by
  show StableHlo.after hostOps1 W (Proc.devRef .tc main_v20) = _
  after_results
  rfl

/-- A column of a entries viewed as a vector reads its entry (p, 0) at p. -/
theorem shapeCast_uncol_apply {α : Type} {a : Nat} (x : (⟨2, ![a, 1]⟩ : Shape).Idx → α)
    (h : (⟨2, ![a, 1]⟩ : Shape).ShapeCasts ⟨1, ![a]⟩) (p : Fin a) : shapeCast ⟨1, ![a]⟩ x h (ix1 p) = x (ix2 p 0) := by
  refine shapeCast_apply x h _ _ ?_
  rw [Shape.rowMajor_val_one, Shape.rowMajor_val_two]
  show p.val * 1 + 0 = p.val
  omega

/-- A sum over the indices of a vector of n entries is the sum over its entries' numbers. -/
theorem sum_idx1 {M : Type*} [AddCommMonoid M] {n : Nat} (f : (⟨1, ![n]⟩ : Shape).Idx → M) :
    ∑ i : (⟨1, ![n]⟩ : Shape).Idx, f i = ∑ k : Fin n, f (ix1 k) :=
  Fintype.sum_equiv ⟨fun i => (i 0 : Fin n), fun k => ix1 k, fun i => (eq_ix1 i).symm, fun _ => rfl⟩ _ _
    fun i => congrArg f (eq_ix1 i)

/-- The host's sum of a vector of 4096 entries over its one axis, from the first element of the initial array. -/
theorem host_total_apply (x : FVec Ideal S4096 .f32) (init : S_.Idx → Ideal .f32) (j : S_.Idx) :
    Host.reduceAdd x init reducesTo_S4096_S_d0 h_S_ j = init (Shape.Idx.first h_S_) + ∑ k : Fin 4096, x (ix1 k) := by
  rw [hostReduceAdd_apply, Ideal.hostReduceAdd_total _ (fun b => b.elim0)]
  exact congrArg (_ + ·) (sum_idx1 (n := 4096) x)

/-- The scalar: the two means. -/
theorem tailVec_apply (o4 o5 o6 : FVec Ideal S4096x1 .f32) (j : S_.Idx) :
    tailVec o4 o5 o6 j
      = Ideal.div (Ideal.ofBits .f32 0x00000000#32 + ∑ i : Fin 4096, (o4 (ix2 i 0) - o6 (ix2 i 0))) w4096
        + Ideal.div (Ideal.ofBits .f32 0x00000000#32 + ∑ i : Fin 4096, (o5 (ix2 i 0) - o6 (ix2 i 0))) w4096 := by
  unfold tailVec
  rw [addf_apply, hostDivf_apply, hostDivf_apply, host_total_apply, host_total_apply]
  simp only [subf_apply, shapeCast_uncol_apply, constant_apply]
  rfl

end Cert.KernelIdeal.KValue

end
-- ==== Proof.LossSpec.lean ====
/-
  The loss both programs compute, over the reals.

  The 8192 rows of the argument are normalised: each is divided by its Euclidean norm, clamped below at ε. The first
  4096 normalised rows are the view a, the last 4096 the view b. For a view P with cross view Q, row i's logits are
  the 4096 scaled similarities s·⟨P i, Q k⟩ followed by the 4096 scaled self-similarities s·⟨P i, P k⟩ with the
  k = i entry replaced by the constant neg; the positive logit is s·⟨P i, Q i⟩. One cross-entropy is the mean over i of
  log Σ exp(logits) − positive; the loss is the cross-entropy of (a, b) plus that of (b, a).
-/
import Mathlib

noncomputable section

namespace Cert.LossSpec

open Finset

/-- The clamp of the norms: the word 0x2B8CBCCC read exactly, 9223372 · 2⁻⁶³ (the single-precision 1e-12). -/
def eps : ℝ := 9223372 / 2 ^ 63
/-- The logits' scale: the reciprocal of the word 0x3DCCCCCD = 13421773 · 2⁻²⁷ (the single-precision 0.1). -/
def scale : ℝ := 134217728 / 13421773
/-- The constant that replaces a row's similarity with itself. -/
def neg : ℝ := -65504

theorem eps_pos : 0 < eps := by unfold eps; positivity
theorem scale_pos : 0 < scale := by unfold scale; positivity

/-- A row's norm, clamped below at ε. -/
def rowNorm (X : Fin 8192 → Fin 512 → ℝ) (r : Fin 8192) : ℝ := max (Real.sqrt (∑ k, X r k * X r k)) eps

theorem rowNorm_pos (X : Fin 8192 → Fin 512 → ℝ) (r : Fin 8192) : 0 < rowNorm X r :=
  lt_of_lt_of_le eps_pos (le_max_right _ _)

/-- The normalised rows. -/
def unitRow (X : Fin 8192 → Fin 512 → ℝ) (r : Fin 8192) (k : Fin 512) : ℝ := X r k / rowNorm X r

/-- The first view: normalised rows 0 … 4095. -/
def viewA (X : Fin 8192 → Fin 512 → ℝ) (i : Fin 4096) : Fin 512 → ℝ := unitRow X ⟨i.val, by omega⟩
/-- The second view: normalised rows 4096 … 8191. -/
def viewB (X : Fin 8192 → Fin 512 → ℝ) (i : Fin 4096) : Fin 512 → ℝ := unitRow X ⟨4096 + i.val, by omega⟩

/-- The similarity of two rows. -/
def dot (u v : Fin 512 → ℝ) : ℝ := ∑ d, u d * v d

/-- Row i's sum of exponentials of its 8192 logits: the cross view's, then its own view's with its own entry replaced. -/
def expSum (P Q : Fin 4096 → Fin 512 → ℝ) (i : Fin 4096) : ℝ :=
  (∑ k, Real.exp (scale * dot (P i) (Q k))) + ∑ k, Real.exp (if k = i then neg else scale * dot (P i) (P k))

/-- One cross-entropy: the mean over the rows of log-sum-exp minus the positive logit. -/
def crossEntropy (P Q : Fin 4096 → Fin 512 → ℝ) : ℝ :=
  (∑ i, (Real.log (expSum P Q i) - scale * dot (P i) (Q i))) / 4096

/-- The loss. -/
def loss (X : Fin 8192 → Fin 512 → ℝ) : ℝ :=
  crossEntropy (viewA X) (viewB X) + crossEntropy (viewB X) (viewA X)

theorem expSum_pos (P Q : Fin 4096 → Fin 512 → ℝ) (i : Fin 4096) : 0 < expSum P Q i := by
  unfold expSum
  have h1 : 0 < ∑ k : Fin 4096, Real.exp (scale * dot (P i) (Q k)) :=
    Finset.sum_pos (fun k _ => Real.exp_pos _) ⟨⟨0, by omega⟩, Finset.mem_univ _⟩
  have h2 : 0 ≤ ∑ k : Fin 4096, Real.exp (if k = i then neg else scale * dot (P i) (P k)) :=
    Finset.sum_nonneg fun k _ => (Real.exp_pos _).le
  linarith

end Cert.LossSpec

end
-- ==== Proof.Analysis.Words.lean ====
/-
  The float words the two programs spell, as the extended reals they denote.

  A single-precision word with sign bit σ, exponent field E (neither 0 nor 255) and fraction field T denotes
  (−1)^σ · (2²³ + T) · 2^(E − 150). Each word is read once, here:
    0x41280000 = 21/2,  0x45800000 = 4096,  0xC77FE000 = −65504,  0x2B8CBCCC = 9223372 · 2⁻⁶³,
    0x3DCCCCCD = 13421773 · 2⁻²⁷,  0x00000000 = 0,  0x7F800000 = +∞,  0xFF800000 = −∞.
-/
import Idealize.ShloMosaic.PureOps.Ideal
import Idealize.ShloMosaic.PureOps.Ideal.Laws

noncomputable section

namespace Cert.Analysis

open Idealize.ShloMosaic

/-- 0x00000000 is 0. -/
theorem word_zero : Ideal.ofBits .f32 0x00000000#32 = ((0 : ℝ) : EReal) := by
  rw [Ideal.ofBits_zero_f32, EReal.coe_zero]

/-- 0x7F800000 is +∞. -/
theorem word_top : Ideal.ofBits .f32 0x7F800000#32 = ⊤ := by
  simp [Ideal.ofBits, Ideal.ieee]

/-- 0xFF800000 is −∞. -/
theorem word_bot : Ideal.ofBits .f32 0xFF800000#32 = ⊥ := by
  simp [Ideal.ofBits, Ideal.ieee]

/-- 0x41280000 is 21/2, the static shift. -/
theorem word_10_5 : Ideal.ofBits .f32 0x41280000#32 = ((21 / 2 : ℝ) : EReal) := by
  simp [Ideal.ofBits, Ideal.ieee, -EReal.coe_mul]; norm_num

/-- 0x45800000 is 4096, the number of rows of a view. -/
theorem word_4096 : Ideal.ofBits .f32 0x45800000#32 = ((4096 : ℝ) : EReal) := by
  simp [Ideal.ofBits, Ideal.ieee, -EReal.coe_mul]; norm_num

/-- 0xC77FE000 is −65504, the value that replaces a row's similarity with itself. -/
theorem word_neg : Ideal.ofBits .f32 0xC77FE000#32 = ((-65504 : ℝ) : EReal) := by
  simp [Ideal.ofBits, Ideal.ieee, -EReal.coe_mul]; norm_num

/-- 0x2B8CBCCC is 9223372 · 2⁻⁶³, the clamp of the norms. -/
theorem word_eps : Ideal.ofBits .f32 0x2B8CBCCC#32 = ((9223372 / 2 ^ 63 : ℝ) : EReal) := by
  simp [Ideal.ofBits, Ideal.ieee, -EReal.coe_mul]; norm_num

/-- 0x3DCCCCCD is 13421773 · 2⁻²⁷, the temperature. -/
theorem word_tenth : Ideal.ofBits .f32 0x3DCCCCCD#32 = ((13421773 / 2 ^ 27 : ℝ) : EReal) := by
  simp [Ideal.ofBits, Ideal.ieee, -EReal.coe_mul]; norm_num

end Cert.Analysis

end
-- ==== Proof.Analysis.IdealReal.lean ====
/-
  On real numbers every operation of the extended-real instance is the real one.

  The extended reals carry ±∞, but both programs, on finite inputs, only ever meet real numbers: sums, differences,
  products, maxima and negations of reals are reals; a quotient by a nonzero real, the exponential, the logarithm of
  a positive real and the square root of a nonnegative real are the real ones. The two named constants denote the
  rationals the table gives them, and the quotient by the temperature word is the product with the scale.
-/
import Idealize.ShloMosaic.PureOps.Ideal
import Idealize.ShloMosaic.PureOps.Ideal.Laws
import proofs.«117558_j62045097558541_2_alg».proof.KernelIdeal
import proofs.«117558_j62045097558541_2_alg».proof.Proof.LossSpec
import proofs.«117558_j62045097558541_2_alg».proof.Proof.Analysis.Words

noncomputable section

namespace Cert.Analysis

open Idealize.ShloMosaic

/-! ## The operations on reals, as the extended reals' own operations -/

theorem addf_coe (a b : ℝ) : ((a : ℝ) : EReal) + ((b : ℝ) : EReal) = ((a + b : ℝ) : EReal) :=
  (EReal.coe_add a b).symm

theorem subf_coe (a b : ℝ) : ((a : ℝ) : EReal) - ((b : ℝ) : EReal) = ((a - b : ℝ) : EReal) :=
  (EReal.coe_sub a b).symm

theorem mulf_coe (a b : ℝ) : ((a : ℝ) : EReal) * ((b : ℝ) : EReal) = ((a * b : ℝ) : EReal) :=
  (EReal.coe_mul a b).symm

theorem negf_coe (a : ℝ) : -((a : ℝ) : EReal) = ((-a : ℝ) : EReal) :=
  (EReal.coe_neg a).symm

theorem maximumf_coe (a b : ℝ) : max ((a : ℝ) : EReal) ((b : ℝ) : EReal) = ((max a b : ℝ) : EReal) :=
  (EReal.coe_strictMono.monotone.map_max (a := a) (b := b)).symm

/-- The quotient by a nonzero real is the real quotient. -/
theorem divf_coe (a : ℝ) {b : ℝ} (hb : b ≠ 0) :
    Ideal.div ((a : ℝ) : EReal) ((b : ℝ) : EReal) = ((a / b : ℝ) : EReal) := by
  rw [Ideal.div_coe hb, ← EReal.coe_mul, mul_one_div]

theorem exp_coe (a : ℝ) : Ideal.exp ((a : ℝ) : EReal) = ((Real.exp a : ℝ) : EReal) := rfl

/-- The logarithm of a positive real is the real logarithm. -/
theorem log_coe {a : ℝ} (ha : 0 < a) : Ideal.log ((a : ℝ) : EReal) = ((Real.log a : ℝ) : EReal) := by
  rw [Ideal.log_coe, if_neg (not_le.2 ha)]

/-- The square root of a nonnegative real is the real square root. -/
theorem sqrt_coe {a : ℝ} (ha : 0 ≤ a) : Ideal.sqrt ((a : ℝ) : EReal) = ((Real.sqrt a : ℝ) : EReal) := by
  rw [Ideal.sqrt_coe, if_neg (not_lt.2 ha)]

/-- A finite sum of reals is the real sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, ← EReal.coe_add]

/-! ## The same, spelt with the float operations' names -/

section Fields

variable {φ : FTy}

theorem addf_coe' (a b : ℝ) :
    FloatOps.addf (F := Ideal) (φ := φ) ((a : ℝ) : EReal) ((b : ℝ) : EReal) = ((a + b : ℝ) : EReal) := addf_coe a b
theorem subf_coe' (a b : ℝ) :
    FloatOps.subf (F := Ideal) (φ := φ) ((a : ℝ) : EReal) ((b : ℝ) : EReal) = ((a - b : ℝ) : EReal) := subf_coe a b
theorem mulf_coe' (a b : ℝ) :
    FloatOps.mulf (F := Ideal) (φ := φ) ((a : ℝ) : EReal) ((b : ℝ) : EReal) = ((a * b : ℝ) : EReal) := mulf_coe a b
theorem negf_coe' (a : ℝ) :
    FloatOps.negf (F := Ideal) (φ := φ) ((a : ℝ) : EReal) = ((-a : ℝ) : EReal) := negf_coe a
theorem hostNegf_coe' (a : ℝ) :
    FloatOps.hostNegf (F := Ideal) (φ := φ) ((a : ℝ) : EReal) = ((-a : ℝ) : EReal) := negf_coe a
theorem maximumf_coe' (a b : ℝ) :
    FloatOps.maximumf (F := Ideal) (φ := φ) ((a : ℝ) : EReal) ((b : ℝ) : EReal) = ((max a b : ℝ) : EReal) :=
  maximumf_coe a b
theorem divf_coe' (a : ℝ) {b : ℝ} (hb : b ≠ 0) :
    FloatOps.divf (F := Ideal) (φ := φ) ((a : ℝ) : EReal) ((b : ℝ) : EReal) = ((a / b : ℝ) : EReal) := divf_coe a hb
theorem hostDivf_coe' (a : ℝ) {b : ℝ} (hb : b ≠ 0) :
    FloatOps.hostDivf (F := Ideal) (φ := φ) ((a : ℝ) : EReal) ((b : ℝ) : EReal) = ((a / b : ℝ) : EReal) := divf_coe a hb
theorem exp_coe' (a : ℝ) :
    FloatOps.exp (F := Ideal) (φ := φ) ((a : ℝ) : EReal) = ((Real.exp a : ℝ) : EReal) := rfl
theorem hostExp_coe' (a : ℝ) :
    FloatOps.hostUnary (F := Ideal) (φ := φ) .exp ((a : ℝ) : EReal) = ((Real.exp a : ℝ) : EReal) := rfl
theorem log_coe' {a : ℝ} (ha : 0 < a) :
    FloatOps.log (F := Ideal) (φ := φ) ((a : ℝ) : EReal) = ((Real.log a : ℝ) : EReal) := log_coe ha
theorem hostLog_coe' {a : ℝ} (ha : 0 < a) :
    FloatOps.hostUnary (F := Ideal) (φ := φ) .log ((a : ℝ) : EReal) = ((Real.log a : ℝ) : EReal) := log_coe ha
theorem sqrt_coe' {a : ℝ} (ha : 0 ≤ a) :
    FloatOps.sqrt (F := Ideal) (φ := φ) ((a : ℝ) : EReal) = ((Real.sqrt a : ℝ) : EReal) := sqrt_coe ha
theorem hostSqrt_coe' {a : ℝ} (ha : 0 ≤ a) :
    FloatOps.hostUnary (F := Ideal) (φ := φ) .sqrt ((a : ℝ) : EReal) = ((Real.sqrt a : ℝ) : EReal) := sqrt_coe ha

/-- A scalar constant is the word's value. -/
theorem scalar_ofBits (b : BitVec φ.bits) : Scalar.ofBits (F := Ideal) φ b = Ideal.ofBits φ b := rfl

end Fields

/-! ## The words, in the specification's names -/

theorem word_eps' : Ideal.ofBits .f32 0x2B8CBCCC#32 = ((Cert.LossSpec.eps : ℝ) : EReal) := word_eps
theorem word_neg' : Ideal.ofBits .f32 0xC77FE000#32 = ((Cert.LossSpec.neg : ℝ) : EReal) := word_neg

/-- The quotient by the temperature word is the product with the scale. -/
theorem div_tenth (a : ℝ) :
    Ideal.div ((a : ℝ) : EReal) (Ideal.ofBits .f32 0x3DCCCCCD#32) = ((Cert.LossSpec.scale * a : ℝ) : EReal) := by
  rw [word_tenth, divf_coe a (by norm_num)]
  congr 1
  unfold Cert.LossSpec.scale
  field_simp
  norm_num

/-! ## The two named constants -/

/-- The named scale denotes the rational the table gives it: the reciprocal of the temperature word. -/
theorem named_scale :
    Named.named (F := Ideal) Cert.KernelIdeal.κ "inv_temperature" (φ := .f32) 0x41200000#32
      = ((134217728 / 13421773 : ℝ) : EReal) :=
  IdealRules.named_const.ideal_named_scalar _ _ _ _ rfl

theorem named_scale' :
    Named.named (F := Ideal) Cert.KernelIdeal.κ "inv_temperature" (φ := .f32) 0x41200000#32
      = ((Cert.LossSpec.scale : ℝ) : EReal) := named_scale

/-- The named floor under the shifted sums denotes 10⁻³⁰. -/
theorem named_floor :
    Named.named (F := Ideal) Cert.KernelIdeal.κ "inv_1000000000000000000000000000000" (φ := .f32) 0x0DA24260#32
      = ((1 / 1000000000000000000000000000000 : ℝ) : EReal) :=
  IdealRules.named_const.ideal_named_scalar _ _ _ _ rfl

end Cert.Analysis

end
-- ==== Proof.Analysis.SpecReal.lean ====
/-
  The specification's building blocks, met on the extended reals.

  With the argument an array of reals, a row's sum of squares, its clamped norm, the normalised entries and the
  similarity of two rows are, computed with the extended reals' operations, the images of the specification's
  real numbers.
-/
import proofs.«117558_j62045097558541_2_alg».proof.Proof.Analysis.IdealReal

noncomputable section

namespace Cert.Analysis

open Idealize.ShloMosaic Cert.LossSpec

/-- A sum of products of reals is the real sum of products. -/
theorem sum_mul_coe {ι : Type*} (s : Finset ι) (f g : ι → ℝ) :
    ∑ d ∈ s, ((f d : ℝ) : EReal) * ((g d : ℝ) : EReal) = ((∑ d ∈ s, f d * g d : ℝ) : EReal) := by
  rw [← sum_coe]
  exact Finset.sum_congr rfl fun d _ => mulf_coe _ _

/-- The similarity of two rows of reals. -/
theorem dot_coe (u v : Fin 512 → ℝ) :
    ∑ d, ((u d : ℝ) : EReal) * ((v d : ℝ) : EReal) = ((dot u v : ℝ) : EReal) :=
  sum_mul_coe _ u v

/-- A row's sum of squares. -/
theorem sumsq_coe (X : Fin 8192 → Fin 512 → ℝ) (r : Fin 8192) :
    ∑ d, ((X r d : ℝ) : EReal) * ((X r d : ℝ) : EReal) = ((∑ d, X r d * X r d : ℝ) : EReal) :=
  sum_mul_coe _ _ _

/-- A row's clamped norm: the larger of the square root of the sum of squares and the clamp word. -/
theorem rowNorm_coe (X : Fin 8192 → Fin 512 → ℝ) (r : Fin 8192) :
    max (Ideal.sqrt ((∑ d, X r d * X r d : ℝ) : EReal)) (Ideal.ofBits .f32 0x2B8CBCCC#32)
      = ((rowNorm X r : ℝ) : EReal) := by
  rw [sqrt_coe (Finset.sum_nonneg fun d _ => mul_self_nonneg _), word_eps', maximumf_coe]
  rfl

/-- A normalised entry: the quotient by the clamped norm, which is not zero. -/
theorem unitRow_coe (X : Fin 8192 → Fin 512 → ℝ) (r : Fin 8192) (k : Fin 512) :
    Ideal.div ((X r k : ℝ) : EReal) ((rowNorm X r : ℝ) : EReal) = ((unitRow X r k : ℝ) : EReal) :=
  divf_coe _ (rowNorm_pos X r).ne'

end Cert.Analysis

end
-- ==== Proof.KReal.Tiles.lean ====
/-
  A tile's shares over arrays of reals.

  When the two entry arrays hold real numbers, the scaled similarity of two rows, a column tile's share of a row's
  shifted sum of exponentials and its share of the positive logit are real numbers: the extended reals' operations
  on them are the reals' own, the shift and the mask value are the words' values and the scale is the named constant's.
-/
import proofs.«117558_j62045097558541_2_alg».proof.Proof.KValue.Steps
import proofs.«117558_j62045097558541_2_alg».proof.Proof.Analysis.SpecReal

noncomputable section

namespace Cert.KernelIdeal.KReal

open Idealize.ShloMosaic Idealize.ShloMosaic.ValueIdx
open Cert.KernelIdeal Cert.KernelIdeal.KValue Cert.LossSpec Cert.Analysis
open scoped BigOperators

/-- The shift is 21/2. -/
theorem wShift_eq : wShift = ((21 / 2 : ℝ) : EReal) := word_10_5
/-- The mask value is −65504. -/
theorem wMask_eq : wMask = ((neg : ℝ) : EReal) := word_neg'
/-- The scale is the reciprocal of the temperature word. -/
theorem wScale_eq : wScale = ((scale : ℝ) : EReal) := named_scale'
/-- The floor is 10⁻³⁰. -/
theorem wFloor_eq : wFloor = ((1 / 1000000000000000000000000000000 : ℝ) : EReal) := named_floor

variable (A B : Vec Ideal S4096x512 .bf16) (P Q : Fin 4096 → Fin 512 → ℝ)
variable (hA : ∀ i d, A (ix2 i d) = ((P i d : ℝ) : EReal)) (hB : ∀ i d, B (ix2 i d) = ((Q i d : ℝ) : EReal))

include hA hB in
/-- The scaled similarity of two rows of reals. -/
theorem sim_coe (i k : Fin 4096) : sim A B i k = ((scale * dot (P i) (Q k) : ℝ) : EReal) := by
  unfold sim
  simp only [hA, hB]
  rw [dot_coe, wScale_eq, mulf_coe, mul_comm]

include hA hB in
/-- A column tile's share of the shifted sum of exponentials. -/
theorem tileLse_coe (i : Fin 4096) (j : ℕ) :
    tileLse A B i j
      = (((∑ k : Fin 512, Real.exp (scale * dot (P i) (Q (row (512 * j + k.val))) - 21 / 2))
          + ∑ k : Fin 512,
              Real.exp ((if i.val = 512 * j + k.val then neg else scale * dot (P i) (P (row (512 * j + k.val)))) - 21 / 2)
          : ℝ) : EReal) := by
  unfold tileLse
  rw [EReal.coe_add, ← sum_coe, ← sum_coe]
  congr 1
  · refine Finset.sum_congr rfl fun k _ => ?_
    rw [sim_coe A B P Q hA hB, wShift_eq, subf_coe, exp_coe]
  · refine Finset.sum_congr rfl fun k _ => ?_
    by_cases h : i.val = 512 * j + k.val
    · simp only [if_pos h]
      rw [wMask_eq, wShift_eq, subf_coe, exp_coe]
    · simp only [if_neg h]
      rw [sim_coe A A P P hA hA, wShift_eq, subf_coe, exp_coe]

include hA hB in
/-- A column tile's share of the positive logit. -/
theorem tilePos_coe (i : Fin 4096) (j : ℕ) :
    tilePos A B i j
      = ((∑ k : Fin 512, (if i.val = 512 * j + k.val then scale * dot (P i) (Q (row (512 * j + k.val))) else 0)
          : ℝ) : EReal) := by
  unfold tilePos
  rw [← sum_coe]
  refine Finset.sum_congr rfl fun k _ => ?_
  by_cases h : i.val = 512 * j + k.val
  · simp only [if_pos h]
    exact sim_coe A B P Q hA hB _ _
  · simp only [if_neg h]
    exact EReal.coe_zero.symm

end Cert.KernelIdeal.KReal

end
-- ==== Proof.Analysis.Bounds.lean ====
/-
  Bounds on the similarities.

  A normalised row has sum of squares at most 1: its norm is at least the square root of the row's sum of squares
  (and at least ε > 0, so the quotient is defined). Two vectors of sum of squares at most 1 have inner product in
  [−1, 1], since |u v| ≤ (u² + v²)/2 term by term. Hence every scaled similarity of two rows of the views lies in
  [−s, s].
-/
import proofs.«117558_j62045097558541_2_alg».proof.Proof.LossSpec

noncomputable section

namespace Cert.Analysis

open Finset Cert.LossSpec

/-- The clamped norm is at least the square root of the row's sum of squares. -/
theorem sqrt_sumsq_le_rowNorm (X : Fin 8192 → Fin 512 → ℝ) (r : Fin 8192) :
    Real.sqrt (∑ k, X r k * X r k) ≤ rowNorm X r := le_max_left _ _

/-- A row's sum of squares is at most the square of its clamped norm. -/
theorem sumsq_le_rowNorm_sq (X : Fin 8192 → Fin 512 → ℝ) (r : Fin 8192) :
    ∑ k, X r k * X r k ≤ rowNorm X r * rowNorm X r := by
  have h0 : 0 ≤ ∑ k, X r k * X r k := Finset.sum_nonneg fun k _ => mul_self_nonneg _
  calc ∑ k, X r k * X r k
      = Real.sqrt (∑ k, X r k * X r k) * Real.sqrt (∑ k, X r k * X r k) := (Real.mul_self_sqrt h0).symm
    _ ≤ rowNorm X r * rowNorm X r :=
        mul_self_le_mul_self (Real.sqrt_nonneg _) (sqrt_sumsq_le_rowNorm X r)

/-- A normalised row has sum of squares at most 1. -/
theorem unitRow_sumsq_le_one (X : Fin 8192 → Fin 512 → ℝ) (r : Fin 8192) :
    ∑ k, unitRow X r k * unitRow X r k ≤ 1 := by
  have hp := rowNorm_pos X r
  have e : ∑ k, unitRow X r k * unitRow X r k = (∑ k, X r k * X r k) / (rowNorm X r * rowNorm X r) := by
    rw [Finset.sum_div]
    refine Finset.sum_congr rfl fun k _ => ?_
    unfold unitRow
    rw [div_mul_div_comm]
  rw [e, div_le_one (mul_pos hp hp)]
  exact sumsq_le_rowNorm_sq X r

/-- Two vectors of sum of squares at most 1 have inner product in [−1, 1]. -/
theorem abs_dot_le_one (u v : Fin 512 → ℝ) (hu : ∑ d, u d * u d ≤ 1) (hv : ∑ d, v d * v d ≤ 1) :
    |dot u v| ≤ 1 := by
  unfold dot
  rw [abs_le]
  have h1 : ∀ d, u d * v d ≤ (u d * u d + v d * v d) / 2 := fun d => by
    nlinarith [mul_self_nonneg (u d - v d)]
  have h2 : ∀ d, -((u d * u d + v d * v d) / 2) ≤ u d * v d := fun d => by
    nlinarith [mul_self_nonneg (u d + v d)]
  have hs : ∑ d, (u d * u d + v d * v d) / 2 ≤ 1 := by
    rw [← Finset.sum_div, Finset.sum_add_distrib]
    linarith
  constructor
  · calc (-1 : ℝ) ≤ -∑ d, (u d * u d + v d * v d) / 2 := by linarith
      _ = ∑ d, -((u d * u d + v d * v d) / 2) := by rw [Finset.sum_neg_distrib]
      _ ≤ ∑ d, u d * v d := Finset.sum_le_sum fun d _ => h2 d
  · exact (Finset.sum_le_sum fun d _ => h1 d).trans hs

/-- The similarity of two normalised rows lies in [−1, 1]. -/
theorem abs_dot_unitRow_le_one (X : Fin 8192 → Fin 512 → ℝ) (r r' : Fin 8192) :
    |dot (unitRow X r) (unitRow X r')| ≤ 1 :=
  abs_dot_le_one _ _ (unitRow_sumsq_le_one X r) (unitRow_sumsq_le_one X r')

/-- A view of X: a family of 4096 normalised rows of X. -/
def IsView (X : Fin 8192 → Fin 512 → ℝ) (P : Fin 4096 → Fin 512 → ℝ) : Prop :=
  ∀ i, ∃ r, P i = unitRow X r

theorem isView_viewA (X : Fin 8192 → Fin 512 → ℝ) : IsView X (viewA X) := fun _ => ⟨_, rfl⟩
theorem isView_viewB (X : Fin 8192 → Fin 512 → ℝ) : IsView X (viewB X) := fun _ => ⟨_, rfl⟩

/-- The similarity of a row of one view with a row of another lies in [−1, 1]. -/
theorem abs_dot_view_le_one {X : Fin 8192 → Fin 512 → ℝ} {P Q : Fin 4096 → Fin 512 → ℝ}
    (hP : IsView X P) (hQ : IsView X Q) (i k : Fin 4096) : |dot (P i) (Q k)| ≤ 1 := by
  obtain ⟨r, hr⟩ := hP i
  obtain ⟨r', hr'⟩ := hQ k
  rw [hr, hr']
  exact abs_dot_unitRow_le_one X r r'

/-- A scaled similarity is at least −s. -/
theorem neg_scale_le_logit {X : Fin 8192 → Fin 512 → ℝ} {P Q : Fin 4096 → Fin 512 → ℝ}
    (hP : IsView X P) (hQ : IsView X Q) (i k : Fin 4096) : -scale ≤ scale * dot (P i) (Q k) := by
  have h := (abs_le.1 (abs_dot_view_le_one hP hQ i k)).1
  nlinarith [scale_pos]

/-- A scaled similarity is at most s. -/
theorem logit_le_scale {X : Fin 8192 → Fin 512 → ℝ} {P Q : Fin 4096 → Fin 512 → ℝ}
    (hP : IsView X P) (hQ : IsView X Q) (i k : Fin 4096) : scale * dot (P i) (Q k) ≤ scale := by
  have h := (abs_le.1 (abs_dot_view_le_one hP hQ i k)).2
  nlinarith [scale_pos]

end Cert.Analysis

end
-- ==== Proof.Analysis.Shift.lean ====
/-
  The static shift of a log-sum-exp, and why the floor under the shifted sum never acts.

  For any finite nonempty family of reals L and any M, M + log Σ exp(L − M) = log Σ exp L, since exp L = exp M · exp(L − M).
  The shifted sum of a row's 8192 logits, with M = 21/2, is at least one of its terms, exp(s·⟨P i, Q i⟩ − 21/2) ≥
  exp(−s − 21/2) ≥ exp(−21) > 3⁻²¹ > 10⁻³⁰, so the maximum of the sum and 10⁻³⁰ is the sum.
-/
import proofs.«117558_j62045097558541_2_alg».proof.Proof.LossSpec
import proofs.«117558_j62045097558541_2_alg».proof.Proof.Analysis.Bounds

noncomputable section

namespace Cert.Analysis

open Finset Cert.LossSpec

/-- The static shift: M + log Σ exp(L − M) = log Σ exp L over a finite nonempty family. -/
theorem shift_log_sum_exp {ι : Type*} [Fintype ι] [Nonempty ι] (L : ι → ℝ) (M : ℝ) :
    M + Real.log (∑ k, Real.exp (L k - M)) = Real.log (∑ k, Real.exp (L k)) := by
  have hpos : 0 < ∑ k, Real.exp (L k - M) :=
    Finset.sum_pos (fun k _ => Real.exp_pos _) Finset.univ_nonempty
  have e : ∑ k, Real.exp (L k) = Real.exp M * ∑ k, Real.exp (L k - M) := by
    rw [Finset.mul_sum]
    refine Finset.sum_congr rfl fun k _ => ?_
    rw [← Real.exp_add]
    congr 1
    ring
  rw [e, Real.log_mul (Real.exp_pos M).ne' hpos.ne', Real.log_exp]

/-- The static shift over two families summed separately, the first nonempty. -/
theorem shift_log_two_sums {ι κ : Type*} [Fintype ι] [Fintype κ] [Nonempty ι] (L : ι → ℝ) (L' : κ → ℝ) (M : ℝ) :
    M + Real.log ((∑ k, Real.exp (L k - M)) + ∑ k, Real.exp (L' k - M))
      = Real.log ((∑ k, Real.exp (L k)) + ∑ k, Real.exp (L' k)) := by
  have hpos : 0 < (∑ k, Real.exp (L k - M)) + ∑ k, Real.exp (L' k - M) :=
    add_pos_of_pos_of_nonneg (Finset.sum_pos (fun k _ => Real.exp_pos _) Finset.univ_nonempty)
      (Finset.sum_nonneg fun k _ => (Real.exp_pos _).le)
  have e : (∑ k, Real.exp (L k)) + ∑ k, Real.exp (L' k)
      = Real.exp M * ((∑ k, Real.exp (L k - M)) + ∑ k, Real.exp (L' k - M)) := by
    rw [mul_add, Finset.mul_sum, Finset.mul_sum]
    congr 1 <;>
    · refine Finset.sum_congr rfl fun k _ => ?_
      rw [← Real.exp_add]
      congr 1
      ring
  rw [e, Real.log_mul (Real.exp_pos M).ne' hpos.ne', Real.log_exp]

/-- exp(−21) is above 10⁻³⁰: e < 3 and 3²¹ < 10³⁰. -/
theorem floor_le_exp_neg_21 : (1 / 1000000000000000000000000000000 : ℝ) ≤ Real.exp (-21) := by
  have he : Real.exp 1 < 3 := lt_trans Real.exp_one_lt_d9 (by norm_num)
  have h21 : Real.exp 21 = Real.exp 1 ^ 21 := by
    rw [← Real.exp_nat_mul]
    norm_num
  have hlt : Real.exp 21 < 3 ^ 21 := by
    rw [h21]
    exact pow_lt_pow_left₀ he (Real.exp_pos 1).le (by norm_num)
  rw [Real.exp_neg, ← one_div]
  apply one_div_le_one_div_of_le (Real.exp_pos _)
  have h3 : (3 : ℝ) ^ 21 ≤ 1000000000000000000000000000000 := by norm_num
  linarith

/-- The scale is below the shift 21/2. -/
theorem scale_le_shift : scale ≤ 21 / 2 := by
  unfold scale
  norm_num

/-- Row i's shifted sum of exponentials, in the order it is accumulated: the cross view's 4096 terms, then its own
    view's with its own entry replaced. -/
def shiftedSum (P Q : Fin 4096 → Fin 512 → ℝ) (i : Fin 4096) : ℝ :=
  (∑ k, Real.exp (scale * dot (P i) (Q k) - 21 / 2))
    + ∑ k, Real.exp ((if k = i then neg else scale * dot (P i) (P k)) - 21 / 2)

/-- The floor 10⁻³⁰ is below the shifted sum. -/
theorem floor_le_shiftedSum {X : Fin 8192 → Fin 512 → ℝ} {P Q : Fin 4096 → Fin 512 → ℝ}
    (hP : IsView X P) (hQ : IsView X Q) (i : Fin 4096) :
    (1 / 1000000000000000000000000000000 : ℝ) ≤ shiftedSum P Q i := by
  unfold shiftedSum
  have hterm : Real.exp (-21) ≤ Real.exp (scale * dot (P i) (Q i) - 21 / 2) := by
    apply Real.exp_le_exp.2
    have h1 := neg_scale_le_logit hP hQ i i
    have h2 := scale_le_shift
    linarith
  have hsum : Real.exp (scale * dot (P i) (Q i) - 21 / 2)
      ≤ ∑ k, Real.exp (scale * dot (P i) (Q k) - 21 / 2) :=
    Finset.single_le_sum (f := fun k => Real.exp (scale * dot (P i) (Q k) - 21 / 2))
      (fun k _ => (Real.exp_pos _).le) (Finset.mem_univ i)
  have hnn : 0 ≤ ∑ k, Real.exp ((if k = i then neg else scale * dot (P i) (P k)) - 21 / 2) :=
    Finset.sum_nonneg fun k _ => (Real.exp_pos _).le
  have hf := floor_le_exp_neg_21
  linarith

/-- The floor never acts: the maximum of the shifted sum and 10⁻³⁰ is the shifted sum. -/
theorem max_shiftedSum_floor {X : Fin 8192 → Fin 512 → ℝ} {P Q : Fin 4096 → Fin 512 → ℝ}
    (hP : IsView X P) (hQ : IsView X Q) (i : Fin 4096) :
    max (shiftedSum P Q i) (1 / 1000000000000000000000000000000 : ℝ) = shiftedSum P Q i :=
  max_eq_left (floor_le_shiftedSum hP hQ i)

/-- The shifted sum is positive. -/
theorem shiftedSum_pos (P Q : Fin 4096 → Fin 512 → ℝ) (i : Fin 4096) : 0 < shiftedSum P Q i := by
  unfold shiftedSum
  exact add_pos_of_pos_of_nonneg
    (Finset.sum_pos (fun k _ => Real.exp_pos _) ⟨⟨0, by omega⟩, Finset.mem_univ _⟩)
    (Finset.sum_nonneg fun k _ => (Real.exp_pos _).le)

/-- The shift added back to the logarithm of the shifted sum is the row's log-sum-exp. -/
theorem shift_add_log_shiftedSum (P Q : Fin 4096 → Fin 512 → ℝ) (i : Fin 4096) :
    21 / 2 + Real.log (shiftedSum P Q i) = Real.log (expSum P Q i) := by
  unfold shiftedSum expSum
  exact shift_log_two_sums (fun k => scale * dot (P i) (Q k))
    (fun k => if k = i then neg else scale * dot (P i) (P k)) (21 / 2)

/-- The kernel's accumulated row value: the shift plus the logarithm of the floored shifted sum is the row's
    log-sum-exp. -/
theorem shift_add_log_max_shiftedSum {X : Fin 8192 → Fin 512 → ℝ} {P Q : Fin 4096 → Fin 512 → ℝ}
    (hP : IsView X P) (hQ : IsView X Q) (i : Fin 4096) :
    21 / 2 + Real.log (max (shiftedSum P Q i) (1 / 1000000000000000000000000000000 : ℝ))
      = Real.log (expSum P Q i) := by
  rw [max_shiftedSum_floor hP hQ i, shift_add_log_shiftedSum]

end Cert.Analysis

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.KReal.Regroup.lean ====
/-
  The eight column tiles of a row, put back together.

  The kernel walks a row's 4096 columns as 8 tiles of 512: column 512·j + k is member k of tile j. A sum over the
  4096 columns is the sum over the tiles of the sums over each tile's members. So the eight tiles' shares of a row's
  shifted sum of exponentials add up to the row's shifted sum, and the eight tiles' shares of the positive logit
  (each tile contributes the cross similarity with the row of the same number, if it holds it) add up to that one
  similarity.
-/
import proofs.«117558_j62045097558541_2_alg».proof.Proof.LossSpec
import proofs.«117558_j62045097558541_2_alg».proof.Proof.Analysis.Shift
import proofs.«117558_j62045097558541_2_alg».proof.Proof.LibFinGroups

noncomputable section

namespace Cert.KernelIdeal.KReal

open Finset Cert.LossSpec Cert.Analysis

/-- A sum over the 4096 columns, grouped into 8 tiles of 512. -/
theorem sum_rows_tiles (f : ℕ → ℝ) :
    ∑ k : Fin 4096, f k.val = ∑ j ∈ Finset.range 8, ∑ k : Fin 512, f (512 * j + k.val) := by
  rw [Finset.sum_range]
  exact Cert.Lib.FinGroups.sum_fin_groups 8 512 f

variable (P Q : Fin 4096 → Fin 512 → ℝ) (i : Fin 4096)
variable (ρ : ℕ → Fin 4096) (hρ : ∀ n, n < 4096 → (ρ n).val = n)

include hρ in
/-- The eight tiles' shares of the shifted sum of exponentials add up to the row's shifted sum; ρ names a row by its
    number. -/
theorem tiles_shiftedSum :
    ∑ j ∈ Finset.range 8,
        ((∑ k : Fin 512, Real.exp (scale * dot (P i) (Q (ρ (512 * j + k.val))) - 21 / 2))
          + ∑ k : Fin 512,
              Real.exp ((if i.val = 512 * j + k.val then neg else scale * dot (P i) (P (ρ (512 * j + k.val)))) - 21 / 2))
      = shiftedSum P Q i := by
  have hρ' : ∀ k : Fin 4096, ρ k.val = k := fun k => Fin.ext (hρ _ k.isLt)
  unfold shiftedSum
  rw [Finset.sum_add_distrib]
  congr 1
  · refine (sum_rows_tiles (fun n => Real.exp (scale * dot (P i) (Q (ρ n)) - 21 / 2))).symm.trans ?_
    exact Finset.sum_congr rfl fun k _ => by rw [hρ']
  · refine (sum_rows_tiles
      (fun n => Real.exp ((if i.val = n then neg else scale * dot (P i) (P (ρ n))) - 21 / 2))).symm.trans ?_
    refine Finset.sum_congr rfl fun k _ => ?_
    rw [hρ']
    by_cases h : k = i
    · rw [if_pos h, if_pos (by rw [h])]
    · rw [if_neg h, if_neg (fun e => h (Fin.ext e.symm))]

include hρ in
/-- The eight tiles' shares of the positive logit add up to the cross similarity with the row of the same number. -/
theorem tiles_pos :
    ∑ j ∈ Finset.range 8,
        ∑ k : Fin 512, (if i.val = 512 * j + k.val then scale * dot (P i) (Q (ρ (512 * j + k.val))) else 0)
      = scale * dot (P i) (Q i) := by
  have hρ' : ∀ k : Fin 4096, ρ k.val = k := fun k => Fin.ext (hρ _ k.isLt)
  refine (sum_rows_tiles (fun n => if i.val = n then scale * dot (P i) (Q (ρ n)) else 0)).symm.trans ?_
  rw [Finset.sum_eq_single i]
  · rw [if_pos rfl, hρ']
  · intro k _ hk
    rw [if_neg (fun e => hk (Fin.ext e.symm))]
  · intro h
    exact absurd (Finset.mem_univ i) h

end Cert.KernelIdeal.KReal

end
-- ==== Proof.KReal.Rows.lean ====
/-
  A row's log-sum-exp and positive logit as the kernel accumulates them, over arrays of reals.

  The eight tiles' shares add up to the row's shifted sum of exponentials, a real number above the floor 10⁻³⁰; so the
  maximum with the floor is the sum itself, its logarithm is the real logarithm, and the shift added back gives the
  logarithm of the row's sum of exponentials. The eight tiles' shares of the positive logit add up to the scaled
  similarity with the cross view's row of the same number.
-/
import proofs.«117558_j62045097558541_2_alg».proof.Proof.KReal.Tiles
import proofs.«117558_j62045097558541_2_alg».proof.Proof.KReal.Regroup

noncomputable section

namespace Cert.KernelIdeal.KReal

open Idealize.ShloMosaic Idealize.ShloMosaic.ValueIdx
open Cert.KernelIdeal Cert.KernelIdeal.KValue Cert.LossSpec Cert.Analysis
open scoped BigOperators

variable (A B : Vec Ideal S4096x512 .bf16) (P Q : Fin 4096 → Fin 512 → ℝ)
variable (hA : ∀ i d, A (ix2 i d) = ((P i d : ℝ) : EReal)) (hB : ∀ i d, B (ix2 i d) = ((Q i d : ℝ) : EReal))

include hA hB in
/-- The eight tiles' shares of the shifted sum add up to the row's shifted sum. -/
theorem tiles_lse_coe (i : Fin 4096) :
    ∑ j ∈ Finset.range 8, tileLse A B i j = ((shiftedSum P Q i : ℝ) : EReal) := by
  rw [← tiles_shiftedSum P Q i row row_val, ← sum_coe]
  exact Finset.sum_congr rfl fun j _ => tileLse_coe A B P Q hA hB i j

include hA hB in
/-- The eight tiles' shares of the positive logit add up to the scaled cross similarity. -/
theorem tiles_pos_coe (i : Fin 4096) :
    ∑ j ∈ Finset.range 8, tilePos A B i j = ((scale * dot (P i) (Q i) : ℝ) : EReal) := by
  rw [← tiles_pos P Q i row row_val, ← sum_coe]
  exact Finset.sum_congr rfl fun j _ => tilePos_coe A B P Q hA hB i j

variable {X : Fin 8192 → Fin 512 → ℝ} (hP : IsView X P) (hQ : IsView X Q)

include hA hB hP hQ in
/-- The shift plus the logarithm of the floored sum of the eight tiles' shares is the row's log-sum-exp. -/
theorem row_lse_coe (i : Fin 4096) :
    wShift + Ideal.log (max (∑ j ∈ Finset.range 8, tileLse A B i j) wFloor)
      = ((Real.log (expSum P Q i) : ℝ) : EReal) := by
  rw [tiles_lse_coe A B P Q hA hB i, wFloor_eq, maximumf_coe,
    log_coe (lt_max_of_lt_left (shiftedSum_pos P Q i)), wShift_eq, addf_coe,
    shift_add_log_max_shiftedSum hP hQ i]

end Cert.KernelIdeal.KReal

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.Ref.Consts.lean ====
/-
  The float constants the reference spells, as the extended reals their bit patterns denote: the clamp of the norms,
  the temperature, the constant that replaces a self-similarity, and the number of rows of a view.
-/
import Idealize.ShloMosaic.PureOps.Ideal

noncomputable section

namespace Cert.Ref.Consts

open Idealize.ShloMosaic

/-- The pattern 2B8CBCCC is 9223372 · 2⁻⁶³. -/
theorem ofBits_eps : Ideal.ofBits .f32 0x2B8CBCCC#32 = ((9223372 / 2 ^ 63 : ℝ) : EReal) := by
  simp [Ideal.ofBits, Ideal.ieee, -EReal.coe_mul]; norm_num

/-- The pattern 3DCCCCCD is 13421773 · 2⁻²⁷. -/
theorem ofBits_temperature : Ideal.ofBits .f32 0x3DCCCCCD#32 = ((13421773 / 2 ^ 27 : ℝ) : EReal) := by
  simp [Ideal.ofBits, Ideal.ieee, -EReal.coe_mul]; norm_num

/-- The pattern C77FE000 is −65504. -/
theorem ofBits_neg : Ideal.ofBits .f32 0xC77FE000#32 = ((-65504 : ℝ) : EReal) := by
  simp [Ideal.ofBits, Ideal.ieee, -EReal.coe_mul]; norm_num

/-- The pattern 45800000 is 4096. -/
theorem ofBits_rows : Ideal.ofBits .f32 0x45800000#32 = ((4096 : ℝ) : EReal) := by
  simp [Ideal.ofBits, Ideal.ieee, -EReal.coe_mul]; norm_num

end Cert.Ref.Consts

end
-- ==== Proof.Ref.Norm.lean ====
/-
  The reference's normalisation read at an index: over an argument array of reals, the sum of a row's squares, its
  square root clamped below at the constant, the quotient of each entry by it, and the two halves of the normalised
  array — the two views.
-/
import proofs.«117558_j62045097558541_2_alg».proof.Proof.RefRead
import proofs.«117558_j62045097558541_2_alg».proof.Proof.LossSpec
import proofs.«117558_j62045097558541_2_alg».proof.Proof.LibIdealSums
import proofs.«117558_j62045097558541_2_alg».proof.Proof.Ref.Consts

open scoped BigOperators

noncomputable section

namespace Cert.Ref

open Cert.ReferenceIdeal Cert.ReferenceIdeal.Gen Cert.ReferenceIdeal.ReadP Idealize.ShloMosaic Idealize.ShloMosaic.ValueIdx
  Cert.Lib.IdealSums Cert.LossSpec

variable (X : Fin 8192 → Fin 512 → ℝ) (x0 : (⟨S8192x512, .f32⟩ : BufTy).Contents (Elt Ideal))

/-- The sum of row r's squares. -/
theorem sumsq_apply (hx : ∀ r k, x0 (ix2 r k) = ((X r k : ℝ) : EReal)) (r : Fin 8192) :
    val_main_call0_v1 (F := Ideal) x0 (ix1 r) = ((∑ k, X r k * X r k : ℝ) : EReal) := by
  rw [val_main_call0_v1_apply]
  show Ideal.ofBits .f32 0x00000000#32
    + ∑ k : Fin 512, (x0 (idx_main_call0_v1 (ix1 r) k) * x0 (idx_main_call0_v1 (ix1 r) k)) = _
  rw [Ideal.ofBits_zero_f32, zero_add, coe_sum_mul]
  refine Finset.sum_congr rfl fun k _ => ?_
  have e : idx_main_call0_v1 (ix1 r) k = ix2 r k :=
    funext fun a => Fin.ext (by match a with | ⟨0, _⟩ => rfl | ⟨1, _⟩ => rfl)
  rw [e, hx]

/-- Row r's norm, clamped below. -/
theorem norm_apply (hx : ∀ r k, x0 (ix2 r k) = ((X r k : ℝ) : EReal)) (r : Fin 8192) :
    val_main_v2 (F := Ideal) x0 (ix2 r 0) = ((rowNorm X r : ℝ) : EReal) := by
  show max (Ideal.sqrt (val_main_call0_v2 (F := Ideal) x0 (ix2 r 0))) (val_main_v1 (F := Ideal) (ix2 r 0)) = _
  have e : idx_main_call0_v2 (ix2 r (0 : Fin 1)) = ix1 r :=
    funext fun a => Fin.ext (by match a with | ⟨0, _⟩ => rfl)
  rw [val_main_call0_v2_apply, e, sumsq_apply X x0 hx, val_main_v1_apply]
  show max (Ideal.sqrt _) (Ideal.ofBits .f32 0x2B8CBCCC#32) = _
  have hs : ¬ (∑ k, X r k * X r k) < 0 := not_lt.2 (Finset.sum_nonneg fun k _ => mul_self_nonneg _)
  rw [Ideal.sqrt_coe, if_neg hs, Consts.ofBits_eps, ← EReal.coe_strictMono.monotone.map_max]
  rfl

/-- The normalised array. -/
theorem unit_apply (hx : ∀ r k, x0 (ix2 r k) = ((X r k : ℝ) : EReal)) (r : Fin 8192) (k : Fin 512) :
    val_main_v4 (F := Ideal) x0 (ix2 r k) = ((unitRow X r k : ℝ) : EReal) := by
  show Ideal.div (x0 (ix2 r k)) (val_main_v3 (F := Ideal) x0 (ix2 r k)) = _
  have e : idx_main_v3 (ix2 r k) = ix2 r (0 : Fin 1) :=
    funext fun a => Fin.ext (by match a with | ⟨0, _⟩ => rfl | ⟨1, _⟩ => rfl)
  rw [val_main_v3_apply, e, norm_apply X x0 hx, hx, div_coe_coe _ (rowNorm_pos X r).ne']
  rfl

/-- The first 4096 normalised rows are the first view. -/
theorem viewA_apply (hx : ∀ r k, x0 (ix2 r k) = ((X r k : ℝ) : EReal)) (i : Fin 4096) (d : Fin 512) :
    val_main_v5 (F := Ideal) x0 (ix2 i d) = ((viewA X i d : ℝ) : EReal) := by
  have e : idx_main_v5 (ix2 i d) = ix2 (⟨i.val, by omega⟩ : Fin 8192) d :=
    funext fun a => Fin.ext (by match a with | ⟨0, _⟩ => rfl | ⟨1, _⟩ => rfl)
  rw [val_main_v5_apply, e, unit_apply X x0 hx]
  rfl

/-- The last 4096 normalised rows are the second view. -/
theorem viewB_apply (hx : ∀ r k, x0 (ix2 r k) = ((X r k : ℝ) : EReal)) (i : Fin 4096) (d : Fin 512) :
    val_main_v6 (F := Ideal) x0 (ix2 i d) = ((viewB X i d : ℝ) : EReal) := by
  have e : idx_main_v6 (ix2 i d) = ix2 (⟨4096 + i.val, by omega⟩ : Fin 8192) d :=
    funext fun a => Fin.ext (by match a with | ⟨0, _⟩ => rfl | ⟨1, _⟩ => rfl)
  rw [val_main_v6_apply, e, unit_apply X x0 hx]
  rfl

end Cert.Ref

end
-- ==== Proof.KReal.Entry.lean ====
/-
  The two arrays the region is entered with, over an argument array of reals.

  Before the region the program normalises the rows of its argument (each divided by its norm clamped below), takes
  the first and the last 4096 rows and narrows them, which changes nothing on the extended reals. These are the same
  operations, in the same order, as the reference's first steps; so the arrays the region finds are the two views.
-/
import proofs.«117558_j62045097558541_2_alg».proof.Proof.Body.Setup
import proofs.«117558_j62045097558541_2_alg».proof.Proof.RefRead
import proofs.«117558_j62045097558541_2_alg».proof.Proof.Ref.Norm

set_option maxRecDepth 16384

noncomputable section

namespace Cert.KernelIdeal.KReal

open Idealize.ShloMosaic Idealize.ShloMosaic.TcCoe Idealize.ShloMosaic.ValueIdx Idealize.ShloMosaic.StableHlo
open Idealize.SL.Sem
open Cert.KernelIdeal Cert.KernelIdeal.Gen Cert.LossSpec

variable (m : (ℓ : Loc nD τ sig) → Buf (Elt Ideal) ℓ) (c : Dev nD)

/-- The first entry array is the reference's first half of the normalised rows, (the narrowing is the identity on the extended reals). -/
theorem V7_eq :
    (Body.V m c main_v7 : S4096x512.Idx → EReal)
      = Cert.ReferenceIdeal.ReadP.val_main_v5 (F := Ideal) (m ((c.tc : Thread nD τ).loc main_arg0)) := by
  dsimp only [Body.V, Body.V0, hostOps0, hostOps0_1]
  simp only [List.cons_append, List.nil_append]
  after_results
  rfl

/-- The second entry array is the reference's second half of the normalised rows, (the narrowing is the identity on the extended reals). -/
theorem V8_eq :
    (Body.V m c main_v8 : S4096x512.Idx → EReal)
      = Cert.ReferenceIdeal.ReadP.val_main_v6 (F := Ideal) (m ((c.tc : Thread nD τ).loc main_arg0)) := by
  dsimp only [Body.V, Body.V0, hostOps0, hostOps0_1]
  simp only [List.cons_append, List.nil_append]
  after_results
  rfl

variable (X : Fin 8192 → Fin 512 → ℝ)
variable (hx : ∀ r k, m ((c.tc : Thread nD τ).loc main_arg0) (ix2 r k) = ((X r k : ℝ) : EReal))

include hx in
/-- The first entry array holds the first view. -/
theorem V7_apply (i : Fin 4096) (d : Fin 512) :
    Body.V m c main_v7 (ix2 i d) = ((viewA X i d : ℝ) : EReal) := by
  exact (congrFun (V7_eq m c) (ix2 i d)).trans (Cert.Ref.viewA_apply X _ hx i d)

include hx in
/-- The second entry array holds the second view. -/
theorem V8_apply (i : Fin 4096) (d : Fin 512) :
    Body.V m c main_v8 (ix2 i d) = ((viewB X i d : ℝ) : EReal) := by
  exact (congrFun (V8_eq m c) (ix2 i d)).trans (Cert.Ref.viewB_apply X _ hx i d)

end Cert.KernelIdeal.KReal

end
-- ==== Proof.KReal.Outputs.lean ====
/-
  The kernel's three row outputs over an argument array of reals.

  With the argument an array of reals the two entry arrays hold the two views, so row i's accumulated log-sum-exp is
  the logarithm of its sum of exponentials over the 8192 logits, for either order of the views, and its accumulated
  positive logit is the scaled similarity of the two views' rows i.
-/
import proofs.«117558_j62045097558541_2_alg».proof.Proof.KValue.Accumulated
import proofs.«117558_j62045097558541_2_alg».proof.Proof.KReal.Rows
import proofs.«117558_j62045097558541_2_alg».proof.Proof.KReal.Entry

noncomputable section

namespace Cert.KernelIdeal.KReal

open Idealize.ShloMosaic Idealize.ShloMosaic.TcCoe Idealize.ShloMosaic.ValueIdx
open Idealize.SL.Sem
open Cert.KernelIdeal Cert.KernelIdeal.Gen Cert.KernelIdeal.KValue Cert.LossSpec Cert.Analysis
open scoped BigOperators

section Variables

variable (A B : Vec Ideal S4096x512 .bf16) (P Q : Fin 4096 → Fin 512 → ℝ)
variable (hA : ∀ i d, A (ix2 i d) = ((P i d : ℝ) : EReal)) (hB : ∀ i d, B (ix2 i d) = ((Q i d : ℝ) : EReal))
variable {X : Fin 8192 → Fin 512 → ℝ} (hP : IsView X P) (hQ : IsView X Q)

include hA hB hP hQ in
/-- Row i's accumulated log-sum-exp over arrays holding two views. -/
theorem lse_coe (i : Fin 4096) : lse A B i = ((Real.log (expSum P Q i) : ℝ) : EReal) :=
  row_lse_coe A B P Q hA hB hP hQ i

include hA hB in
/-- Row i's accumulated positive logit over arrays of reals. -/
theorem pos_coe (i : Fin 4096) : pos A B i = ((scale * dot (P i) (Q i) : ℝ) : EReal) :=
  tiles_pos_coe A B P Q hA hB i

end Variables

variable (m : (ℓ : Loc nD τ sig) → Buf (Elt Ideal) ℓ) (c : Dev nD)
variable (X : Fin 8192 → Fin 512 → ℝ)
variable (hx : ∀ r k, m ((c.tc : Thread nD τ).loc main_arg0) (ix2 r k) = ((X r k : ℝ) : EReal))

include hx in
/-- The first view's rows against the second view. -/
theorem lse_entry_ab (i : Fin 4096) :
    lse (Body.V m c main_v7) (Body.V m c main_v8) i
      = ((Real.log (expSum (viewA X) (viewB X) i) : ℝ) : EReal) :=
  lse_coe (Body.V m c main_v7) (Body.V m c main_v8) (viewA X) (viewB X) (V7_apply m c X hx) (V8_apply m c X hx)
    (isView_viewA X) (isView_viewB X) i

include hx in
/-- The second view's rows against the first view. -/
theorem lse_entry_ba (i : Fin 4096) :
    lse (Body.V m c main_v8) (Body.V m c main_v7) i
      = ((Real.log (expSum (viewB X) (viewA X) i) : ℝ) : EReal) :=
  lse_coe (Body.V m c main_v8) (Body.V m c main_v7) (viewB X) (viewA X) (V8_apply m c X hx) (V7_apply m c X hx)
    (isView_viewB X) (isView_viewA X) i

include hx in
/-- The positive logits. -/
theorem pos_entry (i : Fin 4096) :
    pos (Body.V m c main_v7) (Body.V m c main_v8) i
      = ((scale * dot (viewA X i) (viewB X i) : ℝ) : EReal) :=
  pos_coe (Body.V m c main_v7) (Body.V m c main_v8) (viewA X) (viewB X) (V7_apply m c X hx) (V8_apply m c X hx) i

end Cert.KernelIdeal.KReal

end
-- ==== Proof.KValue.Value.lean ====
/- The kernel's value: over an argument array of reals, the scalar the program ends with is the loss. After the region the
   three result arrays hold, row by row, the two log-sum-exps and the positive logit; the later operations take the mean
   over the rows of each log-sum-exp minus the positive logit and add the two means; and the positive logit of row i is
   the same for both orders of the views (the similarity is symmetric). -/
import proofs.«117558_j62045097558541_2_alg».proof.Proof.KValue.Arrays
import proofs.«117558_j62045097558541_2_alg».proof.Proof.KValue.Mean
import proofs.«117558_j62045097558541_2_alg».proof.Proof.KReal.Outputs
import proofs.«117558_j62045097558541_2_alg».proof.Proof.Analysis.IdealReal
import proofs.«117558_j62045097558541_2_alg».proof.Proof.LossSpec

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Gen
open Cert.KernelIdeal Cert.KernelIdeal.KReal Cert.LossSpec Cert.Analysis
open scoped BigOperators

variable (m : (ℓ : Loc nD τ sig) → Buf (Elt Ideal) ℓ) (c : Dev nD)

/-- Where one window only stages an array, the contents at the region's exit at that array are that window's. -/
theorem withArrays_at (V₁ : Valuation τ sig (Elt Ideal))
    (A : (w : Fin 7) → Buf (Elt Ideal) ((spec0 w).arr.view.loc (c.tc : Thread nD τ))) (w : Fin 7)
    (hw : ∀ w' : Fin 7, Pipeline.arrRef spec0 w' = Pipeline.arrRef spec0 w → w' = w) :
    Pipeline.withArrays spec0 c V₁ A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt Ideal)) e) (A w') = A w from this _ h.choose_spec
  intro w' e
  obtain rfl : w' = w := hw w' (Proc.devRef_injective _ e)
  rfl

theorem dot_comm (u v : Fin 512 → ℝ) : dot u v = dot v u := by
  unfold dot; exact Finset.sum_congr rfl fun d _ => mul_comm _ _

/-- The two means of reals are the loss. -/
theorem means_eq_loss (X : Fin 8192 → Fin 512 → ℝ) :
    (0 + ∑ i : Fin 4096, (Real.log (expSum (viewA X) (viewB X) i) - scale * dot (viewA X i) (viewB X i))) / 4096
      + (0 + ∑ i : Fin 4096, (Real.log (expSum (viewB X) (viewA X) i) - scale * dot (viewA X i) (viewB X i))) / 4096
      = loss X := by
  unfold loss crossEntropy
  rw [zero_add, zero_add]
  have hb : ∑ i : Fin 4096, (Real.log (expSum (viewB X) (viewA X) i) - scale * dot (viewA X i) (viewB X i))
      = ∑ i : Fin 4096, (Real.log (expSum (viewB X) (viewA X) i) - scale * dot (viewB X i) (viewA X i)) :=
    Finset.sum_congr rfl fun i _ => by rw [dot_comm (viewA X i) (viewB X i)]
  rw [hb]

/-- THE KERNEL'S VALUE, whatever the other buffers hold at the region's exit (the later operations read the three result
    arrays only). -/
theorem kernel_value (V₁ : Valuation τ sig (Elt Ideal)) (X : Fin 8192 → Fin 512 → ℝ)
    (hx : ∀ r k, m ((c.tc : Thread nD τ).loc main_arg0) (ValueIdx.ix2 r k) = ((X r k : ℝ) : EReal)) :
    StableHlo.after (List.flatten [Gen.hostOps1])
        (Pipeline.withArrays spec0 c V₁ (fun w => (Body.dats m 0 c).arrAt w cfg0.N)) (Proc.devRef .tc main_v20)
      = fun _ => ((Cert.LossSpec.loss X : ℝ) : EReal) := by
  have e4 : Pipeline.withArrays spec0 c V₁ (fun w => (Body.dats m 0 c).arrAt w cfg0.N) (Proc.devRef .tc main_v9_0)
      = (Body.dats m 0 c).arrAt 4 cfg0.N := withArrays_at c _ _ 4 (by decide)
  have e5 : Pipeline.withArrays spec0 c V₁ (fun w => (Body.dats m 0 c).arrAt w cfg0.N) (Proc.devRef .tc main_v9_1)
      = (Body.dats m 0 c).arrAt 5 cfg0.N := withArrays_at c _ _ 5 (by decide)
  have e6 : Pipeline.withArrays spec0 c V₁ (fun w => (Body.dats m 0 c).arrAt w cfg0.N) (Proc.devRef .tc main_v9_2)
      = (Body.dats m 0 c).arrAt 6 cfg0.N := withArrays_at c _ _ 6 (by decide)
  have hW := tail_ops (Pipeline.withArrays spec0 c V₁ (fun w => (Body.dats m 0 c).arrAt w cfg0.N))
  rw [e4, e5, e6] at hW
  rw [hW]
  funext j
  rw [tailVec_apply]
  simp only [arr4_apply, arr5_apply, arr6_apply, lse_entry_ab m c X hx, lse_entry_ba m c X hx, pos_entry m c X hx]
  simp only [w4096, word_4096, word_zero, subf_coe, sum_coe, addf_coe]
  rw [divf_coe _ (by norm_num : (4096 : ℝ) ≠ 0), divf_coe _ (by norm_num : (4096 : ℝ) ≠ 0), addf_coe]
  exact congrArg _ (means_eq_loss X)

end Cert.KernelIdeal.KValue

end
-- ==== Proof.Analysis.Finite.lean ====
/-
  Finite inputs are real numbers.

  The precondition says that every entry of the argument array has absolute value below +∞. On the extended reals the
  absolute value is max a (−a), which is +∞ at both infinities, so every entry is a real number; the array is then the
  image of an array of reals, which the rest of the analysis works with.
-/
import proofs.«117558_j62045097558541_2_alg».proof.Pre_finite_inputs
import Idealize.ShloMosaic.Lib.ReduceAll
import Idealize.ShloMosaic.Lib.ValueIdx
import Idealize.ShloMosaic.PureOps.Ideal
import Idealize.ShloMosaic.PureOps.Ideal.Laws
import proofs.«117558_j62045097558541_2_alg».proof.Proof.Analysis.Words

noncomputable section

namespace Cert.Analysis

open Idealize.ShloMosaic

/-- The result of a reduction over every axis has one index. -/
instance subsingleton_scalarIdx : Subsingleton Cert.Pre_finite_inputs.S_.Idx :=
  ⟨fun a b => funext fun d => d.elim0⟩

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition the argument array is an array of real numbers. -/
theorem reals_of_pre [Cert.Pre_finite_inputs.Facts]
    (x : (⟨Cert.Pre_finite_inputs.S8192x512, .f32⟩ : BufTy).Contents (Elt Ideal))
    (h : Cert.Pre_finite_inputs.fn (F := Ideal) x = fun _ => 1#1) :
    ∃ X : Fin 8192 → Fin 512 → ℝ, ∀ r k, x (ValueIdx.ix2 r k) = ((X r k : ℝ) : EReal) := by
  have h0 := congrFun h ValueIdx.ix0
  dsimp only [Cert.Pre_finite_inputs.fn] at h0
  have hel : ∀ i : Cert.Pre_finite_inputs.S8192x512.Idx, ∃ r : ℝ, x i = (r : EReal) := by
    intro i
    have hi := Host.reduce_andi_all _ _ _ _ _ h0 i
    have hlt : max (x i) (-(x i)) < ⊤ := by
      rw [← word_top]
      by_contra hn
      have : Ideal.cmp .olt (max (x i) (-(x i))) (Ideal.ofBits .f32 0x7F800000#32) = 0#1 := by
        simp [Ideal.cmp, hn]
      have hi' : Ideal.cmp .olt (max (x i) (-(x i))) (Ideal.ofBits .f32 0x7F800000#32) = 1#1 := hi
      rw [this] at hi'
      exact absurd hi' (by decide)
    exact real_of_abs_lt_top _ hlt
  choose X hX using hel
  exact ⟨fun r k => X (ValueIdx.ix2 r k), fun r k => hX _⟩

end Cert.Analysis

end
-- ==== Proof.Ref.Logits.lean ====
/-
  The reference's four scaled similarity matrices read at an index — each a product of a view with the transpose of a
  view, divided by the temperature — and the two self-similarity matrices with their diagonal replaced by the constant.
-/
import proofs.«117558_j62045097558541_2_alg».proof.Proof.Ref.Norm

open scoped BigOperators

noncomputable section

namespace Cert.Ref

open Cert.ReferenceIdeal Cert.ReferenceIdeal.Gen Cert.ReferenceIdeal.ReadP Idealize.ShloMosaic Idealize.ShloMosaic.ValueIdx
  Cert.Lib.IdealSums Cert.LossSpec

variable (X : Fin 8192 → Fin 512 → ℝ) (x0 : (⟨S8192x512, .f32⟩ : BufTy).Contents (Elt Ideal))

/-- A sum of products of reals divided by the temperature is the real sum times the scale. -/
theorem div_temperature (f g : Fin 512 → ℝ) :
    Ideal.div (∑ d, (f d : EReal) * (g d : EReal)) (Ideal.ofBits .f32 0x3DCCCCCD#32)
      = ((scale * ∑ d, f d * g d : ℝ) : EReal) := by
  rw [← coe_sum_mul, Consts.ofBits_temperature, div_coe_coe _ (by norm_num)]
  refine congrArg (fun t : ℝ => (t : EReal)) ?_
  unfold scale
  ring

/-- The first view's scaled similarities with itself. -/
theorem simAA_apply (hx : ∀ r k, x0 (ix2 r k) = ((X r k : ℝ) : EReal)) (i k : Fin 4096) :
    val_main_v15 (F := Ideal) x0 (ix2 i k) = ((scale * dot (viewA X i) (viewA X k) : ℝ) : EReal) := by
  show Ideal.div (val_main_v13 (F := Ideal) x0 (ix2 i k)) (Ideal.ofBits .f32 0x3DCCCCCD#32) = _
  rw [val_main_v13_apply]
  have e : ∀ d : Fin 512, val_main_v5 (F := Ideal) x0 (lidx_main_v13 (ix2 i k) d)
      * val_main_v12 (F := Ideal) x0 (ridx_main_v13 (ix2 i k) d)
      = ((viewA X i d : ℝ) : EReal) * ((viewA X k d : ℝ) : EReal) := by
    intro d
    have e1 : lidx_main_v13 (ix2 i k) d = ix2 i d :=
      funext fun a => Fin.ext (by match a with | ⟨0, _⟩ => rfl | ⟨1, _⟩ => rfl)
    have e2 : idx_main_v12 (ridx_main_v13 (ix2 i k) d) = ix2 k d :=
      funext fun a => Fin.ext (by match a with | ⟨0, _⟩ => rfl | ⟨1, _⟩ => rfl)
    rw [val_main_v12_apply, e1, e2, viewA_apply X x0 hx, viewA_apply X x0 hx]
  rw [Finset.sum_congr rfl fun d _ => e d]
  exact div_temperature _ _

/-- The second view's scaled similarities with itself. -/
theorem simBB_apply (hx : ∀ r k, x0 (ix2 r k) = ((X r k : ℝ) : EReal)) (i k : Fin 4096) :
    val_main_v20 (F := Ideal) x0 (ix2 i k) = ((scale * dot (viewB X i) (viewB X k) : ℝ) : EReal) := by
  show Ideal.div (val_main_v18 (F := Ideal) x0 (ix2 i k)) (Ideal.ofBits .f32 0x3DCCCCCD#32) = _
  rw [val_main_v18_apply]
  have e : ∀ d : Fin 512, val_main_v6 (F := Ideal) x0 (lidx_main_v18 (ix2 i k) d)
      * val_main_v17 (F := Ideal) x0 (ridx_main_v18 (ix2 i k) d)
      = ((viewB X i d : ℝ) : EReal) * ((viewB X k d : ℝ) : EReal) := by
    intro d
    have e1 : lidx_main_v18 (ix2 i k) d = ix2 i d :=
      funext fun a => Fin.ext (by match a with | ⟨0, _⟩ => rfl | ⟨1, _⟩ => rfl)
    have e2 : idx_main_v17 (ridx_main_v18 (ix2 i k) d) = ix2 k d :=
      funext fun a => Fin.ext (by match a with | ⟨0, _⟩ => rfl | ⟨1, _⟩ => rfl)
    rw [val_main_v17_apply, e1, e2, viewB_apply X x0 hx, viewB_apply X x0 hx]
  rw [Finset.sum_congr rfl fun d _ => e d]
  exact div_temperature _ _

/-- The first view's scaled similarities with the second. -/
theorem simAB_apply (hx : ∀ r k, x0 (ix2 r k) = ((X r k : ℝ) : EReal)) (i k : Fin 4096) :
    val_main_v25 (F := Ideal) x0 (ix2 i k) = ((scale * dot (viewA X i) (viewB X k) : ℝ) : EReal) := by
  show Ideal.div (val_main_v23 (F := Ideal) x0 (ix2 i k)) (Ideal.ofBits .f32 0x3DCCCCCD#32) = _
  rw [val_main_v23_apply]
  have e : ∀ d : Fin 512, val_main_v5 (F := Ideal) x0 (lidx_main_v23 (ix2 i k) d)
      * val_main_v22 (F := Ideal) x0 (ridx_main_v23 (ix2 i k) d)
      = ((viewA X i d : ℝ) : EReal) * ((viewB X k d : ℝ) : EReal) := by
    intro d
    have e1 : lidx_main_v23 (ix2 i k) d = ix2 i d :=
      funext fun a => Fin.ext (by match a with | ⟨0, _⟩ => rfl | ⟨1, _⟩ => rfl)
    have e2 : idx_main_v22 (ridx_main_v23 (ix2 i k) d) = ix2 k d :=
      funext fun a => Fin.ext (by match a with | ⟨0, _⟩ => rfl | ⟨1, _⟩ => rfl)
    rw [val_main_v22_apply, e1, e2, viewA_apply X x0 hx, viewB_apply X x0 hx]
  rw [Finset.sum_congr rfl fun d _ => e d]
  exact div_temperature _ _

/-- The second view's scaled similarities with the first. -/
theorem simBA_apply (hx : ∀ r k, x0 (ix2 r k) = ((X r k : ℝ) : EReal)) (i k : Fin 4096) :
    val_main_v29 (F := Ideal) x0 (ix2 i k) = ((scale * dot (viewB X i) (viewA X k) : ℝ) : EReal) := by
  show Ideal.div (val_main_v27 (F := Ideal) x0 (ix2 i k)) (Ideal.ofBits .f32 0x3DCCCCCD#32) = _
  rw [val_main_v27_apply]
  have e : ∀ d : Fin 512, val_main_v6 (F := Ideal) x0 (lidx_main_v27 (ix2 i k) d)
      * val_main_v26 (F := Ideal) x0 (ridx_main_v27 (ix2 i k) d)
      = ((viewB X i d : ℝ) : EReal) * ((viewA X k d : ℝ) : EReal) := by
    intro d
    have e1 : lidx_main_v27 (ix2 i k) d = ix2 i d :=
      funext fun a => Fin.ext (by match a with | ⟨0, _⟩ => rfl | ⟨1, _⟩ => rfl)
    have e2 : idx_main_v26 (ridx_main_v27 (ix2 i k) d) = ix2 k d :=
      funext fun a => Fin.ext (by match a with | ⟨0, _⟩ => rfl | ⟨1, _⟩ => rfl)
    rw [val_main_v26_apply, e1, e2, viewB_apply X x0 hx, viewA_apply X x0 hx]
  rw [Finset.sum_congr rfl fun d _ => e d]
  exact div_temperature _ _

/-- The comparison of the row's number with the column's marks the diagonal. -/
theorem mask_apply (i k : Fin 4096) :
    val_main_v11 (F := Ideal) (ix2 i k) = if k = i then 1#1 else 0#1 := by
  show BitVec.ofBool (BitVec.ofNat 32 i.val + 0#32 == BitVec.ofNat 32 k.val) = _
  rw [BitVec.add_zero]
  by_cases hki : k = i
  · subst hki; rw [if_pos rfl]; simp
  · rw [if_neg hki]
    have hne : ¬ (BitVec.ofNat 32 i.val = BitVec.ofNat 32 k.val) := fun h => hki (Fin.ext (by
      have h' := congrArg BitVec.toNat h
      simp only [BitVec.toNat_ofNat] at h'
      have := i.isLt; have := k.isLt; omega))
    rw [beq_eq_false_iff_ne.2 hne]
    rfl

/-- The first view's self-similarities with the diagonal replaced. -/
theorem maskedAA_apply (hx : ∀ r k, x0 (ix2 r k) = ((X r k : ℝ) : EReal)) (i k : Fin 4096) :
    val_main_v16 (F := Ideal) x0 (ix2 i k)
      = ((if k = i then neg else scale * dot (viewA X i) (viewA X k) : ℝ) : EReal) := by
  show Scalar.select (val_main_v11 (F := Ideal) (ix2 i k)) (Ideal.ofBits .f32 0xC77FE000#32)
    (val_main_v15 (F := Ideal) x0 (ix2 i k)) = _
  rw [mask_apply, simAA_apply X x0 hx]
  by_cases hki : k = i
  · rw [if_pos hki, if_pos hki, select_one, Consts.ofBits_neg]; rfl
  · rw [if_neg hki, if_neg hki, select_zero]

/-- The second view's self-similarities with the diagonal replaced. -/
theorem maskedBB_apply (hx : ∀ r k, x0 (ix2 r k) = ((X r k : ℝ) : EReal)) (i k : Fin 4096) :
    val_main_v21 (F := Ideal) x0 (ix2 i k)
      = ((if k = i then neg else scale * dot (viewB X i) (viewB X k) : ℝ) : EReal) := by
  show Scalar.select (val_main_v11 (F := Ideal) (ix2 i k)) (Ideal.ofBits .f32 0xC77FE000#32)
    (val_main_v20 (F := Ideal) x0 (ix2 i k)) = _
  rw [mask_apply, simBB_apply X x0 hx]
  by_cases hki : k = i
  · rw [if_pos hki, if_pos hki, select_one, Consts.ofBits_neg]; rfl
  · rw [if_neg hki, if_neg hki, select_zero]

end Cert.Ref

end
-- ==== Proof.Ref.RealFacts.lean ====
/-
  Real-number facts about the loss: a row's 8192 logits as one function of the column, the sum of their exponentials,
  the positive logit on the diagonal of the first 4096 columns, the logarithm of a softmax shifted by any constant, and
  a cross-entropy as the negated mean of the diagonal entries of the logarithm of the softmax.
-/
import Mathlib
import proofs.«117558_j62045097558541_2_alg».proof.Proof.LossSpec

noncomputable section

namespace Cert.Ref

open Cert.LossSpec Finset

/-- Row i's 8192 logits: the 4096 scaled similarities with the cross view, then the 4096 scaled similarities with its
    own view, the one with itself replaced by the constant. -/
def logits (P Q : Fin 4096 → Fin 512 → ℝ) (i : Fin 4096) (k : Fin 8192) : ℝ :=
  if h : k.val < 4096 then scale * dot (P i) (Q ⟨k.val, h⟩)
  else if (⟨k.val - 4096, by omega⟩ : Fin 4096) = i then neg
  else scale * dot (P i) (P ⟨k.val - 4096, by omega⟩)

theorem logits_left (P Q : Fin 4096 → Fin 512 → ℝ) (i k : Fin 4096) :
    logits P Q i ⟨k.val, by omega⟩ = scale * dot (P i) (Q k) := by
  unfold logits
  rw [dif_pos (show (⟨k.val, by omega⟩ : Fin 8192).val < 4096 from k.isLt)]

theorem logits_right (P Q : Fin 4096 → Fin 512 → ℝ) (i k : Fin 4096) :
    logits P Q i ⟨4096 + k.val, by omega⟩ = if k = i then neg else scale * dot (P i) (P k) := by
  unfold logits
  rw [dif_neg (show ¬ (⟨4096 + k.val, by omega⟩ : Fin 8192).val < 4096 from by simp)]
  have hk : (⟨(⟨4096 + k.val, by omega⟩ : Fin 8192).val - 4096, by simp⟩ : Fin 4096) = k := Fin.ext (by simp)
  simp only [hk]

/-- The positive logit sits on the diagonal of the first 4096 columns. -/
theorem logits_diag (P Q : Fin 4096 → Fin 512 → ℝ) (i : Fin 4096) :
    logits P Q i ⟨i.val, by omega⟩ = scale * dot (P i) (Q i) := logits_left P Q i i

/-- The sum of the exponentials of a row's logits. -/
theorem sum_exp_logits (P Q : Fin 4096 → Fin 512 → ℝ) (i : Fin 4096) :
    ∑ k : Fin 8192, Real.exp (logits P Q i k) = expSum P Q i := by
  have h := Fin.sum_univ_add (a := 4096) (b := 4096) (fun k : Fin (4096 + 4096) => Real.exp (logits P Q i k))
  unfold expSum
  refine h.trans (congrArg₂ (· + ·) ?_ ?_)
  · exact Finset.sum_congr rfl fun k _ => congrArg Real.exp (logits_left P Q i k)
  · exact Finset.sum_congr rfl fun k _ => congrArg Real.exp (logits_right P Q i k)

theorem sum_exp_logits_pos (P Q : Fin 4096 → Fin 512 → ℝ) (i : Fin 4096) :
    0 < ∑ k : Fin 8192, Real.exp (logits P Q i k) := by
  rw [sum_exp_logits]; exact expSum_pos P Q i

/-- The logarithm of a softmax does not depend on the constant subtracted from the row first. -/
theorem sub_log_sum_exp_shift {n : ℕ} (l : Fin n → ℝ) (m : ℝ) (q : Fin n) (hpos : 0 < ∑ k, Real.exp (l k)) :
    (l q - m) - Real.log (∑ k, Real.exp (l k - m)) = l q - Real.log (∑ k, Real.exp (l k)) := by
  have h1 : ∑ k, Real.exp (l k - m) = (∑ k, Real.exp (l k)) * Real.exp (-m) := by
    rw [Finset.sum_mul]
    exact Finset.sum_congr rfl fun k _ => by rw [← Real.exp_add, sub_eq_add_neg]
  rw [h1, Real.log_mul hpos.ne' (Real.exp_pos _).ne', Real.log_exp]
  ring

/-- The shifted sum of exponentials is positive. -/
theorem sum_exp_shift_pos {n : ℕ} (l : Fin n → ℝ) (m : ℝ) (hn : 0 < n) : 0 < ∑ k, Real.exp (l k - m) :=
  Finset.sum_pos (fun k _ => Real.exp_pos _) ⟨⟨0, hn⟩, Finset.mem_univ _⟩

/-- A cross-entropy is the negated mean of the diagonal entries of the logarithm of the softmax of the logits. -/
theorem neg_mean_eq_crossEntropy (P Q : Fin 4096 → Fin 512 → ℝ) :
    -((∑ i : Fin 4096, (logits P Q i ⟨i.val, by omega⟩ - Real.log (expSum P Q i))) / 4096) = crossEntropy P Q := by
  unfold crossEntropy
  rw [← neg_div, ← Finset.sum_neg_distrib]
  congr 1
  exact Finset.sum_congr rfl fun i _ => by rw [logits_diag]; ring

end Cert.Ref

end
-- ==== Proof.Ref.Rows.lean ====
/-
  The two 4096×8192 arrays of logits the reference concatenates, read at an index: a row's 4096 cross-view
  similarities followed by its 4096 own-view similarities with the diagonal replaced — the real function `logits`.
-/
import proofs.«117558_j62045097558541_2_alg».proof.Proof.Ref.Logits
import proofs.«117558_j62045097558541_2_alg».proof.Proof.Ref.RealFacts

open scoped BigOperators

noncomputable section

namespace Cert.Ref

open Cert.ReferenceIdeal Cert.ReferenceIdeal.Gen Cert.ReferenceIdeal.ReadP Idealize.ShloMosaic Idealize.ShloMosaic.ValueIdx
  Cert.Lib.IdealSums Cert.LossSpec

variable (X : Fin 8192 → Fin 512 → ℝ) (x0 : (⟨S8192x512, .f32⟩ : BufTy).Contents (Elt Ideal))

/-- Two 4096×4096 arrays side by side: columns below 4096 read the first, the others the second 4096 columns back. -/
theorem concat_cols_apply {α : Type} (L R : S4096x4096.Idx → α) (i : Fin 4096) (k : Fin 8192) :
    concatenate S4096x8192 1 [⟨S4096x4096, L⟩, ⟨S4096x4096, R⟩]
        concatenates_S4096x4096_S4096x4096_S4096x8192_d1 (ix2 i k)
      = if h : k.val < 4096 then L (ix2 i ⟨k.val, h⟩) else R (ix2 i ⟨k.val - 4096, by omega⟩) := by
  by_cases h : k.val < 4096
  · rw [dif_pos h]
    refine concatenate_pair_apply_left (1 : Fin S4096x8192.rank) L R
      concatenates_S4096x4096_S4096x4096_S4096x8192_d1 (ix2 i k) rfl (ix2 i (⟨k.val, h⟩ : Fin 4096)) ?_
    intro b
    match b with
    | ⟨0, _⟩ => rfl
    | ⟨1, _⟩ => rfl
  · rw [dif_neg h]
    refine concatenate_pair_apply_right (1 : Fin S4096x8192.rank) L R
      concatenates_S4096x4096_S4096x4096_S4096x8192_d1 (ix2 i k) rfl rfl
      (ix2 i (⟨k.val - 4096, by omega⟩ : Fin 4096)) ?_ ?_
    · intro b hb
      match b, hb with
      | ⟨0, _⟩, _ => rfl
      | ⟨1, _⟩, hb => exact absurd rfl hb
    · show (k.val - 4096) + 4096 = k.val
      omega

/-- The logits of the first cross-entropy. -/
theorem rowAB_apply (hx : ∀ r k, x0 (ix2 r k) = ((X r k : ℝ) : EReal)) (i : Fin 4096) (k : Fin 8192) :
    val_main_v31 (F := Ideal) x0 (ix2 i k) = ((logits (viewA X) (viewB X) i k : ℝ) : EReal) := by
  unfold val_main_v31 logits
  rw [concat_cols_apply]
  by_cases h : k.val < 4096
  · rw [dif_pos h, dif_pos h, simAB_apply X x0 hx]
  · rw [dif_neg h, dif_neg h, maskedAA_apply X x0 hx]

/-- The logits of the second cross-entropy. -/
theorem rowBA_apply (hx : ∀ r k, x0 (ix2 r k) = ((X r k : ℝ) : EReal)) (i : Fin 4096) (k : Fin 8192) :
    val_main_v50 (F := Ideal) x0 (ix2 i k) = ((logits (viewB X) (viewA X) i k : ℝ) : EReal) := by
  unfold val_main_v50 logits
  rw [concat_cols_apply]
  by_cases h : k.val < 4096
  · rw [dif_pos h, dif_pos h, simBA_apply X x0 hx]
  · rw [dif_neg h, dif_neg h, maskedBB_apply X x0 hx]

end Cert.Ref

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«117558_j62045097558541_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«117558_j62045097558541_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibLogSoftmaxRows.lean ====
/-
  The logarithm of the softmax along each row of an a×b array, on the extended reals.

  For a row p write top(p) for its largest entry joined with −∞, and lse(p) for the logarithm of the sum over k of
  e^(x(p, k) − top(p)). The reference groups the result as (x(p, q) − top(p)) − lse(p); a kernel body may group it as
  x(p, q) − (top(p) + lse(p)). The two agree whenever top(p) is a real — subtracting a sum is subtracting its terms
  one after the other as long as the first term is not an infinity — and top(p) is a real as soon as the row is not
  empty and holds reals. Both spellings are read here once at an index (the kernel body's: lane maximum with a −∞
  accumulator, re-shaped [a]→[a,1], broadcast, subtract, exponential, lane sum, logarithm, add, broadcast, subtract;
  the reference's: max-reduce from −∞ joined with a −∞ splat, two broadcasts, subtract, exponential, sum-reduce from
  zero, broadcast, logarithm, broadcast, subtract), and an entry of the result depends on one row only.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«117558_j62045097558541_2_alg».proof.Proof.LibIdealSums
import proofs.«117558_j62045097558541_2_alg».proof.Proof.LibRowReductions
import proofs.«117558_j62045097558541_2_alg».proof.Proof.LibRowVector
import proofs.«117558_j62045097558541_2_alg».proof.Proof.LibHostRows

open scoped BigOperators

noncomputable section

namespace Cert.Lib.LogSoftmaxRows

open Idealize.ShloMosaic Idealize.ShloMosaic.ValueIdx Cert.Lib.IdealSums Cert.Lib.RowReductions

variable {a a' b : Nat}

/-- The largest entry of row p, joined with −∞. -/
def rowTop (x : (⟨2, ![a, b]⟩ : Shape).Idx → EReal) (p : Fin a) : EReal :=
  (Finset.univ : Finset (Fin b)).fold max ⊥ (fun k => x (ix2 p k))

/-- The logarithm of the sum of the exponentials of row p's entries, each less the row's top. -/
def rowLogSum (x : (⟨2, ![a, b]⟩ : Shape).Idx → EReal) (p : Fin a) : EReal :=
  Ideal.log (∑ k : Fin b, Ideal.exp (x (ix2 p k) - rowTop x p))

/-- The logarithm of the softmax along each row, grouped as the reference does: (x − top) − lse. -/
def logSoftmax (x : (⟨2, ![a, b]⟩ : Shape).Idx → EReal) : (⟨2, ![a, b]⟩ : Shape).Idx → EReal :=
  fun i => (x i - rowTop x ⟨(i 0).val, idx2_lt0 i⟩) - rowLogSum x ⟨(i 0).val, idx2_lt0 i⟩

/-- The same grouped as x − (top + lse). -/
def logSoftmaxK (x : (⟨2, ![a, b]⟩ : Shape).Idx → EReal) : (⟨2, ![a, b]⟩ : Shape).Idx → EReal :=
  fun i => x i - (rowTop x ⟨(i 0).val, idx2_lt0 i⟩ + rowLogSum x ⟨(i 0).val, idx2_lt0 i⟩)

theorem logSoftmax_apply (x : (⟨2, ![a, b]⟩ : Shape).Idx → EReal) (p : Fin a) (q : Fin b) :
    logSoftmax x (ix2 p q) = (x (ix2 p q) - rowTop x p) - rowLogSum x p := rfl

theorem logSoftmaxK_apply (x : (⟨2, ![a, b]⟩ : Shape).Idx → EReal) (p : Fin a) (q : Fin b) :
    logSoftmaxK x (ix2 p q) = x (ix2 p q) - (rowTop x p + rowLogSum x p) := rfl

/-! ## The two groupings agree over reals -/

/-- Subtracting a sum whose first term is a real is subtracting its terms one after the other. -/
theorem sub_add_of_isReal (x m l : EReal) (hm : IsReal m) : x - (m + l) = (x - m) - l := by
  obtain ⟨r, rfl⟩ := hm
  rw [sub_eq_add_neg, sub_eq_add_neg, sub_eq_add_neg,
    EReal.neg_add (Or.inl (EReal.coe_ne_bot r)) (Or.inl (EReal.coe_ne_top r)), sub_eq_add_neg, add_assoc]

/-- The top of a row of reals that is not empty is a real: it is below +∞ since every entry is, and above −∞ since
    some entry is. -/
theorem rowTop_isReal (x : (⟨2, ![a, b]⟩ : Shape).Idx → EReal) (p : Fin a) (hb : 0 < b)
    (h : ∀ k : Fin b, IsReal (x (ix2 p k))) : IsReal (rowTop x p) := by
  refine isReal_iff.2 ⟨ne_of_lt ?_, ne_of_gt ?_⟩
  · exact (Finset.fold_max_lt (c := (⊤ : EReal))).2 ⟨bot_lt_top, fun k _ => lt_top_iff_ne_top.2 (h k).ne_top⟩
  · exact (Finset.lt_fold_max (c := (⊥ : EReal))).2 (Or.inr ⟨⟨0, hb⟩, Finset.mem_univ _, bot_lt_iff_ne_bot.2 (h _).ne_bot⟩)

/-- Over an array of reals with rows that are not empty the two groupings are one function. -/
theorem logSoftmaxK_eq (x : (⟨2, ![a, b]⟩ : Shape).Idx → EReal) (hb : 0 < b) (h : ∀ i, IsReal (x i)) :
    logSoftmaxK x = logSoftmax x := by
  funext i
  obtain ⟨p, q, rfl⟩ : ∃ (p : Fin a) (q : Fin b), i = ix2 p q := ⟨i 0, i 1, eq_ix2 i⟩
  rw [logSoftmaxK_apply, logSoftmax_apply]
  exact sub_add_of_isReal _ _ _ (rowTop_isReal x p hb fun k => h _)

/-! ## An entry depends on one row -/

theorem rowTop_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowTop x' p' = rowTop x p := by
  unfold rowTop
  exact congrArg (fun f => Finset.fold max ⊥ f (Finset.univ : Finset (Fin b))) (funext h)

theorem rowLogSum_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowLogSum x' p' = rowLogSum x p := by
  unfold rowLogSum
  rw [rowTop_congr x x' p' p h]
  exact congrArg Ideal.log (Finset.sum_congr rfl fun k _ => by rw [h k])

/-- If row (y 0) of x' is row (i 0) of x and y, i have the same column, the result of x' at y is that of x at i. -/
theorem logSoftmaxK_rows (x : (⟨2, ![a, b]⟩ : Shape).Idx → EReal) (x' : (⟨2, ![a', b]⟩ : Shape).Idx → EReal)
    (y : (⟨2, ![a', b]⟩ : Shape).Idx) (i : (⟨2, ![a, b]⟩ : Shape).Idx)
    (h : ∀ k : Fin b, x' (ix2 (⟨(y 0).val, idx2_lt0 y⟩ : Fin a') k) = x (ix2 (⟨(i 0).val, idx2_lt0 i⟩ : Fin a) k))
    (hcol : (y 1).val = (i 1).val) : logSoftmaxK x' y = logSoftmaxK x i := by
  obtain ⟨p', q', rfl⟩ : ∃ (p' : Fin a') (q' : Fin b), y = ix2 p' q' := ⟨y 0, y 1, eq_ix2 y⟩
  obtain ⟨p, q, rfl⟩ : ∃ (p : Fin a) (q : Fin b), i = ix2 p q := ⟨i 0, i 1, eq_ix2 i⟩
  have hq : q' = q := Fin.ext hcol
  subst hq
  rw [logSoftmaxK_apply, logSoftmaxK_apply, rowTop_congr x x' p' p h, rowLogSum_congr x x' p' p h]
  exact congrArg (· - _) (h q')

/-! ## The kernel body's spelling -/

/-- Lane maximum into a −∞ accumulator, re-shaped to a column, broadcast and subtracted; exponential; lane sum into a
    zero accumulator, re-shaped to a column; logarithm; the two columns added, broadcast and subtracted from the
    block: `logSoftmaxK` of the block. -/
theorem body_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf x (broadcastTo ⟨2, ![a, b]⟩
      (addf (shapeCast ⟨2, ![a, 1]⟩ (multiReduction .maximumf [1] ⟨1, ![a]⟩ x 0xFF800000#32 hr hφ hmax) hc)
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc))) hb)
      = logSoftmaxK x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, broadcast_col_apply, addf_apply, top, logSoftmaxK_apply]
  refine congrArg (fun z => x (ix2 p q) - (rowTop x p + z)) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

/-! ## The reference's spelling -/

/-- Max-reduce along each row from −∞, joined with a −∞ splat, broadcast [n]→[n,1]→[n,c] and subtracted; exponential;
    sum-reduce from zero, broadcast [n]→[n,1]; logarithm; broadcast to [n,c] and subtracted: `logSoftmax`. -/
theorem host_eq {n c : Nat} (L : FVec Ideal ⟨2, ![n, c]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, c]⟩ ![0, 1])
    (hr : (⟨2, ![n, c]⟩ : Shape).ReducesTo [1] ⟨1, ![n]⟩) (hu : 0 < (⟨0, ![]⟩ : Shape).numel) :
    subf (subf L (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf L (constant (F := Ideal) ⟨0, ![]⟩ .f32 0xFF800000#32) hr hu)))))
      (broadcastInDim ⟨2, ![n, c]⟩ ![0, 1] h2 (Host.log (broadcastInDim ⟨2, ![n, 1]⟩ ![0] h1
        (Host.reduceAdd (Host.exp (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr hu))))))
          (constant (F := Ideal) ⟨0, ![]⟩ .f32 0x00000000#32) hr hu))))
      = logSoftmax L := by
  have top : ∀ p : Fin n,
      maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr hu) (ix1 p) = rowTop L p := by
    intro p
    rw [maximumf_apply, Cert.Lib.RowVector.bcastInDim_scalar_apply, host_rowmax_apply]
    show max (Ideal.ofBits .f32 0xFF800000#32) (Finset.fold max (Ideal.ofBits .f32 0xFF800000#32) _ _) = _
    rw [ofBits_neg_inf_f32, fold_max_bot]
    rfl
  funext i
  obtain ⟨p, q, rfl⟩ : ∃ (p : Fin n) (q : Fin c), i = ix2 p q := ⟨i 0, i 1, eq_ix2 i⟩
  rw [subf_apply, subf_apply, bcastInDim_cols_apply, bcastInDim_col_apply, top, bcastInDim_cols_apply, logSoftmax_apply]
  refine congrArg (fun z => (L (ix2 p q) - rowTop L p) - z) ?_
  show Ideal.log _ = _
  rw [bcastInDim_col_apply, Cert.Lib.HostRows.host_rowsum_apply]
  show Ideal.log (Ideal.ofBits .f32 0x00000000#32 + _) = _
  rw [Ideal.ofBits_zero_f32, zero_add]
  refine congrArg Ideal.log (Finset.sum_congr rfl fun k _ => ?_)
  show Ideal.exp (L (ix2 p k) - _) = _
  rw [bcastInDim_cols_apply, bcastInDim_col_apply, top]

end Cert.Lib.LogSoftmaxRows

end
-- ==== Proof.Ref.LogSoftmax.lean ====
/-
  The reference's logarithm of the softmax along each row of the logits, read at an index: over rows of reals it is
  the entry less the logarithm of the sum of the row's exponentials, whatever top the reference subtracts first.
-/
import proofs.«117558_j62045097558541_2_alg».proof.Proof.Ref.Rows
import proofs.«117558_j62045097558541_2_alg».proof.Proof.LibLogSoftmaxRows

open scoped BigOperators

noncomputable section

namespace Cert.Ref

open Cert.ReferenceIdeal Cert.ReferenceIdeal.Gen Cert.ReferenceIdeal.ReadP Idealize.ShloMosaic Idealize.ShloMosaic.ValueIdx
  Cert.Lib.IdealSums Cert.LossSpec

open Cert.Lib.LogSoftmaxRows

variable (X : Fin 8192 → Fin 512 → ℝ) (x0 : (⟨S8192x512, .f32⟩ : BufTy).Contents (Elt Ideal))

/-- Over an array of reals with rows that are not empty, the logarithm of the softmax along each row is the entry less
    the logarithm of the sum of the row's exponentials. -/
theorem logSoftmax_coe {a b : Nat} (hb : 0 < b) (L : (⟨2, ![a, b]⟩ : Shape).Idx → EReal) (l : Fin a → Fin b → ℝ)
    (hL : ∀ p k, L (ix2 p k) = ((l p k : ℝ) : EReal)) (p : Fin a) (q : Fin b) :
    logSoftmax L (ix2 p q) = ((l p q - Real.log (∑ k, Real.exp (l p k)) : ℝ) : EReal) := by
  obtain ⟨m, hm⟩ := rowTop_isReal L p hb (fun k => ⟨_, hL p k⟩)
  have hpos : 0 < ∑ k, Real.exp (l p k) :=
    Finset.sum_pos (fun k _ => Real.exp_pos _) ⟨⟨0, hb⟩, Finset.mem_univ _⟩
  have hs : ∑ k : Fin b, Ideal.exp (L (ix2 p k) - (m : EReal)) = ((∑ k, Real.exp (l p k - m) : ℝ) : EReal) := by
    rw [coe_sum_univ]
    exact Finset.sum_congr rfl fun k _ => by rw [hL, ← EReal.coe_sub, Ideal.exp_coe]
  rw [logSoftmax_apply, rowLogSum, hm, hs, Ideal.log_coe, if_neg (not_le.2 (sum_exp_shift_pos (l p) m hb)), hL,
    ← EReal.coe_sub, ← EReal.coe_sub]
  exact congrArg (fun t : ℝ => (t : EReal)) (sub_log_sum_exp_shift (l p) m q hpos)

/-- The first cross-entropy's logarithm of the softmax. -/
theorem lsmAB_apply (hx : ∀ r k, x0 (ix2 r k) = ((X r k : ℝ) : EReal)) (i : Fin 4096) (k : Fin 8192) :
    val_main_v32 (F := Ideal) x0 (ix2 i k)
      = ((logits (viewA X) (viewB X) i k - Real.log (expSum (viewA X) (viewB X) i) : ℝ) : EReal) := by
  have h : val_main_v32 (F := Ideal) x0 = logSoftmax (val_main_v31 (F := Ideal) x0) :=
    host_eq (val_main_v31 (F := Ideal) x0) bcast_S_S4096 bcast_S4096_S4096x1_0 bcast_S4096x1_S4096x8192_0_1
      reducesTo_S4096x8192_S4096_d1 h_S_
  rw [h, logSoftmax_coe (by norm_num) _ (logits (viewA X) (viewB X)) (rowAB_apply X x0 hx) i k, sum_exp_logits]

/-- The second cross-entropy's logarithm of the softmax. -/
theorem lsmBA_apply (hx : ∀ r k, x0 (ix2 r k) = ((X r k : ℝ) : EReal)) (i : Fin 4096) (k : Fin 8192) :
    val_main_v51 (F := Ideal) x0 (ix2 i k)
      = ((logits (viewB X) (viewA X) i k - Real.log (expSum (viewB X) (viewA X) i) : ℝ) : EReal) := by
  have h : val_main_v51 (F := Ideal) x0 = logSoftmax (val_main_v50 (F := Ideal) x0) :=
    host_eq (val_main_v50 (F := Ideal) x0) bcast_S_S4096 bcast_S4096_S4096x1_0 bcast_S4096x1_S4096x8192_0_1
      reducesTo_S4096x8192_S4096_d1 h_S_
  rw [h, logSoftmax_coe (by norm_num) _ (logits (viewB X) (viewA X)) (rowBA_apply X x0 hx) i k, sum_exp_logits]

end Cert.Ref

end
-- ==== Proof.Ref.Gather.lean ====
/-
  The reference's gather of the diagonal of the first 4096 columns, read at an index. The start indices are the row
  number twice, each through a wrap-around select (a negative index would have the extent added); a row number is
  never negative, so the wrap-around leaves it, and the clamp into the operand leaves it too: entry i of the result
  is the operand at (i, i).
-/
import proofs.«117558_j62045097558541_2_alg».proof.Proof.Ref.LogSoftmax

open scoped BigOperators

noncomputable section

namespace Cert.Ref

open Cert.ReferenceIdeal Cert.ReferenceIdeal.Gen Cert.ReferenceIdeal.ReadP Idealize.ShloMosaic Idealize.ShloMosaic.ValueIdx
  Cert.Lib.IdealSums Cert.LossSpec

variable (X : Fin 8192 → Fin 512 → ℝ) (x0 : (⟨S8192x512, .f32⟩ : BufTy).Contents (Elt Ideal))

/-- A number below 4096 as a 32-bit word has its top bit clear. -/
theorem ofNat_msb (n : Nat) (hn : n < 4096) : (BitVec.ofNat 32 n).msb = false := by
  rw [BitVec.msb_eq_false_iff_two_mul_lt, BitVec.toNat_ofNat]
  omega

/-- Read signed, the word is the number. -/
theorem ofNat_toInt_toNat (n : Nat) (hn : n < 4096) : (BitVec.ofNat 32 n).toInt.toNat = n := by
  rw [BitVec.toInt_eq_toNat_of_msb (ofNat_msb n hn), Int.toNat_natCast, BitVec.toNat_ofNat]
  omega

/-- The wrap-around select leaves a number below 4096. -/
theorem wrap_eq (n : Nat) (hn : n < 4096) (c : BitVec 32) :
    Scalar.select (IntOp.cmpi .slt (BitVec.ofNat 32 n) 0#32) (IntOp.addi (BitVec.ofNat 32 n) c) (BitVec.ofNat 32 n)
      = BitVec.ofNat 32 n := by
  have h : IntOp.cmpi .slt (BitVec.ofNat 32 n) 0#32 = 0#1 := by
    show BitVec.ofBool ((BitVec.ofNat 32 n).slt 0#32) = 0#1
    rw [BitVec.slt_zero_eq_msb, ofNat_msb n hn]
    rfl
  rw [h, select_zero]

/-- The start indices' first column is the row number. -/
theorem startIdx_row (i : Fin 4096) : val_main_v45 (F := Ideal) (ix2 i (0 : Fin 2)) = BitVec.ofNat 32 i.val := by
  unfold val_main_v45
  refine (concatenate_pair_apply_left (1 : Fin S4096x2.rank) _ _ concatenates_S4096x1_S4096x1_S4096x2_d1
    (ix2 i (0 : Fin 2)) rfl (ix2 i (0 : Fin 1)) (fun b => by
      match b with
      | ⟨0, _⟩ => rfl
      | ⟨1, _⟩ => rfl)).trans ?_
  have e : idx_main_v43 (ix2 i (0 : Fin 1)) = ix1 i := funext fun a => Fin.ext (by match a with | ⟨0, _⟩ => rfl)
  rw [val_main_v43_apply, e]
  exact wrap_eq i.val i.isLt _

/-- The start indices' second column is the row number. -/
theorem startIdx_col (i : Fin 4096) : val_main_v45 (F := Ideal) (ix2 i (1 : Fin 2)) = BitVec.ofNat 32 i.val := by
  unfold val_main_v45
  refine (concatenate_pair_apply_right (1 : Fin S4096x2.rank) _ _ concatenates_S4096x1_S4096x1_S4096x2_d1
    (ix2 i (1 : Fin 2)) rfl rfl (ix2 i (0 : Fin 1)) (fun b hb => by
      match b, hb with
      | ⟨0, _⟩, _ => rfl
      | ⟨1, _⟩, hb => exact absurd rfl hb) rfl).trans ?_
  have e : idx_main_v44 (ix2 i (0 : Fin 1)) = ix1 i := funext fun a => Fin.ext (by match a with | ⟨0, _⟩ => rfl)
  rw [val_main_v44_apply, e]
  exact wrap_eq i.val i.isLt _

/-- The second gather's start indices are the first's. -/
theorem startIdx_same : val_main_v64 (F := Ideal) = val_main_v45 (F := Ideal) := rfl

/-- A gather of single entries of a 4096×8192 array at 4096 pairs of start indices reads, at i, the array at the
    pair's two components, each read signed and clamped into the array. -/
theorem gather_pair_apply {α : Type} (Y : S4096x8192.Idx → α) (idx : IVec S4096x2 32) (i c0 : Fin 4096) (c1 : Fin 8192)
    (h0 : min (idx (ix2 i (0 : Fin 2))).toInt.toNat (4096 - 1) = c0.val)
    (h1 : min (idx (ix2 i (1 : Fin 2))).toInt.toNat (8192 - 1) = c1.val) :
    Host.gather gather_S4096x8192_S4096x2_S4096_n_01_n_n_01_1_11 Y idx (ix1 i) = Y (ix2 c0 c1) := by
  have H0 : (gather_S4096x8192_S4096x2_S4096_n_01_n_n_01_1_11.operandIdx (ix1 i) idx (0 : Fin S4096x8192.rank)).val = c0.val := by
    show gather_S4096x8192_S4096x2_S4096_n_01_n_n_01_1_11.start (ix1 i) idx (0 : Fin S4096x8192.rank) + gather_S4096x8192_S4096x2_S4096_n_01_n_n_01_1_11.batchCoord (ix1 i) (0 : Fin S4096x8192.rank)
      + gather_S4096x8192_S4096x2_S4096_n_01_n_n_01_1_11.offCoord (ix1 i) (0 : Fin S4096x8192.rank) = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin S4096x8192.rank) ∈ gather_S4096x8192_S4096x2_S4096_n_01_n_n_01_1_11.startIndexMap from List.mem_cons_self ..)]
    have hsi : gather_S4096x8192_S4096x2_S4096_n_01_n_n_01_1_11.siIdx (ix1 i)
        ⟨List.idxOf (0 : Fin S4096x8192.rank) gather_S4096x8192_S4096x2_S4096_n_01_n_n_01_1_11.startIndexMap, List.idxOf_lt_length_iff.2 (List.mem_cons_self ..)⟩ = ix2 i (0 : Fin 2) := by
      funext b; refine Fin.ext ?_
      match b with
      | ⟨0, _⟩ => rfl
      | ⟨1, _⟩ => rfl
    rw [hsi]
    exact h0
  have H1 : (gather_S4096x8192_S4096x2_S4096_n_01_n_n_01_1_11.operandIdx (ix1 i) idx (1 : Fin S4096x8192.rank)).val = c1.val := by
    show gather_S4096x8192_S4096x2_S4096_n_01_n_n_01_1_11.start (ix1 i) idx (1 : Fin S4096x8192.rank) + gather_S4096x8192_S4096x2_S4096_n_01_n_n_01_1_11.batchCoord (ix1 i) (1 : Fin S4096x8192.rank)
      + gather_S4096x8192_S4096x2_S4096_n_01_n_n_01_1_11.offCoord (ix1 i) (1 : Fin S4096x8192.rank) = _
    rw [GatherDims.batchCoord_eq_zero _ _ _ List.not_mem_nil,
      GatherDims.offCoord_eq_zero _ _ _ (fun h => ((GatherDims.mem_sKept _ _).mp h).1 (List.mem_cons_of_mem _ (List.mem_cons_self ..)))]
    simp only [Nat.add_zero]
    unfold GatherDims.start
    rw [dif_pos (show (1 : Fin S4096x8192.rank) ∈ gather_S4096x8192_S4096x2_S4096_n_01_n_n_01_1_11.startIndexMap from List.mem_cons_of_mem _ (List.mem_cons_self ..))]
    have hsi : gather_S4096x8192_S4096x2_S4096_n_01_n_n_01_1_11.siIdx (ix1 i)
        ⟨List.idxOf (1 : Fin S4096x8192.rank) gather_S4096x8192_S4096x2_S4096_n_01_n_n_01_1_11.startIndexMap, List.idxOf_lt_length_iff.2 (List.mem_cons_of_mem _ (List.mem_cons_self ..))⟩ = ix2 i (1 : Fin 2) := by
      funext b; refine Fin.ext ?_
      match b with
      | ⟨0, _⟩ => rfl
      | ⟨1, _⟩ => rfl
    rw [hsi]
    exact h1
  unfold Host.gather
  congr 1
  funext a
  refine Fin.ext ?_
  match a with
  | ⟨0, _⟩ => exact H0
  | ⟨1, _⟩ => exact H1

/-- With the row number as both start indices the gather reads the diagonal of the first 4096 columns. -/
theorem gather_diag_apply {α : Type} (Y : S4096x8192.Idx → α) (i : Fin 4096) :
    Host.gather gather_S4096x8192_S4096x2_S4096_n_01_n_n_01_1_11 Y (val_main_v45 (F := Ideal)) (ix1 i)
      = Y (ix2 i (⟨i.val, by omega⟩ : Fin 8192)) := by
  refine gather_pair_apply Y _ i i ⟨i.val, by omega⟩ ?_ ?_
  · rw [startIdx_row, ofNat_toInt_toNat i.val i.isLt]; have := i.isLt; omega
  · rw [startIdx_col, ofNat_toInt_toNat i.val i.isLt]; show min i.val (8192 - 1) = i.val; have := i.isLt; omega

/-- The first cross-entropy's diagonal entries. -/
theorem diagAB_apply (hx : ∀ r k, x0 (ix2 r k) = ((X r k : ℝ) : EReal)) (i : Fin 4096) :
    val_main_v46 (F := Ideal) x0 (ix1 i)
      = ((logits (viewA X) (viewB X) i ⟨i.val, by omega⟩ - Real.log (expSum (viewA X) (viewB X) i) : ℝ) : EReal) :=
  (gather_diag_apply (val_main_v32 (F := Ideal) x0) i).trans (lsmAB_apply X x0 hx i _)

/-- The second cross-entropy's diagonal entries. -/
theorem diagBA_apply (hx : ∀ r k, x0 (ix2 r k) = ((X r k : ℝ) : EReal)) (i : Fin 4096) :
    val_main_v65 (F := Ideal) x0 (ix1 i)
      = ((logits (viewB X) (viewA X) i ⟨i.val, by omega⟩ - Real.log (expSum (viewB X) (viewA X) i) : ℝ) : EReal) :=
  (gather_diag_apply (val_main_v51 (F := Ideal) x0) i).trans (lsmBA_apply X x0 hx i _)

end Cert.Ref

end
-- ==== Proof.Ref.Value.lean ====
/-
  The reference's value: over an argument array of reals its one result is the loss — each cross-entropy the negated
  mean over the rows of the diagonal entries of the logarithm of the softmax of the logits, and the two added.
-/
import proofs.«117558_j62045097558541_2_alg».proof.Proof.Ref.Gather

open scoped BigOperators

noncomputable section

namespace Cert.Ref

open Cert.ReferenceIdeal Cert.ReferenceIdeal.Gen Cert.ReferenceIdeal.ReadP Idealize.ShloMosaic Idealize.ShloMosaic.ValueIdx
  Cert.Lib.IdealSums Cert.LossSpec

variable (X : Fin 8192 → Fin 512 → ℝ) (x0 : (⟨S8192x512, .f32⟩ : BufTy).Contents (Elt Ideal))

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- The negated mean of 4096 reals, as the reference computes it. -/
theorem neg_mean_coe (t : Fin 4096 → ℝ) :
    -(Ideal.div (Ideal.ofBits .f32 0x00000000#32 + ∑ a : Fin 4096, ((t a : ℝ) : EReal))
        (Ideal.ofBits .f32 0x45800000#32)) = ((-((∑ a, t a) / 4096) : ℝ) : EReal) := by
  rw [Ideal.ofBits_zero_f32, zero_add, ← coe_sum_univ, Consts.ofBits_rows, div_coe_coe _ (by norm_num), ← EReal.coe_neg]

/-- The first cross-entropy. -/
theorem ceAB_apply (hx : ∀ r k, x0 (ix2 r k) = ((X r k : ℝ) : EReal)) (j : S_.Idx) :
    val_main_v49 (F := Ideal) x0 j = ((crossEntropy (viewA X) (viewB X) : ℝ) : EReal) := by
  show -(Ideal.div (val_main_v47 (F := Ideal) x0 j) (Ideal.ofBits .f32 0x45800000#32)) = _
  rw [val_main_v47_apply, sum_idx1, Finset.sum_congr rfl fun a _ => diagAB_apply X x0 hx a]
  exact (neg_mean_coe _).trans (congrArg (fun t : ℝ => (t : EReal)) (neg_mean_eq_crossEntropy _ _))

/-- The second cross-entropy. -/
theorem ceBA_apply (hx : ∀ r k, x0 (ix2 r k) = ((X r k : ℝ) : EReal)) (j : S_.Idx) :
    val_main_v68 (F := Ideal) x0 j = ((crossEntropy (viewB X) (viewA X) : ℝ) : EReal) := by
  show -(Ideal.div (val_main_v66 (F := Ideal) x0 j) (Ideal.ofBits .f32 0x45800000#32)) = _
  rw [val_main_v66_apply, sum_idx1, Finset.sum_congr rfl fun a _ => diagBA_apply X x0 hx a]
  exact (neg_mean_coe _).trans (congrArg (fun t : ℝ => (t : EReal)) (neg_mean_eq_crossEntropy _ _))

/-- THE REFERENCE'S VALUE: over an argument array of reals the reference's result is the loss. -/
theorem ref_value (X : Fin 8192 → Fin 512 → ℝ) (x0 : (⟨S8192x512, .f32⟩ : BufTy).Contents (Elt Ideal))
    (hx : ∀ r k, x0 (ix2 r k) = ((X r k : ℝ) : EReal)) :
    Cert.ReferenceIdeal.ReadP.val_main_v69 (F := Ideal) x0 = fun _ => ((Cert.LossSpec.loss X : ℝ) : EReal) := by
  funext j
  show val_main_v49 (F := Ideal) x0 j + val_main_v68 (F := Ideal) x0 j = _
  rw [ceAB_apply X x0 hx, ceBA_apply X x0 hx, ← EReal.coe_add]
  rfl

end Cert.Ref

end
-- ==== Proof.Algebraic.lean ====
/- The algebraic conjunct: from memories that agree on the argument, the idealized kernel and the idealized reference both run,
   leave the argument unchanged, and end with the same scalar on every core — the loss of the argument's rows. The
   precondition makes every entry of the argument a real; over an array of reals the kernel's scalar is the loss (the region's
   three result columns are the rows' two log-sum-exps and positive logits, the later operations take the two means and add
   them), and so is the reference's. -/
import proofs.«117558_j62045097558541_2_alg».proof.Defs
import proofs.«117558_j62045097558541_2_alg».proof.Proof.Gen.KernelIdeal
import proofs.«117558_j62045097558541_2_alg».proof.Proof.Gen.ReferenceIdeal
import proofs.«117558_j62045097558541_2_alg».proof.Proof.Gen.Pre_finite_inputs
import proofs.«117558_j62045097558541_2_alg».proof.Proof.FrameClaim
import proofs.«117558_j62045097558541_2_alg».proof.Proof.KValue.Value
import proofs.«117558_j62045097558541_2_alg».proof.Proof.Analysis.Finite
import proofs.«117558_j62045097558541_2_alg».proof.Proof.Ref.Value
import proofs.«117558_j62045097558541_2_alg».proof.Proof.Ref.Run

set_option maxRecDepth 16384

noncomputable section

namespace Cert.Proof

open Idealize.ShloMosaic Idealize.ShloMosaic.TcCoe Idealize.SL.Sem

/-- Both idealized programs end with the loss of the argument's rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hX : ∀ c : Dev Cert.KernelIdeal.nD, ∃ X : Fin 8192 → Fin 512 → ℝ, ∀ r k,
      m ((c.tc : Thread Cert.KernelIdeal.nD Cert.KernelIdeal.τ).loc Cert.KernelIdeal.main_arg0) (ValueIdx.ix2 r k) = ((X r k : ℝ) : EReal) :=
    fun c => Cert.Analysis.reals_of_pre _ (hpre c)
  choose X hX using hX
  refine ⟨fun c _ => ((Cert.LossSpec.loss (X c) : ℝ) : EReal), ?_, ?_⟩
  · exact (θ_run Cert.KernelIdeal.defs _ _).mono
      (fun r h c => ⟨((h c).2 _ Cert.KernelIdeal.Launch.result_bypasses).trans
          (Cert.KernelIdeal.KValue.kernel_value m c _ (X c) (hX c)),
        ((h c).2 _ Cert.KernelIdeal.Launch.arg_bypasses).trans (Cert.KernelIdeal.Launch.end_arg m _)⟩)
      (Cert.KernelIdeal.Launch.run_main (F := Ideal) m ρ)
  · exact (θ_run Cert.ReferenceIdeal.defs _ _).mono
      (fun r h c => ⟨(h c).1.trans (Cert.Ref.ref_value (X c) _ fun r k => (congrFun (hagree c) _).trans (hX c r k)), (h c).2⟩)
      (Cert.Ref.run m' ρ')

end Cert.Proof

end
-- ==== Proof.lean ====
/-
  The five claims about a normalised-temperature cross-entropy loss between two views (8192 rows of 512 features:
  the first 4096 normalised rows are one view, the last 4096 the other).

  The kernel and its idealization each run to the end without a fault and leave the argument array unchanged: the
  host operations before the region normalise the rows; the region walks a 4 × 8 grid, its two input arrays each
  staged by two windows (a block of rows at a time, and whole) and so dealt to them as half shares, three
  accumulators carried from point to point and written out at the last column tile of each row block; the host
  operations after the region take the two means. The reference is a straight line of host operations.
  The idealization's six ledger entries name two constants: the logits' scale, the word 10, read as the reciprocal
  134217728/13421773 of the reference's temperature word, and the floor 1e-30 under the kernel's logarithm.
  At the ideal instance, on finite inputs, both programs end with the same number, the loss of LossSpec: the kernel's
  statically shifted log-sum-exp, accumulated tile by tile, and the reference's max-shifted log-softmax are one
  function of the normalised rows, and the floor never binds, every similarity of two rows of norm at most one being
  at least −1.
-/
import proofs.«117558_j62045097558541_2_alg».proof.Defs
import proofs.«117558_j62045097558541_2_alg».proof.Proof.FrameClaim
import proofs.«117558_j62045097558541_2_alg».proof.Proof.LaunchWord.FrameClaim
import proofs.«117558_j62045097558541_2_alg».proof.Proof.RefFrame
import proofs.«117558_j62045097558541_2_alg».proof.Proof.Algebraic

noncomputable section

namespace Cert.Proof

open Idealize.ShloMosaic Idealize.SL.Sem

/-- The word-level kernel runs and leaves its argument unchanged. -/
theorem frame_k : Cert.frame_Kernel (hKernel := Cert.Kernel.Gen.facts) (hPre_finite_inputs := Cert.Pre_finite_inputs.Gen.facts) :=
  fun m ρ _ => Cert.Kernel.Launch.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Launch.frame m ρ

/-- The ledger's six entries: each named constant is, at the ideal instance, the value the table gives it. -/
theorem preserves : Cert.preserves_Kernel_KernelIdeal :=
  ⟨IdealRules.named_const.statement Cert.KernelIdeal.κ "inv_temperature" .f32 0x41200000#32 ((134217728 / 13421773 : ℝ) : EReal) rfl,
   IdealRules.named_const.statement Cert.KernelIdeal.κ "inv_temperature" .f32 0x41200000#32 ((134217728 / 13421773 : ℝ) : EReal) rfl,
   IdealRules.named_const.statement Cert.KernelIdeal.κ "inv_temperature" .f32 0x41200000#32 ((134217728 / 13421773 : ℝ) : EReal) rfl,
   IdealRules.named_const.statement Cert.KernelIdeal.κ "inv_temperature" .f32 0x41200000#32 ((134217728 / 13421773 : ℝ) : EReal) rfl,
   IdealRules.named_const.statement Cert.KernelIdeal.κ "inv_1000000000000000000000000000000" .f32 0x0DA24260#32 ((1 / 1000000000000000000000000000000 : ℝ) : EReal) rfl,
   IdealRules.named_const.statement Cert.KernelIdeal.κ "inv_1000000000000000000000000000000" .f32 0x0DA24260#32 ((1 / 1000000000000000000000000000000 : ℝ) : EReal) rfl⟩

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame, preserves, Cert.Proof.algebraic⟩

end Cert.Proof

end
